-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S800000 : Shape := ⟨1, ![800000]⟩
abbrev S1x32 : Shape := ⟨2, ![1, 32]⟩
abbrev S32 : Shape := ⟨1, ![32]⟩
abbrev S32x32 : Shape := ⟨2, ![32, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S2x800000 : Shape := ⟨2, ![2, 800000]⟩
abbrev S_ : Shape := ⟨0, ![]⟩
abbrev S1x800000 : Shape := ⟨2, ![1, 800000]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S800000 : S_.BroadcastsInDim S800000 (![] : Fin 0 → Fin S800000.rank)
  reducesTo_S800000_S_d0 : S800000.ReducesTo [0] S_
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x1 : S_.BroadcastsInDim S128x1 (![] : Fin 0 → Fin S128x1.rank)
  reducesTo_S128x1_S_d0_1 : S128x1.ReducesTo [0, 1] S_
  slices_S2x800000_S1x800000_1_0 : S2x800000.Slices ![1, 0] S1x800000
  shapeCasts_S1x800000_S800000 : S1x800000.ShapeCasts S800000

variable [Facts]

def fn_part4 {F : FTy → Type} [FloatOps F] (main_arg14 : IVec S2x800000 32) (main_v63 : IVec S_ 1) (main_v67 : IVec S_ 1) : IVec S_ 1 :=
  let main_v68 : IVec S_ 1 := andi main_v63 main_v67
  let main_v69 : IVec S1x800000 32 := (extractStridedSlice S1x800000 ![1, 0] · slices_S2x800000_S1x800000_1_0) main_arg14
  let main_v70 : IVec S800000 32 := shapeCast S800000 main_v69 shapeCasts_S1x800000_S800000
  let main_c_26 : IVec S_ 32 := constantI S_ 32 0#32
  let main_v71 : IVec S800000 32 := broadcastInDim S800000 ![] bcast_S_S800000 main_c_26
  let main_v72 : IVec S800000 1 := cmpi .sge main_v70 main_v71
  let main_c_27 : IVec S_ 1 := constantI S_ 1 1#1
  let main_v73 : IVec S_ 1 := (fun x v => Host.reduce IntOp.andi x v reducesTo_S800000_S_d0 h_S_) main_v72 main_c_27
  let main_v74 : IVec S_ 1 := andi main_v68 main_v73
  main_v74

def fn_part3 {F : FTy → Type} [FloatOps F] (main_arg11 : FVec F S160x128 .f32) (main_arg12 : FVec F S128 .f32) (main_arg13 : FVec F S128x1 .f32) (main_arg14 : IVec S2x800000 32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S160x128 .f32 := Host.absf main_arg11
  let main_cst_20 : FVec F S_ .f32 := constant S_ .f32 0x7F800000#32
  let main_v55 : FVec F S160x128 .f32 := broadcastInDim S160x128 ![] bcast_S_S160x128 main_cst_20
  let main_v56 : IVec S160x128 1 := cmpf .olt main_v54 main_v55
  let main_c_21 : IVec S_ 1 := constantI S_ 1 1#1
  let main_v57 : IVec S_ 1 := (fun x v => Host.reduce IntOp.andi x v reducesTo_S160x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x1 .f32 := Host.absf main_arg13
  let main_cst_24 : FVec F S_ .f32 := constant S_ .f32 0x7F800000#32
  let main_v65 : FVec F S128x1 .f32 := broadcastInDim S128x1 ![] bcast_S_S128x1 main_cst_24
  let main_v66 : IVec S128x1 1 := cmpf .olt main_v64 main_v65
  let main_c_25 : IVec S_ 1 := constantI S_ 1 1#1
  let main_v67 : IVec S_ 1 := (fun x v => Host.reduce IntOp.andi x v reducesTo_S128x1_S_d0_1 h_S_) main_v66 main_c_25
  fn_part4 (F := F) main_arg14 main_v63 main_v67

def fn_part2 {F : FTy → Type} [FloatOps F] (main_arg7 : FVec F S160x128 .f32) (main_arg8 : FVec F S128 .f32) (main_arg9 : FVec F S128x64 .f32) (main_arg10 : FVec F S64 .f32) (main_arg11 : FVec F S160x128 .f32) (main_arg12 : FVec F S128 .f32) (main_arg13 : FVec F S128x1 .f32) (main_arg14 : IVec S2x800000 32) (main_v33 : IVec S_ 1) : IVec S_ 1 :=
  let main_v34 : FVec F S160x128 .f32 := Host.absf main_arg7
  let main_cst_12 : FVec F S_ .f32 := constant S_ .f32 0x7F800000#32
  let main_v35 : FVec F S160x128 .f32 := broadcastInDim S160x128 ![] bcast_S_S160x128 main_cst_12
  let main_v36 : IVec S160x128 1 := cmpf .olt main_v34 main_v35
  let main_c_13 : IVec S_ 1 := constantI S_ 1 1#1
  let main_v37 : IVec S_ 1 := (fun x v => Host.reduce IntOp.andi x v reducesTo_S160x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg9
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_v48 main_v49 main_v50

def fn_part1 {F : FTy → Type} [FloatOps F] (main_arg4 : FVec F S32 .f32) (main_arg5 : FVec F S32x32 .f32) (main_arg6 : FVec F S32 .f32) (main_arg7 : FVec F S160x128 .f32) (main_arg8 : FVec F S128 .f32) (main_arg9 : FVec F S128x64 .f32) (main_arg10 : FVec F S64 .f32) (main_arg11 : FVec F S160x128 .f32) (main_arg12 : FVec F S128 .f32) (main_arg13 : FVec F S128x1 .f32) (main_arg14 : IVec S2x800000 32) (main_v13 : IVec S_ 1) (main_v16 : IVec S1x32 1) : IVec S_ 1 :=
  let main_c_5 : IVec S_ 1 := constantI S_ 1 1#1
  let main_v17 : IVec S_ 1 := (fun x v => Host.reduce IntOp.andi x v reducesTo_S1x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S50000x64 .f32) (main_arg1 : FVec F S50000x3 .f32) (main_arg2 : FVec F S800000 .f32) (main_arg3 : FVec F S1x32 .f32) (main_arg4 : FVec F S32 .f32) (main_arg5 : FVec F S32x32 .f32) (main_arg6 : FVec F S32 .f32) (main_arg7 : FVec F S160x128 .f32) (main_arg8 : FVec F S128 .f32) (main_arg9 : FVec F S128x64 .f32) (main_arg10 : FVec F S64 .f32) (main_arg11 : FVec F S160x128 .f32) (main_arg12 : FVec F S128 .f32) (main_arg13 : FVec F S128x1 .f32) (main_arg14 : IVec S2x800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S800000 .f32 := Host.absf main_arg2
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S1x32 .f32 := Host.absf main_arg3
  let main_cst_4 : FVec F S_ .f32 := constant S_ .f32 0x7F800000#32
  let main_v15 : FVec F S1x32 .f32 := broadcastInDim S1x32 ![] bcast_S_S1x32 main_cst_4
  let main_v16 : IVec S1x32 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S50000x64 : Shape := ⟨2, ![50000, 64]⟩
abbrev S50000x3 : Shape := ⟨2, ![50000, 3]⟩
abbrev S800000 : Shape := ⟨1, ![800000]⟩
abbrev S1x32 : Shape := ⟨2, ![1, 32]⟩
abbrev S32 : Shape := ⟨1, ![32]⟩
abbrev S32x32 : Shape := ⟨2, ![32, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S2x800000 : Shape := ⟨2, ![2, 800000]⟩
abbrev S1x800000 : Shape := ⟨2, ![1, 800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S800000x3 : Shape := ⟨2, ![800000, 3]⟩
abbrev S800000x7 : Shape := ⟨2, ![800000, 7]⟩
abbrev S128x128 : Shape := ⟨2, ![128, 128]⟩
abbrev S32x128 : Shape := ⟨2, ![32, 128]⟩
abbrev S1x128 : Shape := ⟨2, ![1, 128]⟩
abbrev S1x64 : Shape := ⟨2, ![1, 64]⟩
abbrev S800000x67 : Shape := ⟨2, ![800000, 67]⟩
abbrev S3200x128 : Shape := ⟨2, ![3200, 128]⟩
abbrev S3200x7 : Shape := ⟨2, ![3200, 7]⟩
abbrev S3200x67 : Shape := ⟨2, ![3200, 67]⟩
abbrev S3200x1 : Shape := ⟨2, ![3200, 1]⟩
abbrev S3200x3 : Shape := ⟨2, ![3200, 3]⟩
abbrev S3200x32 : Shape := ⟨2, ![3200, 32]⟩
abbrev S3200x64 : Shape := ⟨2, ![3200, 64]⟩
abbrev S3200 : Shape := ⟨1, ![3200]⟩

abbrev nBuf : Space → Nat
  | .hbm => 89
  | .vmem => 19
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S800000, .f32⟩
  | .hbm, ⟨3, _⟩ => ⟨S1x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S160x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S160x128, .f32⟩
  | .hbm, ⟨12, _⟩ => ⟨S128, .f32⟩
  | .hbm, ⟨13, _⟩ => ⟨S128x1, .f32⟩
  | .hbm, ⟨14, _⟩ => ⟨S2x800000, .i32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S50000x64, .bf16⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .bf16⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .bf16⟩
  | .hbm, ⟨38, _⟩ => ⟨S800000x128, .bf16⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x3, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x3, .f32⟩
  | .hbm, ⟨57, _⟩ => ⟨S800000x1, .f32⟩
  | .hbm, ⟨58, _⟩ => ⟨S800000x7, .f32⟩
  | .hbm, ⟨59, _⟩ => ⟨S128x128, .f32⟩
  | .hbm, ⟨60, _⟩ => ⟨S32x128, .f32⟩
  | .hbm, ⟨61, _⟩ => ⟨S128x128, .f32⟩
  | .hbm, ⟨62, _⟩ => ⟨S32x128, .f32⟩
  | .hbm, ⟨63, _⟩ => ⟨S1x32, .f32⟩
  | .hbm, ⟨64, _⟩ => ⟨S1x32, .f32⟩
  | .hbm, ⟨65, _⟩ => ⟨S1x128, .f32⟩
  | .hbm, ⟨66, _⟩ => ⟨S1x64, .f32⟩
  | .hbm, ⟨67, _⟩ => ⟨S1x128, .f32⟩
  | .hbm, ⟨68, _⟩ => ⟨S800000x67, .f32⟩
  | .hbm, ⟨69, _⟩ => ⟨S800000x64, .f32⟩
  | .hbm, ⟨70, _⟩ => ⟨S800000x3, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S50000x64, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S50000x3, .f32⟩
  | .local _ .vmem, ⟨0, _⟩ => ⟨S3200x128, .bf16⟩
  | .local _ .vmem, ⟨1, _⟩ => ⟨S3200x128, .bf16⟩
  | .local _ .vmem, ⟨2, _⟩ => ⟨S3200x7, .f32⟩
  | .local _ .vmem, ⟨3, _⟩ => ⟨S3200x7, .f32⟩
  | .local _ .vmem, ⟨4, _⟩ => ⟨S1x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S128x128, .f32⟩
  | .local _ .vmem, ⟨9, _⟩ => ⟨S32x128, .f32⟩
  | .local _ .vmem, ⟨10, _⟩ => ⟨S1x128, .f32⟩
  | .local _ .vmem, ⟨11, _⟩ => ⟨S128x64, .f32⟩
  | .local _ .vmem, ⟨12, _⟩ => ⟨S1x64, .f32⟩
  | .local _ .vmem, ⟨13, _⟩ => ⟨S128x128, .f32⟩
  | .local _ .vmem, ⟨14, _⟩ => ⟨S32x128, .f32⟩
  | .local _ .vmem, ⟨15, _⟩ => ⟨S1x128, .f32⟩
  | .local _ .vmem, ⟨16, _⟩ => ⟨S128x1, .f32⟩
  | .local _ .vmem, ⟨17, _⟩ => ⟨S3200x67, .f32⟩
  | .local _ .vmem, ⟨18, _⟩ => ⟨S3200x67, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_c_6 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_7 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_9 : Ref sig .tc := ⟨.hbm, 80, rfl⟩
abbrev main_v55 : Ref sig .tc := ⟨.hbm, 81, rfl⟩
abbrev main_v56 : Ref sig .tc := ⟨.hbm, 82, rfl⟩
abbrev main_c_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S3200x67 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  concatenates_S800000x1_S800000x3_S800000x3_S800000x7_d1 : Shape.Concatenates [S800000x1, S800000x3, S800000x3] S800000x7 1
  slices_S160x128_S128x128_0_0 : S160x128.Slices ![0, 0] S128x128
  slices_S160x128_S32x128_128_0 : S160x128.Slices ![128, 0] S32x128
  shapeCasts_S32_S1x32 : S32.ShapeCasts S1x32
  shapeCasts_S128_S1x128 : S128.ShapeCasts S1x128
  shapeCasts_S64_S1x64 : S64.ShapeCasts S1x64
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S3200x7_S3200x7_0_0 : ∀ a, (![0, 0] : Fin 2 → Nat) a + S3200x7.size a ≤ S3200x7.size a
  h_S3200x7 : 0 < S3200x7.numel
  shapeCasts_S3200x7_S3200x7 : S3200x7.ShapeCasts S3200x7
  slices_S3200x7_o0_0_S3200x1 : S3200x7.Slices ![0, 0] S3200x1
  slices_S3200x7_o0_1_S3200x3 : S3200x7.Slices ![0, 1] S3200x3
  slices_S3200x7_o0_4_S3200x3 : S3200x7.Slices ![0, 4] S3200x3
  inb_S1x32_S1x32_0_0 : ∀ a, (![0, 0] : Fin 2 → Nat) a + S1x32.size a ≤ S1x32.size a
  h_S1x32 : 0 < S1x32.numel
  broadcasts_S3200x1_S3200x32 : S3200x1.Broadcasts S3200x32
  broadcasts_S1x32_S3200x32 : S1x32.Broadcasts S3200x32
  shapeCasts_S1x32_S1x32 : S1x32.ShapeCasts S1x32
  inb_S32x32_S32x32_0_0 : ∀ a, (![0, 0] : Fin 2 → Nat) a + S32x32.size a ≤ S32x32.size a
  h_S32x32 : 0 < S32x32.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S3200x64 : S1x64.Broadcasts S3200x64
  inb_S128x1_S128x1_0_0 : ∀ a, (![0, 0] : Fin 2 → Nat) a + S128x1.size a ≤ S128x1.size a
  h_S128x1 : 0 < S128x1.numel
  reduces_S3200x3_S3200 : S3200x3.Reduces [1] S3200
  shapeCasts_S3200_S3200x1 : S3200.ShapeCasts S3200x1
  broadcasts_S3200x1_S3200x3 : S3200x1.Broadcasts S3200x3
  concatenates_S3200x64_S3200x3_S3200x67_d1 : Shape.Concatenates [S3200x64, S3200x3] S3200x67 1
  inb_S3200x67_S3200x67_0_0 : ∀ a, (![0, 0] : Fin 2 → Nat) a + S3200x67.size a ≤ S3200x67.size a
  h_S3200x67 : 0 < S3200x67.numel
  slices_S800000x67_S800000x64_0_0 : S800000x67.Slices ![0, 0] S800000x64
  slices_S800000x67_S800000x3_0_64 : S800000x67.Slices ![0, 64] S800000x3
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  dot_S3200x32_S32x32_S3200x32_1_0_0_1_n_n_wf : DotDims.WF S3200x32 S32x32 S3200x32 [1] [0] [0] [1] [] []
  dot_S3200x128_S128x128_S3200x128_1_0_0_1_n_n_wf : DotDims.WF S3200x128 S128x128 S3200x128 [1] [0] [0] [1] [] []
  dot_S3200x32_S32x128_S3200x128_1_0_0_1_n_n_wf : DotDims.WF S3200x32 S32x128 S3200x128 [1] [0] [0] [1] [] []
  dot_S3200x128_S128x64_S3200x64_1_0_0_1_n_n_wf : DotDims.WF S3200x128 S128x64 S3200x64 [1] [0] [0] [1] [] []
  dot_S3200x128_S128x1_S3200x1_1_0_0_1_n_n_wf : DotDims.WF S3200x128 S128x1 S3200x1 [1] [0] [0] [1] [] []
  scatter_S50000x64_S800000x1_S800000x64_1_0_0_1_wf : ScatterDims.WF S50000x64 S800000x1 S800000x64 [1] [0] [0] 1
  scatter_S50000x3_S800000x1_S800000x3_1_0_0_1_wf : ScatterDims.WF S50000x3 S800000x1 S800000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .bf16 = 32 ∨ (Rect.block (s := S800000x128) S3200x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x7.size a ≤ S800000x7.size a
  hwx0_1 : ∀ i : grid0.Coords, EltTy.bits .f32 = 32 ∨ (Rect.block (s := S800000x7) S3200x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S32x128.size a
  hwx0_7 : ∀ i : grid0.Coords, EltTy.bits .f32 = 32 ∨ (Rect.block (s := S32x128) S32x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S32x128.size a ≤ S32x128.size a
  hwx0_12 : ∀ i : grid0.Coords, EltTy.bits .f32 = 32 ∨ (Rect.block (s := S32x128) S32x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S128x1.size a ≤ S128x1.size a
  hwx0_14 : ∀ i : grid0.Coords, EltTy.bits .f32 = 32 ∨ (Rect.block (s := S128x1) S128x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S3200x67.size a ≤ S800000x67.size a
  hwx0_15 : ∀ i : grid0.Coords, EltTy.bits .f32 = 32 ∨ (Rect.block (s := S800000x67) S3200x67.size (cc0_transform_15 i) (hinb0_15 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S3200x32_S32x32_S3200x32_1_0_0_1_n_n : DotDims S3200x32 S32x32 S3200x32 where
  lhsContracting := [1]
  rhsContracting := [0]
  lhsNonContracting := [0]
  rhsNonContracting := [1]
  lhsBatch := []
  rhsBatch := []
  wf := dot_S3200x32_S32x32_S3200x32_1_0_0_1_n_n_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x32_S32x128_S3200x128_1_0_0_1_n_n : DotDims S3200x32 S32x128 S3200x128 where
  lhsContracting := [1]
  rhsContracting := [0]
  lhsNonContracting := [0]
  rhsNonContracting := [1]
  lhsBatch := []
  rhsBatch := []
  wf := dot_S3200x32_S32x128_S3200x128_1_0_0_1_n_n_wf
def dot_S3200x128_S128x64_S3200x64_1_0_0_1_n_n : DotDims S3200x128 S128x64 S3200x64 where
  lhsContracting := [1]
  rhsContracting := [0]
  lhsNonContracting := [0]
  rhsNonContracting := [1]
  lhsBatch := []
  rhsBatch := []
  wf := dot_S3200x128_S128x64_S3200x64_1_0_0_1_n_n_wf
def dot_S3200x128_S128x1_S3200x1_1_0_0_1_n_n : DotDims S3200x128 S128x1 S3200x1 where
  lhsContracting := [1]
  rhsContracting := [0]
  lhsNonContracting := [0]
  rhsNonContracting := [1]
  lhsBatch := []
  rhsBatch := []
  wf := dot_S3200x128_S128x1_S3200x1_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

abbrev win0_0 : Pipeline.Window sig grid0 :=
  Pipeline.Window.ofSpec (Memref.whole main_v19) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S3200x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v41) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v36) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v37) S32x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v42) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v43) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v38) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v39) S32x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v44) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S128x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v45) S3200x67.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S800000 : Shape := ⟨1, ![800000]⟩
abbrev S1x32 : Shape := ⟨2, ![1, 32]⟩
abbrev S32 : Shape := ⟨1, ![32]⟩
abbrev S32x32 : Shape := ⟨2, ![32, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S128x1 : Shape := ⟨2, ![128, 1]⟩
abbrev S2x800000 : Shape := ⟨2, ![2, 800000]⟩
abbrev S1x800000 : Shape := ⟨2, ![1, 800000]⟩
abbrev S800000x1 : Shape := ⟨2, ![800000, 1]⟩
abbrev S800000x32 : Shape := ⟨2, ![800000, 32]⟩
abbrev S_ : Shape := ⟨0, ![]⟩
abbrev S800000x64 : Shape := ⟨2, ![800000, 64]⟩
abbrev S800000x160 : Shape := ⟨2, ![800000, 160]⟩
abbrev S800000x128 : Shape := ⟨2, ![800000, 128]⟩
abbrev S1x128 : Shape := ⟨2, ![1, 128]⟩
abbrev S1x64 : Shape := ⟨2, ![1, 64]⟩
abbrev S800000x3 : Shape := ⟨2, ![800000, 3]⟩

abbrev nBuf : Space → Nat
  | .hbm => 128
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x3, .f32⟩
  | .hbm, ⟨2, _⟩ => ⟨S800000, .f32⟩
  | .hbm, ⟨3, _⟩ => ⟨S1x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S160x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S160x128, .f32⟩
  | .hbm, ⟨12, _⟩ => ⟨S128, .f32⟩
  | .hbm, ⟨13, _⟩ => ⟨S128x1, .f32⟩
  | .hbm, ⟨14, _⟩ => ⟨S2x800000, .i32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S800000x1, .f32⟩
  | .hbm, ⟨20, _⟩ => ⟨S800000x32, .f32⟩
  | .hbm, ⟨21, _⟩ => ⟨S1x32, .f32⟩
  | .hbm, ⟨22, _⟩ => ⟨S800000x32, .f32⟩
  | .hbm, ⟨23, _⟩ => ⟨S800000x32, .f32⟩
  | .hbm, ⟨24, _⟩ => ⟨S800000x32, .f32⟩
  | .hbm, ⟨25, _⟩ => ⟨S800000x32, .f32⟩
  | .hbm, ⟨26, _⟩ => ⟨S_, .f32⟩
  | .hbm, ⟨27, _⟩ => ⟨S800000x32, .f32⟩
  | .hbm, ⟨28, _⟩ => ⟨S800000x32, .f32⟩
  | .hbm, ⟨29, _⟩ => ⟨S_, .f32⟩
  | .hbm, ⟨30, _⟩ => ⟨S800000x32, .f32⟩
  | .hbm, ⟨31, _⟩ => ⟨S800000x32, .f32⟩
  | .hbm, ⟨32, _⟩ => ⟨S800000x32, .f32⟩
  | .hbm, ⟨33, _⟩ => ⟨S800000x32, .f32⟩
  | .hbm, ⟨34, _⟩ => ⟨S1x32, .f32⟩
  | .hbm, ⟨35, _⟩ => ⟨S800000x32, .f32⟩
  | .hbm, ⟨36, _⟩ => ⟨S800000x32, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S800000x160, .f32⟩
  | .hbm, ⟨56, _⟩ => ⟨S800000x128, .f32⟩
  | .hbm, ⟨57, _⟩ => ⟨S1x128, .f32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S800000x128, .f32⟩
  | .hbm, ⟨64, _⟩ => ⟨S800000x128, .f32⟩
  | .hbm, ⟨65, _⟩ => ⟨S_, .f32⟩
  | .hbm, ⟨66, _⟩ => ⟨S800000x128, .f32⟩
  | .hbm, ⟨67, _⟩ => ⟨S800000x128, .f32⟩
  | .hbm, ⟨68, _⟩ => ⟨S800000x128, .f32⟩
  | .hbm, ⟨69, _⟩ => ⟨S800000x64, .f32⟩
  | .hbm, ⟨70, _⟩ => ⟨S1x64, .f32⟩
  | .hbm, ⟨71, _⟩ => ⟨S800000x64, .f32⟩
  | .hbm, ⟨72, _⟩ => ⟨S800000x64, .f32⟩
  | .hbm, ⟨73, _⟩ => ⟨S_, .f32⟩
  | .hbm, ⟨74, _⟩ => ⟨S50000x64, .f32⟩
  | .hbm, ⟨75, _⟩ => ⟨S800000x1, .i32⟩
  | .hbm, ⟨76, _⟩ => ⟨S50000x64, .f32⟩
  | .hbm, ⟨77, _⟩ => ⟨S800000x128, .f32⟩
  | .hbm, ⟨78, _⟩ => ⟨S1x128, .f32⟩
  | .hbm, ⟨79, _⟩ => ⟨S800000x128, .f32⟩
  | .hbm, ⟨80, _⟩ => ⟨S800000x128, .f32⟩
  | .hbm, ⟨81, _⟩ => ⟨S800000x128, .f32⟩
  | .hbm, ⟨82, _⟩ => ⟨S800000x128, .f32⟩
  | .hbm, ⟨83, _⟩ => ⟨S_, .f32⟩
  | .hbm, ⟨84, _⟩ => ⟨S800000x128, .f32⟩
  | .hbm, ⟨85, _⟩ => ⟨S800000x128, .f32⟩
  | .hbm, ⟨86, _⟩ => ⟨S_, .f32⟩
  | .hbm, ⟨87, _⟩ => ⟨S800000x128, .f32⟩
  | .hbm, ⟨88, _⟩ => ⟨S800000x128, .f32⟩
  | .hbm, ⟨89, _⟩ => ⟨S800000x128, .f32⟩
  | .hbm, ⟨90, _⟩ => ⟨S800000x1, .f32⟩
  | .hbm, ⟨91, _⟩ => ⟨S_, .i32⟩
  | .hbm, ⟨92, _⟩ => ⟨S800000, .i32⟩
  | .hbm, ⟨93, _⟩ => ⟨S800000, .i1⟩
  | .hbm, ⟨94, _⟩ => ⟨S_, .i32⟩
  | .hbm, ⟨95, _⟩ => ⟨S800000, .i32⟩
  | .hbm, ⟨96, _⟩ => ⟨S800000, .i32⟩
  | .hbm, ⟨97, _⟩ => ⟨S800000, .i32⟩
  | .hbm, ⟨98, _⟩ => ⟨S800000x1, .i32⟩
  | .hbm, ⟨99, _⟩ => ⟨S800000x3, .f32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000x3, .f32⟩
  | .hbm, ⟨109, _⟩ => ⟨S800000x3, .f32⟩
  | .hbm, ⟨110, _⟩ => ⟨S800000x3, .f32⟩
  | .hbm, ⟨111, _⟩ => ⟨S_, .f32⟩
  | .hbm, ⟨112, _⟩ => ⟨S800000, .f32⟩
  | .hbm, ⟨113, _⟩ => ⟨S800000x1, .f32⟩
  | .hbm, ⟨114, _⟩ => ⟨S800000x1, .f32⟩
  | .hbm, ⟨115, _⟩ => ⟨S_, .f32⟩
  | .hbm, ⟨116, _⟩ => ⟨S800000x1, .f32⟩
  | .hbm, ⟨117, _⟩ => ⟨S800000x1, .f32⟩
  | .hbm, ⟨118, _⟩ => ⟨S800000x3, .f32⟩
  | .hbm, ⟨119, _⟩ => ⟨S800000x3, .f32⟩
  | .hbm, ⟨120, _⟩ => ⟨S800000x3, .f32⟩
  | .hbm, ⟨121, _⟩ => ⟨S800000x3, .f32⟩
  | .hbm, ⟨122, _⟩ => ⟨S_, .f32⟩
  | .hbm, ⟨123, _⟩ => ⟨S50000x3, .f32⟩
  | .hbm, ⟨124, _⟩ => ⟨S800000x1, .i32⟩
  | .hbm, ⟨125, _⟩ => ⟨S50000x3, .f32⟩
  | .hbm, ⟨126, _⟩ => ⟨S50000x64, .f32⟩
  | .hbm, ⟨127, _⟩ => ⟨S50000x3, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c : Ref sig .tc := ⟨.hbm, 37, rfl⟩
abbrev main_v14 : Ref sig .tc := ⟨.hbm, 38, rfl⟩
abbrev main_v15 : Ref sig .tc := ⟨.hbm, 39, rfl⟩
abbrev main_c_0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_c_1 : Ref sig .tc := ⟨.hbm, 46, rfl⟩
abbrev main_v21 : Ref sig .tc := ⟨.hbm, 47, rfl⟩
abbrev main_v22 : Ref sig .tc := ⟨.hbm, 48, rfl⟩
abbrev main_c_2 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v45 : Ref sig .tc := ⟨.hbm, 89, rfl⟩
abbrev main_v46 : Ref sig .tc := ⟨.hbm, 90, rfl⟩
abbrev main_c_3 : Ref sig .tc := ⟨.hbm, 91, rfl⟩
abbrev main_v47 : Ref sig .tc := ⟨.hbm, 92, rfl⟩
abbrev main_v48 : Ref sig .tc := ⟨.hbm, 93, rfl⟩
abbrev main_c_4 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_c_5 : Ref sig .tc := ⟨.hbm, 100, rfl⟩
abbrev main_v54 : Ref sig .tc := ⟨.hbm, 101, rfl⟩
abbrev main_v55 : Ref sig .tc := ⟨.hbm, 102, rfl⟩
abbrev main_c_6 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_call3_v0 : Ref sig .tc := ⟨.hbm, 110, rfl⟩
abbrev main_call3_cst : Ref sig .tc := ⟨.hbm, 111, rfl⟩
abbrev main_call3_v1 : Ref sig .tc := ⟨.hbm, 112, rfl⟩
abbrev main_call3_v2 : Ref sig .tc := ⟨.hbm, 113, rfl⟩
abbrev main_v62 : Ref sig .tc := ⟨.hbm, 114, rfl⟩
abbrev main_cst_7 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_cst_8 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S32_S1x32_1 : S32.BroadcastsInDim S1x32 (![1] : Fin 1 → Fin S1x32.rank)
  bcast_S1x32_S800000x32_0_1 : S1x32.BroadcastsInDim S800000x32 (![0, 1] : Fin 2 → Fin S800000x32.rank)
  bcast_S_S800000x32 : S_.BroadcastsInDim S800000x32 (![] : Fin 0 → Fin S800000x32.rank)
  bcast_S_S800000 : S_.BroadcastsInDim S800000 (![] : Fin 0 → Fin S800000.rank)
  concatenates_S800000x64_S800000x64_S800000x32_S800000x160_d1 : Shape.Concatenates [S800000x64, S800000x64, S800000x32] S800000x160 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  reducesTo_S800000x3_S800000_d1 : S800000x3.ReducesTo [1] S800000
  h_S_ : 0 < S_.numel
  bcast_S_S800000x1 : S_.BroadcastsInDim S800000x1 (![] : Fin 0 → Fin S800000x1.rank)
  bcast_S800000x1_S800000x3_0_1 : S800000x1.BroadcastsInDim S800000x3 (![0, 1] : Fin 2 → Fin S800000x3.rank)
  bcast_S_S50000x3 : S_.BroadcastsInDim S50000x3 (![] : Fin 0 → Fin S50000x3.rank)
  dot_S800000x1_S1x32_S800000x32_1_0_0_1_n_n_wf : DotDims.WF S800000x1 S1x32 S800000x32 [1] [0] [0] [1] [] []
  dot_S800000x32_S32x32_S800000x32_1_0_0_1_n_n_wf : DotDims.WF S800000x32 S32x32 S800000x32 [1] [0] [0] [1] [] []
  gather_S50000x64_S800000x1_S800000x64_1_0_n_n_0_1_164_wf : GatherDims.WF S50000x64 S800000x1 S800000x64 [1] [0] [] [0] [] 1 ![1, 64]
  dot_S800000x160_S160x128_S800000x128_1_0_0_1_n_n_wf : DotDims.WF S800000x160 S160x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S800000x128_S128x1_S800000x1_1_0_0_1_n_n_wf : DotDims.WF S800000x128 S128x1 S800000x1 [1] [0] [0] [1] [] []
  gather_S50000x3_S800000x1_S800000x3_1_0_n_n_0_1_13_wf : GatherDims.WF S50000x3 S800000x1 S800000x3 [1] [0] [] [0] [] 1 ![1, 3]
  scatter_S50000x3_S800000x1_S800000x3_1_0_0_1_wf : ScatterDims.WF S50000x3 S800000x1 S800000x3 [1] [0] [0] 1

variable [Facts₀]

def dot_S800000x1_S1x32_S800000x32_1_0_0_1_n_n : DotDims S800000x1 S1x32 S800000x32 where
  lhsContracting := [1]
  rhsContracting := [0]
  lhsNonContracting := [0]
  rhsNonContracting := [1]
  lhsBatch := []
  rhsBatch := []
  wf := dot_S800000x1_S1x32_S800000x32_1_0_0_1_n_n_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x160_S160x128_S800000x128_1_0_0_1_n_n : DotDims S800000x160 S160x128 S800000x128 where
  lhsContracting := [1]
  rhsContracting := [0]
  lhsNonContracting := [0]
  rhsNonContracting := [1]
  lhsBatch := []
  rhsBatch := []
  wf := dot_S800000x160_S160x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf

class Facts : Prop extends Facts₀ where

variable [Facts]
-- ==== Proof.FrameIdeal.lean ====
import proofs.«138976_j2319282340047_2_alg».proof.Proof.Gen.KernelIdeal.Launch
import proofs.«138976_j2319282340047_2_alg».proof.Proof.Gen.KernelIdeal.Skeleton
import proofs.«138976_j2319282340047_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # The frame of the edge-layer program, run by hand

The main function is: host lines (slices, index normalisation, four gathers, two concatenations, weight slices
and reshapes), one pipelined region over 250 grid points with sixteen windows, then host lines (two slices of the
region's result, index normalisation, two scatter-adds). The region's body loads each of its fifteen input
windows whole, computes one value of shape 3200 x 67 from them, and stores it whole into the output window.

This file states, for any float instance: what the arrays hold when the region is entered, each window's block
at a grid point, what the body leaves in the output window (one store covering the buffer), the body's triple,
the proof data of the pipeline, and the run of the main function around the region. The frame claim follows: no
host line writes an argument array, and the region writes its output array only. -/

-- membership in a rectangle of full-size extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function around the region -/

/-- Core c's buffer contents when the region is entered: the launch memory after the host lines before the
    region. Kept as a fold; never evaluated. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The main function is the host lines before the region, the region, and the host lines after it; so it
    reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only the pipeline's arrays and the buffers that bypass the region: each line's buffers
    are unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- No result buffer of a later line is a window's array. -/
theorem tail_results_ne : ∀ w : Fin 16, ∀ b ∈ ([main_v46, main_v47, main_c_7, main_v48, main_v49, main_c_8, main_v50, main_v51, main_v52, main_v53, main_v54, main_c_9, main_v55, main_v56, main_c_10, main_v57, main_v58, main_v59, main_v60, main_v61] : List (Ref sig .tc)), Pipeline.arrRef spec0 w ≠ b := by decide

/-- And they write no array of the pipeline: each writes its own result buffer only, and no result buffer of a
    later line is a window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl
    all_goals intro w; simp only [StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (tail_results_ne w _ (by simp only [List.mem_cons, true_or, or_true]))

/-! ## The argument arrays: no host line writes one

Every host line writes only its own result buffer, never an argument of the main function; so each argument
array is found by the region as launched (V_main_argK) and is left by the later lines as the region left it
(W_main_argK). -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it
    there or not (windows 2 to 14 are fetched once, at the first point: their block index never moves), for any
    proof data whose array is the region-entry contents and whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In any final state with every pipeline array at what the proof data computes and every bypassing buffer as
    the later lines leave it, every argument array is as launched: an argument that is a window's array
    (arguments 3, 5, 9 and 13 are the arrays of input windows 2, 4, 9 and 14) is an input's array, unchanged by the
    region; every other argument bypasses the region and no later line writes it. -/
theorem args_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).1 2).trans (((dats 0 c).arrAt_in 2 rfl _).trans ((hA c 2).trans (V_main_arg3 m c))),
    ((h c).2 main_arg4 (Pipeline.mem_restRefs_of main_arg4 (by decide) (by decide))).trans (W_main_arg4 m dats c),
    ((h c).1 4).trans (((dats 0 c).arrAt_in 4 rfl _).trans ((hA c 4).trans (V_main_arg5 m c))),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).1 9).trans (((dats 0 c).arrAt_in 9 rfl _).trans ((hA c 9).trans (V_main_arg9 m c))),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).1 14).trans (((dats 0 c).arrAt_in 14 rfl _).trans ((hA c 14).trans (V_main_arg13 m c))),
    ((h c).2 main_arg14 (Pipeline.mem_restRefs_of main_arg14 (by decide) (by decide))).trans (W_main_arg14 m dats c)⟩

/-- So a run of the main function to such a final state is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_of_post m dats hA r h c) h

/-! ## The body's accesses

The body loads each input window's buffer whole and stores the output window's buffer whole: every access is
through the rectangle of the whole shape at offset zero. -/

abbrev rc_S3200x128 : Rect S3200x128 := Rect.unit (s := S3200x128) ![0, 0] S3200x128.size inb_S3200x128_S3200x128_0_0
abbrev rc_S3200x7 : Rect S3200x7 := Rect.unit (s := S3200x7) ![0, 0] S3200x7.size inb_S3200x7_S3200x7_0_0
abbrev rc_S1x32 : Rect S1x32 := Rect.unit (s := S1x32) ![0, 0] S1x32.size inb_S1x32_S1x32_0_0
abbrev rc_S32x32 : Rect S32x32 := Rect.unit (s := S32x32) ![0, 0] S32x32.size inb_S32x32_S32x32_0_0
abbrev rc_S128x128 : Rect S128x128 := Rect.unit (s := S128x128) ![0, 0] S128x128.size inb_S128x128_S128x128_0_0
abbrev rc_S32x128 : Rect S32x128 := Rect.unit (s := S32x128) ![0, 0] S32x128.size inb_S32x128_S32x128_0_0
abbrev rc_S1x128 : Rect S1x128 := Rect.unit (s := S1x128) ![0, 0] S1x128.size inb_S1x128_S1x128_0_0
abbrev rc_S128x64 : Rect S128x64 := Rect.unit (s := S128x64) ![0, 0] S128x64.size inb_S128x64_S128x64_0_0
abbrev rc_S1x64 : Rect S1x64 := Rect.unit (s := S1x64) ![0, 0] S1x64.size inb_S1x64_S1x64_0_0
abbrev rc_S128x1 : Rect S128x1 := Rect.unit (s := S128x1) ![0, 0] S128x1.size inb_S128x1_S128x1_0_0
abbrev rc_S3200x67 : Rect S3200x67 := Rect.unit (s := S3200x67) ![0, 0] S3200x67.size inb_S3200x67_S3200x67_0_0

/-! ## What the body leaves in the output window's buffer -/

/-- The output window's staging buffer after the body, from the fifteen input windows' blocks: its one store,
    whose payload is the edge message (columns 0 to 63) joined with the coordinate update (columns 64 to 66), as
    the named payloads compute them from the loaded blocks. -/
def out0_15 (x0 : Vec F S3200x128 .bf16) (x1 : Vec F S3200x7 .f32) (x2 : Vec F S1x32 .f32) (x3 : Vec F S1x32 .f32) (x4 : Vec F S32x32 .f32) (x5 : Vec F S1x32 .f32) (x6 : Vec F S128x128 .f32) (x7 : Vec F S32x128 .f32) (x8 : Vec F S1x128 .f32) (x9 : Vec F S128x64 .f32) (x10 : Vec F S1x64 .f32) (x11 : Vec F S128x128 .f32) (x12 : Vec F S32x128 .f32) (x13 : Vec F S1x128 .f32) (x14 : Vec F S128x1 .f32) : Vec F S3200x67 .f32 :=
  View.canon [⟨rc_S3200x67, k0_pay8 (k0_pay1 (View.ld x0 rc_S3200x128)) (k0_pay3 (View.ld x1 rc_S3200x7)) (k0_pay4 (View.ld x1 rc_S3200x7)) (k0_pay5 (View.ld x1 rc_S3200x7) (View.ld x2 rc_S1x32) (View.ld x3 rc_S1x32) (View.ld x4 rc_S32x32) (View.ld x5 rc_S1x32)) (k0_pay6 (View.ld x0 rc_S3200x128) (View.ld x1 rc_S3200x7) (View.ld x2 rc_S1x32) (View.ld x3 rc_S1x32) (View.ld x4 rc_S32x32) (View.ld x5 rc_S1x32) (View.ld x6 rc_S128x128) (View.ld x7 rc_S32x128)) (k0_pay7 (View.ld x8 rc_S1x128)) (View.ld x9 rc_S128x64) (View.ld x10 rc_S1x64) (View.ld x11 rc_S128x128) (View.ld x12 rc_S32x128) (View.ld x13 rc_S1x128) (View.ld x14 rc_S128x1)⟩]

/-- The one store's rectangle is the whole buffer, so it covers it. -/
theorem cover0_15 (p0 : Vec F S3200x67 .f32) (y : S3200x67.Idx) :
    ∃ pc ∈ ([⟨rc_S3200x67, p0⟩] : List (View.Piece (Elt F) S3200x67 .f32)), y ∈ pc.1.set :=
  View.cover_of_tiled [⟨rc_S3200x67, p0⟩] S3200x67.size (by rfl) y

/-! ## The body's triple -/

set_option maxHeartbeats 4000000 in
/-- The body on whole staging buffers, the inputs' reading the contents xW and the output's holding anything, runs
    to the continuation with the inputs' as they were and the output's at out0_15 of the inputs': the loads read
    the inputs, the load of the output buffer reads a value nothing uses, and the store overwrites it whole. -/
theorem sound_kernel (c : Dev nD) (E : Set ℕ) (i : grid0.Coords) (arg1 : Memref sig .tc .vmem S3200x128 .bf16) (harg1 : arg1.IsWhole) (arg2 : Memref sig .tc .vmem S3200x7 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S128x128 .f32) (harg7 : arg7.IsWhole) (arg8 : Memref sig .tc .vmem S32x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S128x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S3200x67 .f32) (harg16 : arg16.IsWhole)
    (x0 : Vec F S3200x128 .bf16) (x1 : Vec F S3200x7 .f32) (x2 : Vec F S1x32 .f32) (x3 : Vec F S1x32 .f32) (x4 : Vec F S32x32 .f32) (x5 : Vec F S1x32 .f32) (x6 : Vec F S128x128 .f32) (x7 : Vec F S32x128 .f32) (x8 : Vec F S1x128 .f32) (x9 : Vec F S128x64 .f32) (x10 : Vec F S1x64 .f32) (x11 : Vec F S128x128 .f32) (x12 : Vec F S32x128 .f32) (x13 : Vec F S1x128 .f32) (x14 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 x0 x1 x2 x3 x4 x5 x6 x7 x8 x9 x10 x11 x12 x13 x14)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__edge_kernel_eq_skeleton]; unfold cc0__edge_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover0_15 _)

/-! ## The pipeline's proof data -/

/-- The proof data of the one pipeline on core c: the arrays as the region finds them; after the body at point t
    each input window's buffer still at its block and the output window's at out0_15 of the input blocks; the
    invariant is the class's (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

/-- The proof data's arrays are the region-entry contents: the definition projected, so that the fold over the
    host lines is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

/-- Each input window's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point t: the invariant, the core's owed count, and each window's current
    staging buffer at what the pipeline put there, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns: each window's buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 4000000 in
/-- The body at any point: the inputs' buffers hold their blocks, so the body's triple applies; the invariant
    and the owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes
-- unfolding plain definitions in a metavariable's type
set_option backward.isDefEq.respectTransparency.types false in
/-- At the compiled mesh, for any values, from any memory with zero counters: every weakly fair execution of
    the main function on the TensorCores terminates, and every final state has every array of the pipeline at
    what the library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Hand

end
-- ==== Proof.FrameBits.lean ====
import proofs.«138976_j2319282340047_2_alg».proof.Proof.Gen.Kernel.Launch
import proofs.«138976_j2319282340047_2_alg».proof.Proof.Gen.Kernel.Skeleton
import proofs.«138976_j2319282340047_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # The frame of the edge-layer program, run by hand

The main function is: host lines (slices, index normalisation, four gathers, two concatenations, weight slices
and reshapes), one pipelined region over 250 grid points with sixteen windows, then host lines (two slices of the
region's result, index normalisation, two scatter-adds). The region's body loads each of its fifteen input
windows whole, computes one value of shape 3200 x 67 from them, and stores it whole into the output window.

This file states, for any float instance: what the arrays hold when the region is entered, each window's block
at a grid point, what the body leaves in the output window (one store covering the buffer), the body's triple,
the proof data of the pipeline, and the run of the main function around the region. The frame claim follows: no
host line writes an argument array, and the region writes its output array only. -/

-- membership in a rectangle of full-size extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The main function around the region -/

/-- Core c's buffer contents when the region is entered: the launch memory after the host lines before the
    region. Kept as a fold; never evaluated. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- No host line allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The main function is the host lines before the region, the region, and the host lines after it; so it
    reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only the pipeline's arrays and the buffers that bypass the region: each line's buffers
    are unscoped TensorCore references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- No result buffer of a later line is a window's array. -/
theorem tail_results_ne : ∀ w : Fin 16, ∀ b ∈ ([main_v46, main_v47, main_c_7, main_v48, main_v49, main_c_8, main_v50, main_v51, main_v52, main_v53, main_v54, main_c_9, main_v55, main_v56, main_c_10, main_v57, main_v58, main_v59, main_v60, main_v61] : List (Ref sig .tc)), Pipeline.arrRef spec0 w ≠ b := by decide

/-- And they write no array of the pipeline: each writes its own result buffer only, and no result buffer of a
    later line is a window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl
    all_goals intro w; simp only [StableHlo.nullary_writes, StableHlo.unary_writes, StableHlo.binary_writes, StableHlo.ternary_writes, StableHlo.quaternary_writes, StableHlo.reshape_writes, StableHlo.binaryIndexed_writes, StableHlo.nary_writes, Finset.mem_singleton]; exact StableHlo.devRef_ne_of_ne (tail_results_ne w _ (by simp only [List.mem_cons, true_or, or_true]))

/-! ## The argument arrays: no host line writes one

Every host line writes only its own result buffer, never an argument of the main function; so each argument
array is found by the region as launched (V_main_argK) and is left by the later lines as the region left it
(W_main_argK). -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c

theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c

theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg12 (dats : (p : Fin _) → (c : Dev nD) → Dat τ (Elt F) Unit ℕ (UR sig nD τ) ℕ (cfgs p) c) (c : Dev nD) :
    Pipeline.afterTail₀ cfgs dats 0 (V0 m) [hostOps1] c main_arg12 = m ((c : Thread nD τ).loc main_arg12) := by
  unfold Pipeline.afterTail₀
  rw [StableHlo.after_of_forall_not_mem (b := Proc.devRef .tc main_arg12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg12 (by exact (by decide : ∀ w, Pipeline.arrRef spec0 w ≠ main_arg12))]
  exact V_main_arg12 m c

theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

theorem W_main_arg14 (dats : (p : Fin _) → (c : Dev nD) → Dat τ (Elt F) Unit ℕ (UR sig nD τ) ℕ (cfgs p) c) (c : Dev nD) :
    Pipeline.afterTail₀ cfgs dats 0 (V0 m) [hostOps1] c main_arg14 = m ((c : Thread nD τ).loc main_arg14) := by
  unfold Pipeline.afterTail₀
  rw [StableHlo.after_of_forall_not_mem (b := Proc.devRef .tc main_arg14) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg14 (by exact (by decide : ∀ w, Pipeline.arrRef spec0 w ≠ main_arg14))]
  exact V_main_arg14 m c

/-! ## The windows' blocks -/

/-- Window w's block at grid point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, whether the pipeline fetched it
    there or not (windows 2 to 14 are fetched once, at the first point: their block index never moves), for any
    proof data whose array is the region-entry contents and whose body leaves the block in place. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In any final state with every pipeline array at what the proof data computes and every bypassing buffer as
    the later lines leave it, every argument array is as launched: an argument that is a window's array
    (arguments 3, 5, 9 and 13 are the arrays of input windows 2, 4, 9 and 14) is an input's array, unchanged by the
    region; every other argument bypasses the region and no later line writes it. -/
theorem args_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F))
    (h : Pipeline.FramePost cfgs dats 0 (Pipeline.afterTail₀ cfgs dats 0 (V0 m) [hostOps1]) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).1 2).trans (((dats 0 c).arrAt_in 2 rfl _).trans ((hA c 2).trans (V_main_arg3 m c))),
    ((h c).2 main_arg4 (Pipeline.mem_restRefs_of main_arg4 (by decide) (by decide))).trans (W_main_arg4 m dats c),
    ((h c).1 4).trans (((dats 0 c).arrAt_in 4 rfl _).trans ((hA c 4).trans (V_main_arg5 m c))),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).1 9).trans (((dats 0 c).arrAt_in 9 rfl _).trans ((hA c 9).trans (V_main_arg9 m c))),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).2 main_arg12 (Pipeline.mem_restRefs_of main_arg12 (by decide) (by decide))).trans (W_main_arg12 m dats c),
    ((h c).1 14).trans (((dats 0 c).arrAt_in 14 rfl _).trans ((hA c 14).trans (V_main_arg13 m c))),
    ((h c).2 main_arg14 (Pipeline.mem_restRefs_of main_arg14 (by decide) (by decide))).trans (W_main_arg14 m dats c)⟩

/-- So a run of the main function to such a final state is a run to the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => args_of_post m dats hA r h c) h

/-! ## The body's accesses

The body loads each input window's buffer whole and stores the output window's buffer whole: every access is
through the rectangle of the whole shape at offset zero. -/

abbrev rc_S3200x128 : Rect S3200x128 := Rect.unit (s := S3200x128) ![0, 0] S3200x128.size inb_S3200x128_S3200x128_0_0
abbrev rc_S3200x7 : Rect S3200x7 := Rect.unit (s := S3200x7) ![0, 0] S3200x7.size inb_S3200x7_S3200x7_0_0
abbrev rc_S1x32 : Rect S1x32 := Rect.unit (s := S1x32) ![0, 0] S1x32.size inb_S1x32_S1x32_0_0
abbrev rc_S32x32 : Rect S32x32 := Rect.unit (s := S32x32) ![0, 0] S32x32.size inb_S32x32_S32x32_0_0
abbrev rc_S128x128 : Rect S128x128 := Rect.unit (s := S128x128) ![0, 0] S128x128.size inb_S128x128_S128x128_0_0
abbrev rc_S32x128 : Rect S32x128 := Rect.unit (s := S32x128) ![0, 0] S32x128.size inb_S32x128_S32x128_0_0
abbrev rc_S1x128 : Rect S1x128 := Rect.unit (s := S1x128) ![0, 0] S1x128.size inb_S1x128_S1x128_0_0
abbrev rc_S128x64 : Rect S128x64 := Rect.unit (s := S128x64) ![0, 0] S128x64.size inb_S128x64_S128x64_0_0
abbrev rc_S1x64 : Rect S1x64 := Rect.unit (s := S1x64) ![0, 0] S1x64.size inb_S1x64_S1x64_0_0
abbrev rc_S128x1 : Rect S128x1 := Rect.unit (s := S128x1) ![0, 0] S128x1.size inb_S128x1_S128x1_0_0
abbrev rc_S3200x67 : Rect S3200x67 := Rect.unit (s := S3200x67) ![0, 0] S3200x67.size inb_S3200x67_S3200x67_0_0

/-! ## What the body leaves in the output window's buffer -/

/-- The output window's staging buffer after the body, from the fifteen input windows' blocks: its one store,
    whose payload is the edge message (columns 0 to 63) joined with the coordinate update (columns 64 to 66), as
    the named payloads compute them from the loaded blocks. -/
def out0_15 (x0 : Vec F S3200x128 .bf16) (x1 : Vec F S3200x7 .f32) (x2 : Vec F S1x32 .f32) (x3 : Vec F S1x32 .f32) (x4 : Vec F S32x32 .f32) (x5 : Vec F S1x32 .f32) (x6 : Vec F S128x128 .f32) (x7 : Vec F S32x128 .f32) (x8 : Vec F S1x128 .f32) (x9 : Vec F S128x64 .f32) (x10 : Vec F S1x64 .f32) (x11 : Vec F S128x128 .f32) (x12 : Vec F S32x128 .f32) (x13 : Vec F S1x128 .f32) (x14 : Vec F S128x1 .f32) : Vec F S3200x67 .f32 :=
  View.canon [⟨rc_S3200x67, k0_pay8 (k0_pay1 (View.ld x0 rc_S3200x128)) (k0_pay3 (View.ld x1 rc_S3200x7)) (k0_pay4 (View.ld x1 rc_S3200x7)) (k0_pay5 (View.ld x1 rc_S3200x7) (View.ld x2 rc_S1x32) (View.ld x3 rc_S1x32) (View.ld x4 rc_S32x32) (View.ld x5 rc_S1x32)) (k0_pay6 (View.ld x0 rc_S3200x128) (View.ld x1 rc_S3200x7) (View.ld x2 rc_S1x32) (View.ld x3 rc_S1x32) (View.ld x4 rc_S32x32) (View.ld x5 rc_S1x32) (View.ld x6 rc_S128x128) (View.ld x7 rc_S32x128)) (k0_pay7 (View.ld x8 rc_S1x128)) (View.ld x9 rc_S128x64) (View.ld x10 rc_S1x64) (View.ld x11 rc_S128x128) (View.ld x12 rc_S32x128) (View.ld x13 rc_S1x128) (View.ld x14 rc_S128x1)⟩]

/-- The one store's rectangle is the whole buffer, so it covers it. -/
theorem cover0_15 (p0 : Vec F S3200x67 .f32) (y : S3200x67.Idx) :
    ∃ pc ∈ ([⟨rc_S3200x67, p0⟩] : List (View.Piece (Elt F) S3200x67 .f32)), y ∈ pc.1.set :=
  View.cover_of_tiled [⟨rc_S3200x67, p0⟩] S3200x67.size (by rfl) y

/-! ## The body's triple -/

set_option maxHeartbeats 4000000 in
/-- The body on whole staging buffers, the inputs' reading the contents xW and the output's holding anything, runs
    to the continuation with the inputs' as they were and the output's at out0_15 of the inputs': the loads read
    the inputs, the load of the output buffer reads a value nothing uses, and the store overwrites it whole. -/
theorem sound_kernel (c : Dev nD) (E : Set ℕ) (i : grid0.Coords) (arg1 : Memref sig .tc .vmem S3200x128 .bf16) (harg1 : arg1.IsWhole) (arg2 : Memref sig .tc .vmem S3200x7 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S128x128 .f32) (harg7 : arg7.IsWhole) (arg8 : Memref sig .tc .vmem S32x128 .f32) (harg8 : arg8.IsWhole) (arg9 : Memref sig .tc .vmem S1x128 .f32) (harg9 : arg9.IsWhole) (arg10 : Memref sig .tc .vmem S128x64 .f32) (harg10 : arg10.IsWhole) (arg11 : Memref sig .tc .vmem S1x64 .f32) (harg11 : arg11.IsWhole) (arg12 : Memref sig .tc .vmem S128x128 .f32) (harg12 : arg12.IsWhole) (arg13 : Memref sig .tc .vmem S32x128 .f32) (harg13 : arg13.IsWhole) (arg14 : Memref sig .tc .vmem S1x128 .f32) (harg14 : arg14.IsWhole) (arg15 : Memref sig .tc .vmem S128x1 .f32) (harg15 : arg15.IsWhole) (arg16 : Memref sig .tc .vmem S3200x67 .f32) (harg16 : arg16.IsWhole)
    (x0 : Vec F S3200x128 .bf16) (x1 : Vec F S3200x7 .f32) (x2 : Vec F S1x32 .f32) (x3 : Vec F S1x32 .f32) (x4 : Vec F S32x32 .f32) (x5 : Vec F S1x32 .f32) (x6 : Vec F S128x128 .f32) (x7 : Vec F S32x128 .f32) (x8 : Vec F S1x128 .f32) (x9 : Vec F S128x64 .f32) (x10 : Vec F S1x64 .f32) (x11 : Vec F S128x128 .f32) (x12 : Vec F S32x128 .f32) (x13 : Vec F S1x128 .f32) (x14 : Vec F S128x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (out0_15 x0 x1 x2 x3 x4 x5 x6 x7 x8 x9 x10 x11 x12 x13 x14)) -∗ K ⟨⟩))
      ⊢ wp frame (wpE (defs₀ (F := F)) Variants.none c none) E (cc0__edge_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0__edge_kernel_eq_skeleton]; unfold cc0__edge_kernel_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, Hk⟩
  subst hf0; subst hf1; subst hf2; subst hf3; subst hf4; subst hf5; subst hf6; subst hf7; subst hf8; subst hf9; subst hf10; subst hf11; subst hf12; subst hf13; subst hf14
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  iexists _; isplitr
  swap; · iexact H15
  ipureintro
  exact View.read_writes_eq_canon _ _ _ (cover0_15 _)

/-! ## The pipeline's proof data -/

/-- The proof data of the one pipeline on core c: the arrays as the region finds them; after the body at point t
    each input window's buffer still at its block and the output window's at out0_15 of the input blocks; the
    invariant is the class's (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    | ⟨_ + 16, h⟩ => absurd h (Nat.not_lt.2 (Nat.le_add_left _ _))
  Φ _ := Pipeline.ΦA spec0 c
  q _ := fullShare
  owed _ := 0

/-- The proof data's arrays are the region-entry contents: the definition projected, so that the fold over the
    host lines is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by dsimp only [dats]

/-- Each input window's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The body obligation, at a generic point -/

/-- What the body is called with at point t: the invariant, the core's owed count, and each window's current
    staging buffer at what the pipeline put there, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns: each window's buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t))

set_option maxHeartbeats 4000000 in
/-- The body at any point: the inputs' buffers hold their blocks, so the body's triple applies; the invariant
    and the owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes
-- unfolding plain definitions in a metavariable's type
set_option backward.isDefEq.respectTransparency.types false in
/-- At the compiled mesh, for any values, from any memory with zero counters: every weakly fair execution of
    the main function on the TensorCores terminates, and every final state has every array of the pipeline at
    what the library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every weakly fair execution terminates without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Hand

end
-- ==== Proof.Frames.lean ====
import proofs.«138976_j2319282340047_2_alg».proof.Defs
import proofs.«138976_j2319282340047_2_alg».proof.Proof.Gen.Kernel
import proofs.«138976_j2319282340047_2_alg».proof.Proof.Gen.KernelIdeal
import proofs.«138976_j2319282340047_2_alg».proof.Proof.Gen.ReferenceIdeal
import proofs.«138976_j2319282340047_2_alg».proof.Proof.Gen.Pre_finite_inputs
import proofs.«138976_j2319282340047_2_alg».proof.Proof.Gen.ReferenceIdeal.Run
import proofs.«138976_j2319282340047_2_alg».proof.Proof.FrameIdeal
import proofs.«138976_j2319282340047_2_alg».proof.Proof.FrameBits

/-! # The three frame claims, and what the idealization preserves

A frame claim of a program says: from any launch memory satisfying the precondition, with every counter at zero
and any state of the random-number registers, every weakly fair execution of the program's main function
terminates without a fault, and in every final state each of the fifteen argument arrays holds what it held at
the launch.

For the edge-layer program, read at the word level and read over the extended reals, this is the frame run
written out in the two frame modules: the host lines before and after the pipelined region write only their own
result buffers, and the region writes only its output array. Neither run uses the precondition.

The reference has no region: its main function is a straight line of host operations, and its run ends with
the two results at their composed terms and, after them in the conjunction, the fifteen argument arrays as
launched; the frame claim keeps the arguments and forgets the two results.

The idealization rewrote no operation of the program (its text read over the extended reals IS the idealized
program), so there is nothing for it to preserve: that claim is the true proposition. -/

noncomputable section

namespace Cert.Proof.Parts

open Idealize.ShloMosaic Idealize.SL.Sem

/-- The program read at the word level runs, and its argument arrays end unchanged. -/
theorem frame_p : Cert.frame_Kernel (hKernel := Cert.Kernel.Gen.facts) (hPre_finite_inputs := Cert.Pre_finite_inputs.Gen.facts) :=
  fun m ρ _ => Cert.Kernel.Hand.frame m ρ

/-- The program read over the extended reals runs, and its argument arrays end unchanged. -/
theorem frame_pi : Cert.frame_KernelIdeal (hKernelIdeal := Cert.KernelIdeal.Gen.facts) (hPre_finite_inputs := Cert.Pre_finite_inputs.Gen.facts) :=
  fun m ρ _ => Cert.KernelIdeal.Hand.frame m ρ

/-- The reference runs, and its argument arrays end unchanged: its run's post is the two results, then the
    fifteen arguments; the frame claim is the second part. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- The idealization rewrote nothing, so it has nothing to preserve. -/
theorem preserves : Cert.preserves_Kernel_KernelIdeal := trivial

end Cert.Proof.Parts

end
-- ==== Proof.Spec.lean ====
/-
  The edge layer of an equivariant graph network, as one function of its inputs, entry by entry, on the
  extended reals.

  Everything an edge contributes depends on the edge only through ONE ROW of data: the features of its two
  endpoints `a`, `b` (64 numbers each), their coordinates `x1`, `x2` (3 each) and the edge's distance `edv`.
    * the edge attribute is a two-layer perceptron of the distance, `silu (edv·We1 + be1) · We2 + be2` (32 wide);
    * the message input is the 160-wide row `[a, b, attribute]`;
    * the node message is `silu (msg · Wn1 + bn1) · Wn2 + bn2` (64 wide);
    * the coordinate weight is `silu (msg · Wc1 + bc1) · Wc2` (one number), and the coordinate message is that
      weight times the direction `(x1 − x2) / max (‖x1 − x2‖, ε)`.
  Every product with a matrix is a plain finite sum; `silu x = x · logistic x`.
  The row functions come first, over plain functions of finite indices; the whole arrays are these at every row.
-/
import Idealize.ShloMosaic.PureOps.Ideal
import Idealize.ShloMosaic.Lib.ValueIdx

noncomputable section

namespace Cert.Spec

open Idealize.ShloMosaic Idealize.ShloMosaic.ValueIdx

/-! ## One row -/

/-- `silu x = x · logistic x`. -/
def silu (x : EReal) : EReal := x * Ideal.logistic x

/-- The hidden layer of the edge perceptron: `silu (edv · We1 k + be1 k)`. -/
def rHidE (edv : EReal) (We1 be1 : Fin 32 → EReal) (k : Fin 32) : EReal := silu (edv * We1 k + be1 k)

/-- The edge attribute: `Σ k', rHidE k' · We2 k' k + be2 k`. -/
def rAttr (edv : EReal) (We1 be1 : Fin 32 → EReal) (We2 : Fin 32 → Fin 32 → EReal) (be2 : Fin 32 → EReal)
    (k : Fin 32) : EReal :=
  (∑ k' : Fin 32, rHidE edv We1 be1 k' * We2 k' k) + be2 k

/-- The message input: the row `[a, b, ea]`, 160 wide. -/
def rMsg (a b : Fin 64 → EReal) (ea : Fin 32 → EReal) (k : Fin 160) : EReal :=
  if h : k.val < 64 then a ⟨k.val, h⟩
  else if h' : k.val < 128 then b ⟨k.val - 64, by omega⟩
  else ea ⟨k.val - 128, by omega⟩

/-- The feature part of it: the row `[a, b]`, 128 wide. -/
def rFeat (a b : Fin 64 → EReal) (k : Fin 128) : EReal :=
  if h : k.val < 64 then a ⟨k.val, h⟩ else b ⟨k.val - 64, by omega⟩

/-- A hidden layer over the message input: `silu (Σ k, mg k · W k n + bias n)`. -/
def rHid (mg : Fin 160 → EReal) (W : Fin 160 → Fin 128 → EReal) (bias : Fin 128 → EReal) (n : Fin 128) : EReal :=
  silu ((∑ k : Fin 160, mg k * W k n) + bias n)

/-- The node message: `Σ n, hd n · Wn2 n j + bn2 j`. -/
def rM (hd : Fin 128 → EReal) (Wn2 : Fin 128 → Fin 64 → EReal) (bn2 : Fin 64 → EReal) (j : Fin 64) : EReal :=
  (∑ n : Fin 128, hd n * Wn2 n j) + bn2 j

/-- The coordinate weight: `Σ n, hd n · Wc2 n`. -/
def rCw (hd : Fin 128 → EReal) (Wc2 : Fin 128 → EReal) : EReal := ∑ n : Fin 128, hd n * Wc2 n

/-- The difference of the endpoint coordinates. -/
def rDvec (x1 x2 : Fin 3 → EReal) (d : Fin 3) : EReal := x1 d - x2 d

/-- Its length, kept away from zero: `max (sqrt (Σ d, dvec²)) ε`, `ε` the single-precision number nearest 1e-8. -/
def rDlen (x1 x2 : Fin 3 → EReal) : EReal :=
  max (Ideal.sqrt (∑ d : Fin 3, rDvec x1 x2 d * rDvec x1 x2 d)) (Ideal.ofBits .f32 0x322BCC77#32)

/-- The coordinate message: the weight times the normalised direction. -/
def rC (cwv : EReal) (x1 x2 : Fin 3 → EReal) (d : Fin 3) : EReal :=
  cwv * Ideal.div (rDvec x1 x2 d) (rDlen x1 x2)

/-- A product of the message input with a 160-row matrix is the product of the feature part with the first 128 rows
    plus the product of the edge attribute with the last 32 rows: a finite sum split in two. -/
theorem sum_rMsg_split (a b : Fin 64 → EReal) (ea : Fin 32 → EReal) (W : Fin 160 → Fin 128 → EReal) (n : Fin 128) :
    (∑ k : Fin 160, rMsg a b ea k * W k n)
      = (∑ k : Fin 128, rFeat a b k * W ⟨k.val, by omega⟩ n) + ∑ k : Fin 32, ea k * W ⟨128 + k.val, by omega⟩ n := by
  have hsplit := Fin.sum_univ_add (M := EReal) (a := 128) (b := 32) (fun k : Fin (128 + 32) => rMsg a b ea k * W k n)
  refine hsplit.trans ?_
  refine congrArg₂ (· + ·) (Finset.sum_congr rfl fun k _ => ?_) (Finset.sum_congr rfl fun k _ => ?_)
  · have hk : k.val < 128 := k.isLt
    show rMsg a b ea (Fin.castAdd 32 k) * W (Fin.castAdd 32 k) n = _
    unfold rMsg rFeat
    by_cases h : k.val < 64
    · simp only [Fin.coe_castAdd, h, dite_true]; rfl
    · simp only [Fin.coe_castAdd, h, dite_false, hk, dite_true]; rfl
  · show rMsg a b ea (Fin.natAdd 128 k) * W (Fin.natAdd 128 k) n = _
    unfold rMsg
    have h1 : ¬ (128 + k.val < 64) := by omega
    have h2 : ¬ (128 + k.val < 128) := by omega
    simp only [Fin.coe_natAdd, h1, h2, dite_false]
    have e1 : (⟨128 + k.val - 128, by omega⟩ : Fin 32) = k := Fin.ext (by simp)
    rw [e1]; rfl

/-! ## The whole arrays -/

/-- Arrays of extended reals over a literal rank-1 or rank-2 shape. -/
abbrev Arr1 (n : Nat) := (⟨1, ![n]⟩ : Shape).Idx → EReal
abbrev Arr2 (a b : Nat) := (⟨2, ![a, b]⟩ : Shape).Idx → EReal

/-- Row `r` of a rank-2 array, and a rank-1 array, as plain functions. -/
abbrev row {a b : Nat} (X : Arr2 a b) (r : Fin a) : Fin b → EReal := fun k => X (ix2 r k)
abbrev mat {a b : Nat} (X : Arr2 a b) : Fin a → Fin b → EReal := fun r k => X (ix2 r k)
abbrev vec {n : Nat} (X : Arr1 n) : Fin n → EReal := fun k => X (ix1 k)

/-- The edge attribute of edge `e`. -/
def attr (ed : Arr1 800000) (We1 : Arr2 1 32) (be1 : Arr1 32) (We2 : Arr2 32 32) (be2 : Arr1 32) (e : Fin 800000) :
    Fin 32 → EReal :=
  rAttr (ed (ix1 e)) (row We1 0) (vec be1) (mat We2) (vec be2)

/-- The node messages of all edges, from the gathered features `A`, `B`, the distances and the weights. -/
def mFull (A B : Arr2 800000 64) (ed : Arr1 800000) (We1 : Arr2 1 32) (be1 : Arr1 32) (We2 : Arr2 32 32) (be2 : Arr1 32)
    (Wn1 : Arr2 160 128) (bn1 : Arr1 128) (Wn2 : Arr2 128 64) (bn2 : Arr1 64) : Arr2 800000 64 :=
  fun i => rM (rHid (rMsg (row A (i 0)) (row B (i 0)) (attr ed We1 be1 We2 be2 (i 0))) (mat Wn1) (vec bn1))
    (mat Wn2) (vec bn2) (i 1)

/-- The coordinate messages of all edges, from the gathered features and coordinates `X1`, `X2`. -/
def cFull (A B : Arr2 800000 64) (X1 X2 : Arr2 800000 3) (ed : Arr1 800000) (We1 : Arr2 1 32) (be1 : Arr1 32)
    (We2 : Arr2 32 32) (be2 : Arr1 32) (Wc1 : Arr2 160 128) (bc1 : Arr1 128) (Wc2 : Arr2 128 1) : Arr2 800000 3 :=
  fun i => rC (rCw (rHid (rMsg (row A (i 0)) (row B (i 0)) (attr ed We1 be1 We2 be2 (i 0))) (mat Wc1) (vec bc1))
      (fun n => Wc2 (ix2 n 0)))
    (row X1 (i 0)) (row X2 (i 0)) (i 1)

end Cert.Spec

end
-- ==== Proof.KRow.lean ====
/-
  The kernel body's stored block, read one entry at a time, in row form.

  The body works on a block of 3200 edges. Row `p` of what it stores depends only on row `p` of the two blocked
  inputs (the 128 endpoint features and the 7 numbers distance, source coordinates, destination coordinates) and on
  the weights: the first 64 columns are the node message, the last 3 the coordinate message, both as the row
  functions of the specification — with the first hidden layers' products taken in two pieces (128 feature columns,
  32 attribute columns), which the specification's single 160-term sum splits into.
-/
import proofs.«138976_j2319282340047_2_alg».proof.Proof.Gen.KernelIdeal.Skeleton
import proofs.«138976_j2319282340047_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RowValue

open Cert.KernelIdeal Cert.KernelIdeal.Gen Idealize.ShloMosaic Idealize.ShloMosaic.ValueIdx Cert.Spec

/-! ## Layout operations of the block, read at an entry -/

section Layout
variable {α : Type}

/-- One column laid along every column: `[a, 1] → [a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector cast to one column: `[a] → [a, 1]` reads, at `(p, 0)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

/-! ## The five matrix products, read at an entry -/

theorem mm_e2_l0 (i : S3200x32.Idx) (q : dot_S3200x32_S32x32_S3200x32_1_0_0_1_n_n.contr.Idx) : (dot_S3200x32_S32x32_S3200x32_1_0_0_1_n_n.lhsIdx i q 0).val = (i 0).val := by
  unfold DotDims.lhsIdx
  rw [dif_neg (show ¬(0 : Fin S3200x32.rank) ∈ dot_S3200x32_S32x32_S3200x32_1_0_0_1_n_n.lhsBatch by decide),
    dif_pos (show (0 : Fin S3200x32.rank) ∈ dot_S3200x32_S32x32_S3200x32_1_0_0_1_n_n.lhsNonContracting by decide)]
  rfl
theorem mm_e2_r1 (i : S3200x32.Idx) (q : dot_S3200x32_S32x32_S3200x32_1_0_0_1_n_n.contr.Idx) : (dot_S3200x32_S32x32_S3200x32_1_0_0_1_n_n.rhsIdx i q 1).val = (i 1).val := by
  unfold DotDims.rhsIdx
  rw [dif_neg (show ¬(1 : Fin S32x32.rank) ∈ dot_S3200x32_S32x32_S3200x32_1_0_0_1_n_n.rhsBatch by decide),
    dif_pos (show (1 : Fin S32x32.rank) ∈ dot_S3200x32_S32x32_S3200x32_1_0_0_1_n_n.rhsNonContracting by decide)]
  rfl
/-- The product `S3200x32 · S32x32` into a zero accumulator, read at `(p, c)`: the sum over `k` of `l (p, k) · r (k, c)`. -/
theorem mm_e2 (l : FVec Ideal S3200x32 .bf16) (r : FVec Ideal S32x32 .bf16) (p : Fin 3200) (c : Fin 32) :
    matmul dot_S3200x32_S32x32_S3200x32_1_0_0_1_n_n none l r (constant (F := Ideal) S3200x32 .f32 0x00000000#32) (ix2 p c)
      = ∑ k : Fin 32, l (ix2 p k) * r (ix2 k c) := by
  refine (Ideal.matmul_constant_zero_apply dot_S3200x32_S32x32_S3200x32_1_0_0_1_n_n none l r (ix2 p c)).trans ?_
  rw [← Equiv.sum_comp (ValueIdx.contrEquiv1 dot_S3200x32_S32x32_S3200x32_1_0_0_1_n_n 32 rfl rfl).symm]
  refine Finset.sum_congr rfl fun k _ => ?_
  have hk := ValueIdx.contrEquiv1_symm_val dot_S3200x32_S32x32_S3200x32_1_0_0_1_n_n 32 rfl rfl k
  have el : dot_S3200x32_S32x32_S3200x32_1_0_0_1_n_n.lhsIdx (ix2 p c) ((ValueIdx.contrEquiv1 dot_S3200x32_S32x32_S3200x32_1_0_0_1_n_n 32 rfl rfl).symm k) = ix2 p k :=
    funext fun a => Fin.ext (by
      match a with
      | ⟨0, _⟩ => exact mm_e2_l0 _ _
      | ⟨1, _⟩ => exact (dot_S3200x32_S32x32_S3200x32_1_0_0_1_n_n.lhsIdx_val_of_single rfl (ix2 p c) _).trans hk)
  have er : dot_S3200x32_S32x32_S3200x32_1_0_0_1_n_n.rhsIdx (ix2 p c) ((ValueIdx.contrEquiv1 dot_S3200x32_S32x32_S3200x32_1_0_0_1_n_n 32 rfl rfl).symm k) = ix2 k c :=
    funext fun a => Fin.ext (by
      match a with
      | ⟨0, _⟩ => exact (dot_S3200x32_S32x32_S3200x32_1_0_0_1_n_n.rhsIdx_val_of_single rfl (ix2 p c) _).trans hk
      | ⟨1, _⟩ => exact mm_e2_r1 _ _)
  rw [el, er]

theorem mm_h_l0 (i : S3200x128.Idx) (q : dot_S3200x128_S128x128_S3200x128_1_0_0_1_n_n.contr.Idx) : (dot_S3200x128_S128x128_S3200x128_1_0_0_1_n_n.lhsIdx i q 0).val = (i 0).val := by
  unfold DotDims.lhsIdx
  rw [dif_neg (show ¬(0 : Fin S3200x128.rank) ∈ dot_S3200x128_S128x128_S3200x128_1_0_0_1_n_n.lhsBatch by decide),
    dif_pos (show (0 : Fin S3200x128.rank) ∈ dot_S3200x128_S128x128_S3200x128_1_0_0_1_n_n.lhsNonContracting by decide)]
  rfl
theorem mm_h_r1 (i : S3200x128.Idx) (q : dot_S3200x128_S128x128_S3200x128_1_0_0_1_n_n.contr.Idx) : (dot_S3200x128_S128x128_S3200x128_1_0_0_1_n_n.rhsIdx i q 1).val = (i 1).val := by
  unfold DotDims.rhsIdx
  rw [dif_neg (show ¬(1 : Fin S128x128.rank) ∈ dot_S3200x128_S128x128_S3200x128_1_0_0_1_n_n.rhsBatch by decide),
    dif_pos (show (1 : Fin S128x128.rank) ∈ dot_S3200x128_S128x128_S3200x128_1_0_0_1_n_n.rhsNonContracting by decide)]
  rfl
/-- The product `S3200x128 · S128x128` into a zero accumulator, read at `(p, c)`: the sum over `k` of `l (p, k) · r (k, c)`. -/
theorem mm_h (l : FVec Ideal S3200x128 .bf16) (r : FVec Ideal S128x128 .bf16) (p : Fin 3200) (c : Fin 128) :
    matmul dot_S3200x128_S128x128_S3200x128_1_0_0_1_n_n none l r (constant (F := Ideal) S3200x128 .f32 0x00000000#32) (ix2 p c)
      = ∑ k : Fin 128, l (ix2 p k) * r (ix2 k c) := by
  refine (Ideal.matmul_constant_zero_apply dot_S3200x128_S128x128_S3200x128_1_0_0_1_n_n none l r (ix2 p c)).trans ?_
  rw [← Equiv.sum_comp (ValueIdx.contrEquiv1 dot_S3200x128_S128x128_S3200x128_1_0_0_1_n_n 128 rfl rfl).symm]
  refine Finset.sum_congr rfl fun k _ => ?_
  have hk := ValueIdx.contrEquiv1_symm_val dot_S3200x128_S128x128_S3200x128_1_0_0_1_n_n 128 rfl rfl k
  have el : dot_S3200x128_S128x128_S3200x128_1_0_0_1_n_n.lhsIdx (ix2 p c) ((ValueIdx.contrEquiv1 dot_S3200x128_S128x128_S3200x128_1_0_0_1_n_n 128 rfl rfl).symm k) = ix2 p k :=
    funext fun a => Fin.ext (by
      match a with
      | ⟨0, _⟩ => exact mm_h_l0 _ _
      | ⟨1, _⟩ => exact (dot_S3200x128_S128x128_S3200x128_1_0_0_1_n_n.lhsIdx_val_of_single rfl (ix2 p c) _).trans hk)
  have er : dot_S3200x128_S128x128_S3200x128_1_0_0_1_n_n.rhsIdx (ix2 p c) ((ValueIdx.contrEquiv1 dot_S3200x128_S128x128_S3200x128_1_0_0_1_n_n 128 rfl rfl).symm k) = ix2 k c :=
    funext fun a => Fin.ext (by
      match a with
      | ⟨0, _⟩ => exact (dot_S3200x128_S128x128_S3200x128_1_0_0_1_n_n.rhsIdx_val_of_single rfl (ix2 p c) _).trans hk
      | ⟨1, _⟩ => exact mm_h_r1 _ _)
  rw [el, er]

theorem mm_a_l0 (i : S3200x128.Idx) (q : dot_S3200x32_S32x128_S3200x128_1_0_0_1_n_n.contr.Idx) : (dot_S3200x32_S32x128_S3200x128_1_0_0_1_n_n.lhsIdx i q 0).val = (i 0).val := by
  unfold DotDims.lhsIdx
  rw [dif_neg (show ¬(0 : Fin S3200x32.rank) ∈ dot_S3200x32_S32x128_S3200x128_1_0_0_1_n_n.lhsBatch by decide),
    dif_pos (show (0 : Fin S3200x32.rank) ∈ dot_S3200x32_S32x128_S3200x128_1_0_0_1_n_n.lhsNonContracting by decide)]
  rfl
theorem mm_a_r1 (i : S3200x128.Idx) (q : dot_S3200x32_S32x128_S3200x128_1_0_0_1_n_n.contr.Idx) : (dot_S3200x32_S32x128_S3200x128_1_0_0_1_n_n.rhsIdx i q 1).val = (i 1).val := by
  unfold DotDims.rhsIdx
  rw [dif_neg (show ¬(1 : Fin S32x128.rank) ∈ dot_S3200x32_S32x128_S3200x128_1_0_0_1_n_n.rhsBatch by decide),
    dif_pos (show (1 : Fin S32x128.rank) ∈ dot_S3200x32_S32x128_S3200x128_1_0_0_1_n_n.rhsNonContracting by decide)]
  rfl
/-- The product `S3200x32 · S32x128` into a zero accumulator, read at `(p, c)`: the sum over `k` of `l (p, k) · r (k, c)`. -/
theorem mm_a (l : FVec Ideal S3200x32 .bf16) (r : FVec Ideal S32x128 .bf16) (p : Fin 3200) (c : Fin 128) :
    matmul dot_S3200x32_S32x128_S3200x128_1_0_0_1_n_n none l r (constant (F := Ideal) S3200x128 .f32 0x00000000#32) (ix2 p c)
      = ∑ k : Fin 32, l (ix2 p k) * r (ix2 k c) := by
  refine (Ideal.matmul_constant_zero_apply dot_S3200x32_S32x128_S3200x128_1_0_0_1_n_n none l r (ix2 p c)).trans ?_
  rw [← Equiv.sum_comp (ValueIdx.contrEquiv1 dot_S3200x32_S32x128_S3200x128_1_0_0_1_n_n 32 rfl rfl).symm]
  refine Finset.sum_congr rfl fun k _ => ?_
  have hk := ValueIdx.contrEquiv1_symm_val dot_S3200x32_S32x128_S3200x128_1_0_0_1_n_n 32 rfl rfl k
  have el : dot_S3200x32_S32x128_S3200x128_1_0_0_1_n_n.lhsIdx (ix2 p c) ((ValueIdx.contrEquiv1 dot_S3200x32_S32x128_S3200x128_1_0_0_1_n_n 32 rfl rfl).symm k) = ix2 p k :=
    funext fun a => Fin.ext (by
      match a with
      | ⟨0, _⟩ => exact mm_a_l0 _ _
      | ⟨1, _⟩ => exact (dot_S3200x32_S32x128_S3200x128_1_0_0_1_n_n.lhsIdx_val_of_single rfl (ix2 p c) _).trans hk)
  have er : dot_S3200x32_S32x128_S3200x128_1_0_0_1_n_n.rhsIdx (ix2 p c) ((ValueIdx.contrEquiv1 dot_S3200x32_S32x128_S3200x128_1_0_0_1_n_n 32 rfl rfl).symm k) = ix2 k c :=
    funext fun a => Fin.ext (by
      match a with
      | ⟨0, _⟩ => exact (dot_S3200x32_S32x128_S3200x128_1_0_0_1_n_n.rhsIdx_val_of_single rfl (ix2 p c) _).trans hk
      | ⟨1, _⟩ => exact mm_a_r1 _ _)
  rw [el, er]

theorem mm_n2_l0 (i : S3200x64.Idx) (q : dot_S3200x128_S128x64_S3200x64_1_0_0_1_n_n.contr.Idx) : (dot_S3200x128_S128x64_S3200x64_1_0_0_1_n_n.lhsIdx i q 0).val = (i 0).val := by
  unfold DotDims.lhsIdx
  rw [dif_neg (show ¬(0 : Fin S3200x128.rank) ∈ dot_S3200x128_S128x64_S3200x64_1_0_0_1_n_n.lhsBatch by decide),
    dif_pos (show (0 : Fin S3200x128.rank) ∈ dot_S3200x128_S128x64_S3200x64_1_0_0_1_n_n.lhsNonContracting by decide)]
  rfl
theorem mm_n2_r1 (i : S3200x64.Idx) (q : dot_S3200x128_S128x64_S3200x64_1_0_0_1_n_n.contr.Idx) : (dot_S3200x128_S128x64_S3200x64_1_0_0_1_n_n.rhsIdx i q 1).val = (i 1).val := by
  unfold DotDims.rhsIdx
  rw [dif_neg (show ¬(1 : Fin S128x64.rank) ∈ dot_S3200x128_S128x64_S3200x64_1_0_0_1_n_n.rhsBatch by decide),
    dif_pos (show (1 : Fin S128x64.rank) ∈ dot_S3200x128_S128x64_S3200x64_1_0_0_1_n_n.rhsNonContracting by decide)]
  rfl
/-- The product `S3200x128 · S128x64` into a zero accumulator, read at `(p, c)`: the sum over `k` of `l (p, k) · r (k, c)`. -/
theorem mm_n2 (l : FVec Ideal S3200x128 .bf16) (r : FVec Ideal S128x64 .bf16) (p : Fin 3200) (c : Fin 64) :
    matmul dot_S3200x128_S128x64_S3200x64_1_0_0_1_n_n none l r (constant (F := Ideal) S3200x64 .f32 0x00000000#32) (ix2 p c)
      = ∑ k : Fin 128, l (ix2 p k) * r (ix2 k c) := by
  refine (Ideal.matmul_constant_zero_apply dot_S3200x128_S128x64_S3200x64_1_0_0_1_n_n none l r (ix2 p c)).trans ?_
  rw [← Equiv.sum_comp (ValueIdx.contrEquiv1 dot_S3200x128_S128x64_S3200x64_1_0_0_1_n_n 128 rfl rfl).symm]
  refine Finset.sum_congr rfl fun k _ => ?_
  have hk := ValueIdx.contrEquiv1_symm_val dot_S3200x128_S128x64_S3200x64_1_0_0_1_n_n 128 rfl rfl k
  have el : dot_S3200x128_S128x64_S3200x64_1_0_0_1_n_n.lhsIdx (ix2 p c) ((ValueIdx.contrEquiv1 dot_S3200x128_S128x64_S3200x64_1_0_0_1_n_n 128 rfl rfl).symm k) = ix2 p k :=
    funext fun a => Fin.ext (by
      match a with
      | ⟨0, _⟩ => exact mm_n2_l0 _ _
      | ⟨1, _⟩ => exact (dot_S3200x128_S128x64_S3200x64_1_0_0_1_n_n.lhsIdx_val_of_single rfl (ix2 p c) _).trans hk)
  have er : dot_S3200x128_S128x64_S3200x64_1_0_0_1_n_n.rhsIdx (ix2 p c) ((ValueIdx.contrEquiv1 dot_S3200x128_S128x64_S3200x64_1_0_0_1_n_n 128 rfl rfl).symm k) = ix2 k c :=
    funext fun a => Fin.ext (by
      match a with
      | ⟨0, _⟩ => exact (dot_S3200x128_S128x64_S3200x64_1_0_0_1_n_n.rhsIdx_val_of_single rfl (ix2 p c) _).trans hk
      | ⟨1, _⟩ => exact mm_n2_r1 _ _)
  rw [el, er]

theorem mm_c2_l0 (i : S3200x1.Idx) (q : dot_S3200x128_S128x1_S3200x1_1_0_0_1_n_n.contr.Idx) : (dot_S3200x128_S128x1_S3200x1_1_0_0_1_n_n.lhsIdx i q 0).val = (i 0).val := by
  unfold DotDims.lhsIdx
  rw [dif_neg (show ¬(0 : Fin S3200x128.rank) ∈ dot_S3200x128_S128x1_S3200x1_1_0_0_1_n_n.lhsBatch by decide),
    dif_pos (show (0 : Fin S3200x128.rank) ∈ dot_S3200x128_S128x1_S3200x1_1_0_0_1_n_n.lhsNonContracting by decide)]
  rfl
theorem mm_c2_r1 (i : S3200x1.Idx) (q : dot_S3200x128_S128x1_S3200x1_1_0_0_1_n_n.contr.Idx) : (dot_S3200x128_S128x1_S3200x1_1_0_0_1_n_n.rhsIdx i q 1).val = (i 1).val := by
  unfold DotDims.rhsIdx
  rw [dif_neg (show ¬(1 : Fin S128x1.rank) ∈ dot_S3200x128_S128x1_S3200x1_1_0_0_1_n_n.rhsBatch by decide),
    dif_pos (show (1 : Fin S128x1.rank) ∈ dot_S3200x128_S128x1_S3200x1_1_0_0_1_n_n.rhsNonContracting by decide)]
  rfl
/-- The product `S3200x128 · S128x1` into a zero accumulator, read at `(p, c)`: the sum over `k` of `l (p, k) · r (k, c)`. -/
theorem mm_c2 (l : FVec Ideal S3200x128 .bf16) (r : FVec Ideal S128x1 .bf16) (p : Fin 3200) (c : Fin 1) :
    matmul dot_S3200x128_S128x1_S3200x1_1_0_0_1_n_n none l r (constant (F := Ideal) S3200x1 .f32 0x00000000#32) (ix2 p c)
      = ∑ k : Fin 128, l (ix2 p k) * r (ix2 k c) := by
  refine (Ideal.matmul_constant_zero_apply dot_S3200x128_S128x1_S3200x1_1_0_0_1_n_n none l r (ix2 p c)).trans ?_
  rw [← Equiv.sum_comp (ValueIdx.contrEquiv1 dot_S3200x128_S128x1_S3200x1_1_0_0_1_n_n 128 rfl rfl).symm]
  refine Finset.sum_congr rfl fun k _ => ?_
  have hk := ValueIdx.contrEquiv1_symm_val dot_S3200x128_S128x1_S3200x1_1_0_0_1_n_n 128 rfl rfl k
  have el : dot_S3200x128_S128x1_S3200x1_1_0_0_1_n_n.lhsIdx (ix2 p c) ((ValueIdx.contrEquiv1 dot_S3200x128_S128x1_S3200x1_1_0_0_1_n_n 128 rfl rfl).symm k) = ix2 p k :=
    funext fun a => Fin.ext (by
      match a with
      | ⟨0, _⟩ => exact mm_c2_l0 _ _
      | ⟨1, _⟩ => exact (dot_S3200x128_S128x1_S3200x1_1_0_0_1_n_n.lhsIdx_val_of_single rfl (ix2 p c) _).trans hk)
  have er : dot_S3200x128_S128x1_S3200x1_1_0_0_1_n_n.rhsIdx (ix2 p c) ((ValueIdx.contrEquiv1 dot_S3200x128_S128x1_S3200x1_1_0_0_1_n_n 128 rfl rfl).symm k) = ix2 k c :=
    funext fun a => Fin.ext (by
      match a with
      | ⟨0, _⟩ => exact (dot_S3200x128_S128x1_S3200x1_1_0_0_1_n_n.rhsIdx_val_of_single rfl (ix2 p c) _).trans hk
      | ⟨1, _⟩ => exact mm_c2_r1 _ _)
  rw [el, er]

/-! ## The edge attribute -/

/-- The body's edge attribute (its fifth named value) at `(p, k)`: the specification's, of row `p`'s distance. -/
theorem pay5_apply (x1 : FVec Ideal S3200x7 .f32) (x2 x3 : FVec Ideal S1x32 .f32) (x4 : FVec Ideal S32x32 .f32)
    (x5 : FVec Ideal S1x32 .f32) (p : Fin 3200) (k : Fin 32) :
    k0_pay5 (F := Ideal) x1 x2 x3 x4 x5 (ix2 p k)
      = rAttr (x1 (ix2 p (0 : Fin 7))) (row x2 0) (row x3 0) (mat x4) (row x5 0) k := by
  unfold k0_pay5 k0_pay2
  simp only [shapeCast_self]
  refine (congrArg₂ (· + ·) (mm_e2 _ _ p k) (broadcastTo_1b_ab_apply x5 _ p k)).trans ?_
  unfold rAttr rHidE silu
  refine congrArg₂ (· + ·) (Finset.sum_congr rfl fun k' _ => ?_) rfl
  have hv : ∀ c : Fin 32, (addf (mulf (broadcastTo S3200x32 (extractStridedSlice S3200x1 ![0, 0] x1 slices_S3200x7_o0_0_S3200x1) broadcasts_S3200x1_S3200x32)
        (broadcastTo S3200x32 x2 broadcasts_S1x32_S3200x32)) (broadcastTo S3200x32 x3 broadcasts_S1x32_S3200x32)) (ix2 p c)
      = x1 (ix2 p (0 : Fin 7)) * x2 (ix2 (0 : Fin 1) c) + x3 (ix2 (0 : Fin 1) c) := fun c =>
    congrArg₂ (· + ·) (congrArg₂ (· * ·)
      ((broadcastTo_a1_ab_apply _ _ p c).trans (slice2_axis1_eq 0 x1 _ p (0 : Fin 1)))
      (broadcastTo_1b_ab_apply x2 _ p c)) (broadcastTo_1b_ab_apply x3 _ p c)
  show (addf _ _ (ix2 p k') * FloatOps.logistic (addf _ _ (ix2 p k'))) * x4 (ix2 k' k) = _
  rw [hv k']
  rfl

/-! ## The first hidden layers' products, and the bias rows -/

/-- The body's sum of the two first-layer products (its sixth named value) at `(p, n)`: the feature row times the
    first 128 rows' block plus the edge attribute times the last 32 rows' block. -/
theorem pay6_apply (x0 : FVec Ideal S3200x128 .bf16) (x1 : FVec Ideal S3200x7 .f32) (x2 x3 : FVec Ideal S1x32 .f32)
    (x4 : FVec Ideal S32x32 .f32) (x5 : FVec Ideal S1x32 .f32) (x6 : FVec Ideal S128x128 .f32) (x7 : FVec Ideal S32x128 .f32)
    (p : Fin 3200) (n : Fin 128) :
    k0_pay6 (F := Ideal) x0 x1 x2 x3 x4 x5 x6 x7 (ix2 p n)
      = (∑ k : Fin 128, x0 (ix2 p k) * x6 (ix2 k n))
        + ∑ k : Fin 32, rAttr (x1 (ix2 p (0 : Fin 7))) (row x2 0) (row x3 0) (mat x4) (row x5 0) k * x7 (ix2 k n) := by
  unfold k0_pay6 k0_pay1
  simp only [shapeCast_self]
  refine (congrArg₂ (· + ·) (mm_h _ _ p n) (mm_a _ _ p n)).trans ?_
  refine congrArg₂ (· + ·) rfl (Finset.sum_congr rfl fun k _ => ?_)
  exact congrArg (· * x7 (ix2 k n)) (pay5_apply x1 x2 x3 x4 x5 p k)

/-- A bias row laid along the block (the seventh named value) at `(p, n)`. -/
theorem pay7_apply (x8 : FVec Ideal S1x128 .f32) (p : Fin 3200) (n : Fin 128) :
    k0_pay7 (F := Ideal) x8 (ix2 p n) = x8 (ix2 (0 : Fin 1) n) := by
  unfold k0_pay7
  simp only [shapeCast_self]
  exact broadcastTo_1b_ab_apply x8 _ p n

/-! ## The lane sum and the concatenation -/

/-- The sum over a row's three entries, read at row `p`. -/
theorem lane_sum3 (v : FVec Ideal S3200x3 .f32) (p : Fin 3200) :
    multiReduction .add [1] S3200 v 0x00000000#32 reduces_S3200x3_S3200 (.inl rfl) rfl (ix1 p) = ∑ d : Fin 3, v (ix2 p d) := by
  refine (Ideal.multiReduction_add_single v 0x00000000#32 reduces_S3200x3_S3200 (.inl rfl) rfl (ix1 p)).trans ?_
  show ∑ d : Fin 3, v (reduces_S3200x3_S3200.lift (ix1 p) d) = _
  refine Finset.sum_congr rfl fun d _ => congrArg v ?_
  funext a; apply Fin.ext
  match a with
  | ⟨0, _⟩ => rfl
  | ⟨1, _⟩ => rfl

/-- The stored row `[64 message entries, 3 coordinate entries]`: its first 64 columns. -/
theorem concat_left (u : FVec Ideal S3200x64 .f32) (w : FVec Ideal S3200x3 .f32) (p : Fin 3200) (j : Fin 64) :
    concatenate S3200x67 1 [⟨S3200x64, u⟩, ⟨S3200x3, w⟩] concatenates_S3200x64_S3200x3_S3200x67_d1
        (ix2 p (⟨j.val, by omega⟩ : Fin 67)) = u (ix2 p j) :=
  concatenate_pair_apply_left (t := S3200x67) (s₁ := S3200x64) (s₂ := S3200x3) 1 u w
    concatenates_S3200x64_S3200x3_S3200x67_d1 (ix2 p (⟨j.val, by omega⟩ : Fin 67)) rfl (ix2 p j) (fun b => by
    match b with
    | ⟨0, _⟩ => rfl
    | ⟨1, _⟩ => rfl)

/-- … and its last 3. -/
theorem concat_right (u : FVec Ideal S3200x64 .f32) (w : FVec Ideal S3200x3 .f32) (p : Fin 3200) (d : Fin 3) :
    concatenate S3200x67 1 [⟨S3200x64, u⟩, ⟨S3200x3, w⟩] concatenates_S3200x64_S3200x3_S3200x67_d1
        (ix2 p (⟨64 + d.val, by omega⟩ : Fin 67)) = w (ix2 p d) :=
  concatenate_pair_apply_right (t := S3200x67) (s₁ := S3200x64) (s₂ := S3200x3) 1 u w
    concatenates_S3200x64_S3200x3_S3200x67_d1 (ix2 p (⟨64 + d.val, by omega⟩ : Fin 67)) rfl rfl (ix2 p d) (fun b hb => by
    match b with
    | ⟨0, _⟩ => rfl
    | ⟨1, _⟩ => exact absurd rfl hb) (by show d.val + 64 = 64 + d.val; omega)

/-! ## The stored value -/

/-- A hidden layer with its product taken in two pieces: `silu ((Σ k, ft k · Wh k n + Σ k, ea k · Wa k n) + bias n)`. -/
def rHidS (ft : Fin 128 → EReal) (ea : Fin 32 → EReal) (Wh : Fin 128 → Fin 128 → EReal) (Wa : Fin 32 → Fin 128 → EReal)
    (bias : Fin 128 → EReal) (n : Fin 128) : EReal :=
  silu (((∑ k : Fin 128, ft k * Wh k n) + ∑ k : Fin 32, ea k * Wa k n) + bias n)

/-- The specification's hidden layer over the 160-wide message input is the two-piece one, the matrix cut after its
    128th row. -/
theorem rHid_split (a b : Fin 64 → EReal) (ea : Fin 32 → EReal) (W : Fin 160 → Fin 128 → EReal) (bias : Fin 128 → EReal)
    (n : Fin 128) :
    rHid (rMsg a b ea) W bias n
      = rHidS (rFeat a b) ea (fun k n => W ⟨k.val, by omega⟩ n) (fun k n => W ⟨128 + k.val, by omega⟩ n) bias n := by
  unfold rHid rHidS
  rw [sum_rMsg_split]

/-- The stored value's message half at `(p, j)`, `j < 64`, from the body's six carried values and the second-layer
    weights. -/
theorem pay8_left (v1 : FVec Ideal S3200x128 .bf16) (v5 v6 : FVec Ideal S3200x3 .f32) (v25 : FVec Ideal S3200x32 .bf16)
    (v34 v37 : FVec Ideal S3200x128 .f32) (x9 : FVec Ideal S128x64 .f32) (x10 : FVec Ideal S1x64 .f32)
    (x11 : FVec Ideal S128x128 .f32) (x12 : FVec Ideal S32x128 .f32) (x13 : FVec Ideal S1x128 .f32)
    (x14 : FVec Ideal S128x1 .f32) (p : Fin 3200) (j : Fin 64) :
    k0_pay8 (F := Ideal) v1 v5 v6 v25 v34 v37 x9 x10 x11 x12 x13 x14 (ix2 p (⟨j.val, by omega⟩ : Fin 67))
      = rM (fun n => silu (v34 (ix2 p n) + v37 (ix2 p n))) (mat x9) (row x10 0) j := by
  unfold k0_pay8
  simp only [shapeCast_self]
  refine (concat_left _ _ p j).trans ?_
  refine (congrArg₂ (· + ·) (mm_n2 _ _ p j) (broadcastTo_1b_ab_apply x10 _ p j)).trans ?_
  rfl

/-- The stored value's coordinate half at `(p, 64 + d)`. -/
theorem pay8_right (v1 : FVec Ideal S3200x128 .bf16) (v5 v6 : FVec Ideal S3200x3 .f32) (v25 : FVec Ideal S3200x32 .bf16)
    (v34 v37 : FVec Ideal S3200x128 .f32) (x9 : FVec Ideal S128x64 .f32) (x10 : FVec Ideal S1x64 .f32)
    (x11 : FVec Ideal S128x128 .f32) (x12 : FVec Ideal S32x128 .f32) (x13 : FVec Ideal S1x128 .f32)
    (x14 : FVec Ideal S128x1 .f32) (p : Fin 3200) (d : Fin 3) :
    k0_pay8 (F := Ideal) v1 v5 v6 v25 v34 v37 x9 x10 x11 x12 x13 x14 (ix2 p (⟨64 + d.val, by omega⟩ : Fin 67))
      = rC (rCw (rHidS (row v1 p) (row v25 p) (mat x11) (mat x12) (row x13 0)) (fun n => x14 (ix2 n (0 : Fin 1))))
          (row v5 p) (row v6 p) d := by
  unfold k0_pay8
  simp only [shapeCast_self]
  refine (concat_right _ _ p d).trans ?_
  unfold rC rDlen rDvec rCw rHidS
  refine congrArg₂ (· * ·) ((broadcastTo_a1_ab_apply _ _ p d).trans ?_) ?_
  · refine (mm_c2 _ _ p (0 : Fin 1)).trans (Finset.sum_congr rfl fun n _ => ?_)
    refine congrArg (· * x14 (ix2 n (0 : Fin 1))) ?_
    refine congrArg silu ?_
    exact congrArg₂ (· + ·) (congrArg₂ (· + ·) (mm_h _ _ p n) (mm_a _ _ p n)) (broadcastTo_1b_ab_apply x13 _ p n)
  · refine congrArg (Ideal.div (v5 (ix2 p d) - v6 (ix2 p d))) ((broadcastTo_a1_ab_apply _ _ p d).trans ?_)
    refine congrArg (fun z => max (Ideal.sqrt z) (Ideal.ofBits .f32 0x322BCC77#32)) ?_
    exact (shapeCast_a_a1_apply _ _ p (0 : Fin 1)).trans (lane_sum3 _ p)

/-- The body's stored block as ONE function of its fifteen loaded blocks (the skeleton's named values composed). -/
def bodyVal (x0 : FVec Ideal S3200x128 .bf16) (x1 : FVec Ideal S3200x7 .f32) (x2 x3 : FVec Ideal S1x32 .f32)
    (x4 : FVec Ideal S32x32 .f32) (x5 : FVec Ideal S1x32 .f32) (x6 : FVec Ideal S128x128 .f32) (x7 : FVec Ideal S32x128 .f32)
    (x8 : FVec Ideal S1x128 .f32) (x9 : FVec Ideal S128x64 .f32) (x10 : FVec Ideal S1x64 .f32) (x11 : FVec Ideal S128x128 .f32)
    (x12 : FVec Ideal S32x128 .f32) (x13 : FVec Ideal S1x128 .f32) (x14 : FVec Ideal S128x1 .f32) : FVec Ideal S3200x67 .f32 :=
  k0_pay8 (k0_pay1 x0) (k0_pay3 x1) (k0_pay4 x1) (k0_pay5 x1 x2 x3 x4 x5) (k0_pay6 x0 x1 x2 x3 x4 x5 x6 x7) (k0_pay7 x8)
    x9 x10 x11 x12 x13 x14

section Body
variable (x0 : FVec Ideal S3200x128 .bf16) (x1 : FVec Ideal S3200x7 .f32) (x2 x3 : FVec Ideal S1x32 .f32)
    (x4 : FVec Ideal S32x32 .f32) (x5 : FVec Ideal S1x32 .f32) (x6 : FVec Ideal S128x128 .f32) (x7 : FVec Ideal S32x128 .f32)
    (x8 : FVec Ideal S1x128 .f32) (x9 : FVec Ideal S128x64 .f32) (x10 : FVec Ideal S1x64 .f32) (x11 : FVec Ideal S128x128 .f32)
    (x12 : FVec Ideal S32x128 .f32) (x13 : FVec Ideal S1x128 .f32) (x14 : FVec Ideal S128x1 .f32) (p : Fin 3200)

/-- Row `p`'s edge attribute, from row `p`'s distance (column 0 of the second block) and the edge weights. -/
abbrev eaRow : Fin 32 → EReal := rAttr (x1 (ix2 p (0 : Fin 7))) (row x2 0) (row x3 0) (mat x4) (row x5 0)

/-- Row `p`, columns `j < 64`: the node message of the row's features and distance. -/
theorem body_left (j : Fin 64) :
    bodyVal x0 x1 x2 x3 x4 x5 x6 x7 x8 x9 x10 x11 x12 x13 x14 (ix2 p (⟨j.val, by omega⟩ : Fin 67))
      = rM (rHidS (row x0 p) (eaRow x1 x2 x3 x4 x5 p) (mat x6) (mat x7) (row x8 0)) (mat x9) (row x10 0) j := by
  unfold bodyVal
  refine (pay8_left _ _ _ _ _ _ x9 x10 x11 x12 x13 x14 p j).trans ?_
  refine congrArg (fun f => rM f (mat x9) (row x10 0) j) (funext fun n => ?_)
  unfold rHidS
  exact congrArg silu (congrArg₂ (· + ·) (pay6_apply x0 x1 x2 x3 x4 x5 x6 x7 p n) (pay7_apply x8 p n))

/-- Row `p`, columns `64 + d`: the coordinate message of the row's features, distance and two coordinate triples
    (columns 1–3 and 4–6 of the second block). -/
theorem body_right (d : Fin 3) :
    bodyVal x0 x1 x2 x3 x4 x5 x6 x7 x8 x9 x10 x11 x12 x13 x14 (ix2 p (⟨64 + d.val, by omega⟩ : Fin 67))
      = rC (rCw (rHidS (row x0 p) (eaRow x1 x2 x3 x4 x5 p) (mat x11) (mat x12) (row x13 0)) (fun n => x14 (ix2 n (0 : Fin 1))))
          (fun d : Fin 3 => x1 (ix2 p (⟨1 + d.val, by omega⟩ : Fin 7)))
          (fun d : Fin 3 => x1 (ix2 p (⟨4 + d.val, by omega⟩ : Fin 7))) d := by
  unfold bodyVal
  refine (pay8_right _ _ _ _ _ _ x9 x10 x11 x12 x13 x14 p d).trans ?_
  have e1 : row (k0_pay1 (F := Ideal) x0) p = row x0 p := funext fun k => by
    unfold k0_pay1; simp only [shapeCast_self]
  have e25 : row (k0_pay5 (F := Ideal) x1 x2 x3 x4 x5) p = eaRow x1 x2 x3 x4 x5 p :=
    funext fun k => pay5_apply x1 x2 x3 x4 x5 p k
  have e5 : row (k0_pay3 (F := Ideal) x1) p = fun d : Fin 3 => x1 (ix2 p (⟨1 + d.val, by omega⟩ : Fin 7)) :=
    funext fun d => by
      unfold k0_pay3 k0_pay2; simp only [shapeCast_self]; exact slice2_axis1_eq 1 x1 _ p d
  have e6 : row (k0_pay4 (F := Ideal) x1) p = fun d : Fin 3 => x1 (ix2 p (⟨4 + d.val, by omega⟩ : Fin 7)) :=
    funext fun d => by
      unfold k0_pay4 k0_pay2; simp only [shapeCast_self]; exact slice2_axis1_eq 4 x1 _ p d
  rw [e1, e25, e5, e6]

end Body

end Cert.KernelIdeal.RowValue

end
-- ==== Proof.KHost.lean ====
/-
  What the host lines around the region compute, read entry by entry on the extended reals.

  Before the region the main function slices the edge list into its two rows, brings negative indices into range,
  gathers the endpoint features and coordinates, joins them into the two row-blocked arrays the region reads,
  slices each 160-row weight matrix into its first 128 and last 32 rows, and gives each bias vector a leading unit
  axis. After the region it slices the region's 67-wide result into the node messages (64) and the coordinate
  messages (3) and adds each up at the destination nodes. Here each array the region reads is written out as an
  explicit term of the arguments and read at an entry, and each result is written as the scatter-add of a slice of
  the region's result. The four gathered arrays are kept as they are.
-/
import proofs.«138976_j2319282340047_2_alg».proof.Proof.FrameIdeal
import proofs.«138976_j2319282340047_2_alg».proof.Proof.Spec
import Idealize.ShloMosaic.Lib.ValueLayout
import Idealize.ShloMosaic.Lib.Pipeline.Value

noncomputable section

namespace Cert.KernelIdeal.HostValue

open Cert.KernelIdeal Cert.KernelIdeal.Gen Cert.KernelIdeal.Hand
open Idealize.ShloMosaic Idealize.ShloMosaic.TcCoe Idealize.ShloMosaic.ValueIdx Idealize.ShloMosaic.StableHlo Idealize.SL.Sem
open Cert.Spec (Arr1 Arr2)

/-- Float, half-width float and integer arrays of a literal shape, on the extended reals. -/
abbrev CF (S : Shape) : Type := (⟨S, .f32⟩ : BufTy).Contents (Elt Ideal)
abbrev CB (S : Shape) : Type := (⟨S, .bf16⟩ : BufTy).Contents (Elt Ideal)
abbrev CI (S : Shape) : Type := (⟨S, .i32⟩ : BufTy).Contents (Elt Ideal)

/-! ## The index vectors, as the program spells them -/

/-- The sources and the destinations of the edges: the two rows of the edge list. -/
def srcOf (x14 : CI S2x800000) : CI S800000 :=
  shapeCast S800000 (extractStridedSlice S1x800000 ![0, 0] x14 slices_S2x800000_S1x800000_0_0) shapeCasts_S1x800000_S800000
def dstOf (x14 : CI S2x800000) : CI S800000 :=
  shapeCast S800000 (extractStridedSlice S1x800000 ![1, 0] x14 slices_S2x800000_S1x800000_1_0) shapeCasts_S1x800000_S800000

/-- A negative index counted from the end: `D + 50000` where `D < 0`, else `D`. -/
def normI (D : CI S800000) : CI S800000 :=
  select (cmpi .slt D (broadcastInDim S800000 ![] bcast_S_S800000 (constantI S_ 32 0#32)))
    (addi D (broadcastInDim S800000 ![] bcast_S_S800000 (constantI S_ 32 50000#32))) D

/-- An index vector as a one-column array. -/
def colI (D : CI S800000) : CI S800000x1 := broadcastInDim S800000x1 ![0] bcast_S800000_S800000x1_0 D

variable (m : (ℓ : Loc nD τ sig) → Buf (Elt Ideal) ℓ) (c : Dev nD)

/-! ## The argument arrays, as launched -/

abbrev aH : Arr2 50000 64 := m ((c.tc : Thread nD τ).loc main_arg0)
abbrev aX : Arr2 50000 3 := m ((c.tc : Thread nD τ).loc main_arg1)
abbrev aEd : Arr1 800000 := m ((c.tc : Thread nD τ).loc main_arg2)
abbrev aWe1 : Arr2 1 32 := m ((c.tc : Thread nD τ).loc main_arg3)
abbrev aBe1 : Arr1 32 := m ((c.tc : Thread nD τ).loc main_arg4)
abbrev aWe2 : Arr2 32 32 := m ((c.tc : Thread nD τ).loc main_arg5)
abbrev aBe2 : Arr1 32 := m ((c.tc : Thread nD τ).loc main_arg6)
abbrev aWn1 : Arr2 160 128 := m ((c.tc : Thread nD τ).loc main_arg7)
abbrev aBn1 : Arr1 128 := m ((c.tc : Thread nD τ).loc main_arg8)
abbrev aWn2 : Arr2 128 64 := m ((c.tc : Thread nD τ).loc main_arg9)
abbrev aBn2 : Arr1 64 := m ((c.tc : Thread nD τ).loc main_arg10)
abbrev aWc1 : Arr2 160 128 := m ((c.tc : Thread nD τ).loc main_arg11)
abbrev aBc1 : Arr1 128 := m ((c.tc : Thread nD τ).loc main_arg12)
abbrev aWc2 : Arr2 128 1 := m ((c.tc : Thread nD τ).loc main_arg13)
abbrev aIdx : CI S2x800000 := m ((c.tc : Thread nD τ).loc main_arg14)

/-! ## The gathered arrays, kept as they are -/

/-- The gathered endpoint features (of the node features narrowed to half width: the identity on extended reals)
    and coordinates. -/
def GA : Arr2 800000 64 :=
  Host.gather gather_S50000x64_S800000x1_S800000x64_1_0_n_n_0_1_164 (truncf (F := Ideal) .bf16 (aH m c) bitsLt_bf16_f32 : CB S50000x64)
    (colI (normI (srcOf (aIdx m c))))
def GB : Arr2 800000 64 :=
  Host.gather gather_S50000x64_S800000x1_S800000x64_1_0_n_n_0_1_164 (truncf (F := Ideal) .bf16 (aH m c) bitsLt_bf16_f32 : CB S50000x64)
    (colI (normI (dstOf (aIdx m c))))
def GX1 : Arr2 800000 3 :=
  Host.gather gather_S50000x3_S800000x1_S800000x3_1_0_n_n_0_1_13 (aX m c) (colI (normI (srcOf (aIdx m c))))
def GX2 : Arr2 800000 3 :=
  Host.gather gather_S50000x3_S800000x1_S800000x3_1_0_n_n_0_1_13 (aX m c) (colI (normI (dstOf (aIdx m c))))

/-! ## A line joining three arrays: its result with each operand at its own reference -/

/-- The result of a line over a literal family of three references, each operand's contents at its own reference. -/
theorem nary3_result' {nD : Nat} {τ : Topo} {sig : RefSig} {Val : EltTy → Type} {x a b y : Ref sig .tc}
    (f : ((k : Fin 3) → ((![x, a, b] : Fin 3 → Ref sig .tc) k).ty.Contents Val) → y.ty.Contents Val) (hxs hy)
    (G : Valuation τ sig Val) :
    (StableHlo.nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) := by
  rw [StableHlo.nary_result]; congr 1; funext k; fin_cases k <;> rfl

/-! ## The arrays the region reads -/

/-- The sources and the destinations, as the host lines leave them. -/
theorem v1_eq : (V m c main_v1 : CI S800000) = srcOf (aIdx m c) := by
  show StableHlo.after hostOps0 (fun b => m (c, b)) (Proc.devRef .tc main_v1) = _
  after_results_simp
  rfl
theorem v3_eq : (V m c main_v3 : CI S800000) = dstOf (aIdx m c) := by
  show StableHlo.after hostOps0 (fun b => m (c, b)) (Proc.devRef .tc main_v3) = _
  after_results_simp
  rfl

set_option maxHeartbeats 4000000 in
/-- Window 0's array: the two gathered feature arrays joined side by side. -/
theorem v19_eq : (V m c main_v19 : CB S800000x128)
    = concatenate S800000x128 1 [⟨S800000x64, GA m c⟩, ⟨S800000x64, GB m c⟩] concatenates_S800000x64_S800000x64_S800000x128_d1 := by
  show StableHlo.after hostOps0 (fun b => m (c, b)) (Proc.devRef .tc main_v19) = _
  after_results_simp
  rfl

/-- Read at an entry it is the 128-wide feature row of the edge. -/
theorem hcat_at (e : Fin 800000) (k : Fin 128) :
    (V m c main_v19 : CB S800000x128) (ix2 e k) = Cert.Spec.rFeat (Cert.Spec.row (GA m c) e) (Cert.Spec.row (GB m c) e) k := by
  rw [v19_eq]
  unfold Cert.Spec.rFeat
  by_cases h : k.val < 64
  · rw [dif_pos h]
    exact concatenate_apply_piece (t := S800000x128) 1 [⟨S800000x64, GA m c⟩, ⟨S800000x64, GB m c⟩]
      concatenates_S800000x64_S800000x64_S800000x128_d1 (ix2 e k)
      0 (by show (0 : Nat) < 2; omega) S800000x64 (GA m c) rfl rfl 0 rfl (ix2 e ⟨k.val, h⟩)
      (fun b hb => by match b with
        | ⟨0, _⟩ => rfl
        | ⟨1, _⟩ => exact absurd rfl hb)
      (by show 0 + k.val = k.val; omega)
  · rw [dif_neg h]
    exact concatenate_apply_piece (t := S800000x128) 1 [⟨S800000x64, GA m c⟩, ⟨S800000x64, GB m c⟩]
      concatenates_S800000x64_S800000x64_S800000x128_d1 (ix2 e k)
      1 (by show (1 : Nat) < 2; omega) S800000x64 (GB m c) rfl rfl 64 rfl
      (ix2 e ⟨k.val - 64, by have := k.isLt; omega⟩)
      (fun b hb => by match b with
        | ⟨0, _⟩ => rfl
        | ⟨1, _⟩ => exact absurd rfl hb)
      (by show 64 + (k.val - 64) = k.val; omega)

/-- The distances as one column. -/
def edCol : CF S800000x1 := broadcastInDim S800000x1 ![0] bcast_S800000_S800000x1_0 (aEd m c)

/-- Read at an entry. -/
theorem edCol_at (e : Fin 800000) : edCol m c (ix2 e 0) = aEd m c (ix1 e) :=
  broadcastInDim_apply _ bcast_S800000_S800000x1_0 (aEd m c) (ix2 e 0) (ix1 e) (fun a => match a with
    | ⟨0, _⟩ => by show e.val = if (800000 : Nat) = 1 then 0 else e.val; rw [if_neg (by decide)])

set_option maxHeartbeats 4000000 in
/-- Window 1's array: the distances as one column, then the two gathered coordinate arrays. -/
theorem v35_eq : (V m c main_v35 : CF S800000x7)
    = concatenate S800000x7 1 [⟨S800000x1, edCol m c⟩, ⟨S800000x3, GX1 m c⟩, ⟨S800000x3, GX2 m c⟩]
        concatenates_S800000x1_S800000x3_S800000x3_S800000x7_d1 := by
  show StableHlo.after hostOps0 (fun b => m (c, b)) (Proc.devRef .tc main_v35) = _
  simp (disch := decide) only [after_cons, after_nil, nullary_result', unary_result', binary_result', ternary_result',
    reshape_result', nary3_result', nullary_result_ne', unary_result_ne', binary_result_ne', ternary_result_ne',
    reshape_result_ne', nary_result_ne']
  rfl

/-- Column 0 of window 1's array is the edge's distance, -/
theorem aux_ed (e : Fin 800000) : (V m c main_v35 : CF S800000x7) (ix2 e (0 : Fin 7)) = aEd m c (ix1 e) := by
  rw [v35_eq, ← edCol_at]
  exact concatenate_apply_piece (t := S800000x7) 1 [⟨S800000x1, edCol m c⟩, ⟨S800000x3, GX1 m c⟩, ⟨S800000x3, GX2 m c⟩]
    concatenates_S800000x1_S800000x3_S800000x3_S800000x7_d1 (ix2 e (0 : Fin 7))
    0 (by show (0 : Nat) < 3; omega) S800000x1 (edCol m c) rfl rfl 0 rfl (ix2 e 0)
    (fun b hb => by match b with
      | ⟨0, _⟩ => rfl
      | ⟨1, _⟩ => exact absurd rfl hb)
    (by rfl)

/-- columns 1 to 3 the first endpoint's coordinates, -/
theorem aux_x1 (e : Fin 800000) (d : Fin 3) :
    (V m c main_v35 : CF S800000x7) (ix2 e (⟨1 + d.val, by omega⟩ : Fin 7)) = GX1 m c (ix2 e d) := by
  rw [v35_eq]
  exact concatenate_apply_piece (t := S800000x7) 1 [⟨S800000x1, edCol m c⟩, ⟨S800000x3, GX1 m c⟩, ⟨S800000x3, GX2 m c⟩]
    concatenates_S800000x1_S800000x3_S800000x3_S800000x7_d1 (ix2 e (⟨1 + d.val, by omega⟩ : Fin 7))
    1 (by show (1 : Nat) < 3; omega) S800000x3 (GX1 m c) rfl rfl 1 rfl (ix2 e d)
    (fun b hb => by match b with
      | ⟨0, _⟩ => rfl
      | ⟨1, _⟩ => exact absurd rfl hb)
    (by rfl)

/-- columns 4 to 6 the second endpoint's. -/
theorem aux_x2 (e : Fin 800000) (d : Fin 3) :
    (V m c main_v35 : CF S800000x7) (ix2 e (⟨4 + d.val, by omega⟩ : Fin 7)) = GX2 m c (ix2 e d) := by
  rw [v35_eq]
  exact concatenate_apply_piece (t := S800000x7) 1 [⟨S800000x1, edCol m c⟩, ⟨S800000x3, GX1 m c⟩, ⟨S800000x3, GX2 m c⟩]
    concatenates_S800000x1_S800000x3_S800000x3_S800000x7_d1 (ix2 e (⟨4 + d.val, by omega⟩ : Fin 7))
    2 (by show (2 : Nat) < 3; omega) S800000x3 (GX2 m c) rfl rfl 4 rfl (ix2 e d)
    (fun b hb => by match b with
      | ⟨0, _⟩ => rfl
      | ⟨1, _⟩ => exact absurd rfl hb)
    (by rfl)

/-! ## The weight matrices the region reads whole -/

theorem w_e1 (a : Fin 1) (b : Fin 32) : (V m c main_arg3 : CF S1x32) (ix2 a b) = aWe1 m c (ix2 a b) :=
  congrFun (V_main_arg3 m c) _
theorem w_e2 (a b : Fin 32) : (V m c main_arg5 : CF S32x32) (ix2 a b) = aWe2 m c (ix2 a b) :=
  congrFun (V_main_arg5 m c) _
theorem w_n2 (a : Fin 128) (b : Fin 64) : (V m c main_arg9 : CF S128x64) (ix2 a b) = aWn2 m c (ix2 a b) :=
  congrFun (V_main_arg9 m c) _
theorem w_c2 (a : Fin 128) (b : Fin 1) : (V m c main_arg13 : CF S128x1) (ix2 a b) = aWc2 m c (ix2 a b) :=
  congrFun (V_main_arg13 m c) _

/-! ## The bias vectors with a leading unit axis -/

theorem b_e1 (k : Fin 32) : (V m c main_v40 : CF S1x32) (ix2 (0 : Fin 1) k) = aBe1 m c (ix1 k) := by
  have e : (V m c main_v40 : CF S1x32) = shapeCast S1x32 (aBe1 m c : CF S32) shapeCasts_S32_S1x32 := by
    show StableHlo.after hostOps0 (fun b => m (c, b)) (Proc.devRef .tc main_v40) = _
    after_results_simp
    rfl
  rw [e]; exact shapeCast_a_1a_apply _ shapeCasts_S32_S1x32 0 k
theorem b_e2 (k : Fin 32) : (V m c main_v41 : CF S1x32) (ix2 (0 : Fin 1) k) = aBe2 m c (ix1 k) := by
  have e : (V m c main_v41 : CF S1x32) = shapeCast S1x32 (aBe2 m c : CF S32) shapeCasts_S32_S1x32 := by
    show StableHlo.after hostOps0 (fun b => m (c, b)) (Proc.devRef .tc main_v41) = _
    after_results_simp
    rfl
  rw [e]; exact shapeCast_a_1a_apply _ shapeCasts_S32_S1x32 0 k
theorem b_n1 (k : Fin 128) : (V m c main_v42 : CF S1x128) (ix2 (0 : Fin 1) k) = aBn1 m c (ix1 k) := by
  have e : (V m c main_v42 : CF S1x128) = shapeCast S1x128 (aBn1 m c : CF S128) shapeCasts_S128_S1x128 := by
    show StableHlo.after hostOps0 (fun b => m (c, b)) (Proc.devRef .tc main_v42) = _
    after_results_simp
    rfl
  rw [e]; exact shapeCast_a_1a_apply _ shapeCasts_S128_S1x128 0 k
theorem b_n2 (k : Fin 64) : (V m c main_v43 : CF S1x64) (ix2 (0 : Fin 1) k) = aBn2 m c (ix1 k) := by
  have e : (V m c main_v43 : CF S1x64) = shapeCast S1x64 (aBn2 m c : CF S64) shapeCasts_S64_S1x64 := by
    show StableHlo.after hostOps0 (fun b => m (c, b)) (Proc.devRef .tc main_v43) = _
    after_results_simp
    rfl
  rw [e]; exact shapeCast_a_1a_apply _ shapeCasts_S64_S1x64 0 k
theorem b_c1 (k : Fin 128) : (V m c main_v44 : CF S1x128) (ix2 (0 : Fin 1) k) = aBc1 m c (ix1 k) := by
  have e : (V m c main_v44 : CF S1x128) = shapeCast S1x128 (aBc1 m c : CF S128) shapeCasts_S128_S1x128 := by
    show StableHlo.after hostOps0 (fun b => m (c, b)) (Proc.devRef .tc main_v44) = _
    after_results_simp
    rfl
  rw [e]; exact shapeCast_a_1a_apply _ shapeCasts_S128_S1x128 0 k

/-! ## The 160-row weight matrices cut into their first 128 and last 32 rows -/

theorem w_n1h (k n : Fin 128) :
    (V m c main_v36 : CF S128x128) (ix2 k n) = aWn1 m c (ix2 (⟨k.val, by omega⟩ : Fin 160) n) := by
  have e : (V m c main_v36 : CF S128x128) = extractStridedSlice S128x128 ![0, 0] (aWn1 m c : CF S160x128) slices_S160x128_S128x128_0_0 := by
    show StableHlo.after hostOps0 (fun b => m (c, b)) (Proc.devRef .tc main_v36) = _
    after_results_simp
  rw [e, slice2_axis0_eq 0 _ slices_S160x128_S128x128_0_0 k n]
  exact congrArg (aWn1 m c) (congrArg (ix2 · n) (Fin.ext (Nat.zero_add _)))
theorem w_n1e (k : Fin 32) (n : Fin 128) :
    (V m c main_v37 : CF S32x128) (ix2 k n) = aWn1 m c (ix2 (⟨128 + k.val, by omega⟩ : Fin 160) n) := by
  have e : (V m c main_v37 : CF S32x128) = extractStridedSlice S32x128 ![128, 0] (aWn1 m c : CF S160x128) slices_S160x128_S32x128_128_0 := by
    show StableHlo.after hostOps0 (fun b => m (c, b)) (Proc.devRef .tc main_v37) = _
    after_results_simp
  rw [e, slice2_axis0_eq 128 _ slices_S160x128_S32x128_128_0 k n]
theorem w_c1h (k n : Fin 128) :
    (V m c main_v38 : CF S128x128) (ix2 k n) = aWc1 m c (ix2 (⟨k.val, by omega⟩ : Fin 160) n) := by
  have e : (V m c main_v38 : CF S128x128) = extractStridedSlice S128x128 ![0, 0] (aWc1 m c : CF S160x128) slices_S160x128_S128x128_0_0 := by
    show StableHlo.after hostOps0 (fun b => m (c, b)) (Proc.devRef .tc main_v38) = _
    after_results_simp
  rw [e, slice2_axis0_eq 0 _ slices_S160x128_S128x128_0_0 k n]
  exact congrArg (aWc1 m c) (congrArg (ix2 · n) (Fin.ext (Nat.zero_add _)))
theorem w_c1e (k : Fin 32) (n : Fin 128) :
    (V m c main_v39 : CF S32x128) (ix2 k n) = aWc1 m c (ix2 (⟨128 + k.val, by omega⟩ : Fin 160) n) := by
  have e : (V m c main_v39 : CF S32x128) = extractStridedSlice S32x128 ![128, 0] (aWc1 m c : CF S160x128) slices_S160x128_S32x128_128_0 := by
    show StableHlo.after hostOps0 (fun b => m (c, b)) (Proc.devRef .tc main_v39) = _
    after_results_simp
  rw [e, slice2_axis0_eq 128 _ slices_S160x128_S32x128_128_0 k n]

/-! ## The host lines after the region -/

/-- What the later lines find: window 15's array as the region left it, and the buffers the region does not own
    as the earlier lines left them. -/
theorem tail_out : Pipeline.withArrays (cfgs 0).spec c (V0 m c) (fun w => (dats m 0 c).arrAt w (cfgs 0).N) (Proc.devRef .tc main_v45)
    = (dats m 0 c).arrAt 15 (cfgs 0).N :=
  Pipeline.withArrays_arr (cfgs 0).spec launch0.win.arr_inj c (V0 m c) (fun w => (dats m 0 c).arrAt w (cfgs 0).N) 15
theorem tail_dst : Pipeline.withArrays (cfgs 0).spec c (V0 m c) (fun w => (dats m 0 c).arrAt w (cfgs 0).N) (Proc.devRef .tc main_v3)
    = dstOf (aIdx m c) :=
  (Pipeline.withArrays_of_ne (cfgs 0).spec c (V0 m c) (fun w => (dats m 0 c).arrAt w (cfgs 0).N) main_v3 (by decide)).trans (v3_eq m c)
theorem tail_h : Pipeline.withArrays (cfgs 0).spec c (V0 m c) (fun w => (dats m 0 c).arrAt w (cfgs 0).N) (Proc.devRef .tc main_arg0)
    = aH m c :=
  (Pipeline.withArrays_of_ne (cfgs 0).spec c (V0 m c) (fun w => (dats m 0 c).arrAt w (cfgs 0).N) main_arg0 (by decide)).trans (V_main_arg0 m c)
theorem tail_x : Pipeline.withArrays (cfgs 0).spec c (V0 m c) (fun w => (dats m 0 c).arrAt w (cfgs 0).N) (Proc.devRef .tc main_arg1)
    = aX m c :=
  (Pipeline.withArrays_of_ne (cfgs 0).spec c (V0 m c) (fun w => (dats m 0 c).arrAt w (cfgs 0).N) main_arg1 (by decide)).trans (V_main_arg1 m c)

set_option maxHeartbeats 4000000 in
/-- The first result: the node features with the node messages (columns 0 to 63 of the region's result) added up at
    the destination nodes. -/
theorem res_h :
    (Pipeline.afterTail₀ cfgs (dats m) 0 (V0 m) [hostOps1] c main_v54 : CF S50000x64)
      = Host.scatterAdd (F := Ideal) (φ := .f32) scatter_S50000x64_S800000x1_S800000x64_1_0_0_1 (aH m c : CF S50000x64)
          (colI (normI (dstOf (aIdx m c))))
          (extractStridedSlice S800000x64 ![0, 0] ((dats m 0 c).arrAt 15 cfg0.N : CF S800000x67) slices_S800000x67_S800000x64_0_0) := by
  unfold Pipeline.afterTail₀
  show StableHlo.after hostOps1 _ (Proc.devRef .tc main_v54) = _
  after_results_simp
  rw [tail_out, tail_dst, tail_h]
  rfl

set_option maxHeartbeats 4000000 in
/-- The second result: the coordinates with the coordinate messages (columns 64 to 66 of the region's result) added
    up at the destination nodes. -/
theorem res_x :
    (Pipeline.afterTail₀ cfgs (dats m) 0 (V0 m) [hostOps1] c main_v61 : CF S50000x3)
      = Host.scatterAdd (F := Ideal) (φ := .f32) scatter_S50000x3_S800000x1_S800000x3_1_0_0_1 (aX m c : CF S50000x3)
          (colI (normI (dstOf (aIdx m c))))
          (extractStridedSlice S800000x3 ![0, 64] ((dats m 0 c).arrAt 15 cfg0.N : CF S800000x67) slices_S800000x67_S800000x3_0_64) := by
  unfold Pipeline.afterTail₀
  show StableHlo.after hostOps1 _ (Proc.devRef .tc main_v61) = _
  after_results_simp
  rw [tail_out, tail_dst, tail_x]
  rfl

end Cert.KernelIdeal.HostValue

end
-- ==== Proof.KBlocks.lean ====
/-
  From the blocks the grid points write back to the whole result array of the kernel call.

  Point `t` of the 250 works on edges `3200·t … 3200·t + 3199`: its two blocked inputs are those rows of the
  feature array and of the distance-and-coordinates array, its other inputs the whole weight arrays, and what it
  writes back is those rows of the 800000 × 67 result. Row `e` of the result is therefore the node message of edge
  `e` (columns 0–63) followed by its coordinate message (columns 64–66), as the specification states them.
-/
import proofs.«138976_j2319282340047_2_alg».proof.Proof.FrameIdeal
import proofs.«138976_j2319282340047_2_alg».proof.Proof.KRow
import proofs.«138976_j2319282340047_2_alg».proof.Proof.KHost
import Idealize.ShloMosaic.Lib.Pipeline.Value

set_option maxRecDepth 16384

noncomputable section

namespace Cert.KernelIdeal.Blocks

open Cert.KernelIdeal Cert.KernelIdeal.Gen Cert.KernelIdeal.Hand Cert.KernelIdeal.RowValue
open Idealize.ShloMosaic Idealize.ShloMosaic.TcCoe Idealize.ShloMosaic.ValueIdx Idealize.SL.Sem Cert.Spec
open Idealize.ShloMosaic.Pipeline (Dat Cfg Window)

variable (m : (ℓ : Loc nD τ sig) → Buf (Elt Ideal) ℓ)

/-! ## What a point stores is the body's function of its input blocks -/

theorem hz : (![0, 0] : Fin 2 → Nat) = fun _ => 0 := funext fun a => by fin_cases a <;> rfl

/-- The output buffer after the body: the one store covers it, so it holds the stored value. -/
theorem out_eq_body (x0 : Vec Ideal S3200x128 .bf16) (x1 : Vec Ideal S3200x7 .f32) (x2 x3 : Vec Ideal S1x32 .f32)
    (x4 : Vec Ideal S32x32 .f32) (x5 : Vec Ideal S1x32 .f32) (x6 : Vec Ideal S128x128 .f32) (x7 : Vec Ideal S32x128 .f32)
    (x8 : Vec Ideal S1x128 .f32) (x9 : Vec Ideal S128x64 .f32) (x10 : Vec Ideal S1x64 .f32) (x11 : Vec Ideal S128x128 .f32)
    (x12 : Vec Ideal S32x128 .f32) (x13 : Vec Ideal S1x128 .f32) (x14 : Vec Ideal S128x1 .f32) :
    out0_15 (F := Ideal) x0 x1 x2 x3 x4 x5 x6 x7 x8 x9 x10 x11 x12 x13 x14
      = bodyVal x0 x1 x2 x3 x4 x5 x6 x7 x8 x9 x10 x11 x12 x13 x14 := by
  unfold out0_15 bodyVal
  rw [View.canon_unit_zero hz]
  simp only [View.ld_unit_zero (S := S3200x128) hz, View.ld_unit_zero (S := S3200x7) hz, View.ld_unit_zero (S := S1x32) hz,
    View.ld_unit_zero (S := S32x32) hz, View.ld_unit_zero (S := S128x128) hz, View.ld_unit_zero (S := S32x128) hz,
    View.ld_unit_zero (S := S1x128) hz, View.ld_unit_zero (S := S128x64) hz, View.ld_unit_zero (S := S1x64) hz,
    View.ld_unit_zero (S := S128x1) hz]

/-! ## The input blocks, read at an entry -/

theorem hN : cfg0.N = 250 := N_0

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)

/-- The edge that row `p` of point `t`'s blocks is. -/
def edgeOf (t : Fin cfg0.N) (p : Fin 3200) : Fin 800000 :=
  ⟨3200 * t.val + p.val, by have := t.isLt; have := hN; have := p.isLt; omega⟩

/-- Point `t`'s feature block is rows `3200·t + p` of the feature array. -/
theorem iblk0_at (c : Dev nD) (t : Fin cfg0.N) (p : Fin 3200) (k : Fin 128) :
    iblk m c 0 t (ix2 p k) = V m c main_v19 (ix2 (edgeOf t p) k) := by
  show V m c main_v19 (((cfg0.win 0).blk t).view.emb (ix2 p k)) = _
  refine congrArg (V m c main_v19) (funext fun ax => Fin.ext ?_)
  obtain ⟨e0, e1⟩ := idx0 t
  match ax with
  | ⟨0, _⟩ => show win0_0.index t (0 : Fin 2) * 3200 + 1 * p.val = 3200 * t.val + p.val; omega
  | ⟨1, _⟩ => show win0_0.index t (1 : Fin 2) * 128 + 1 * k.val = k.val; omega

/-- … and its second block the same rows of the distance-and-coordinates array. -/
theorem iblk1_at (c : Dev nD) (t : Fin cfg0.N) (p : Fin 3200) (k : Fin 7) :
    iblk m c 1 t (ix2 p k) = V m c main_v35 (ix2 (edgeOf t p) k) := by
  show V m c main_v35 (((cfg0.win 1).blk t).view.emb (ix2 p k)) = _
  refine congrArg (V m c main_v35) (funext fun ax => Fin.ext ?_)
  obtain ⟨e0, e1⟩ := idx1 t
  match ax with
  | ⟨0, _⟩ => show win0_1.index t (0 : Fin 2) * 3200 + 1 * p.val = 3200 * t.val + p.val; omega
  | ⟨1, _⟩ => show win0_1.index t (1 : Fin 2) * 7 + 1 * k.val = k.val; omega

theorem idx2 : ∀ t : Fin cfg0.N, win0_2.index t (0 : Fin 2) = 0 ∧ win0_2.index t (1 : Fin 2) = 0 :=
  (by decide +kernel : ∀ t : Fin grid0.N, _)
/-- Window 2 is its whole array at every point. -/
theorem iblk2_at (c : Dev nD) (t : Fin cfg0.N) (a : Fin 1) (b : Fin 32) :
    iblk m c 2 t (ix2 a b) = V m c main_arg3 (ix2 a b) := by
  show V m c main_arg3 (((cfg0.win 2).blk t).view.emb (ix2 a b)) = _
  refine congrArg (V m c main_arg3) (funext fun ax => Fin.ext ?_)
  obtain ⟨e0, e1⟩ := idx2 t
  match ax with
  | ⟨0, _⟩ => show win0_2.index t (0 : Fin 2) * 1 + 1 * a.val = a.val; omega
  | ⟨1, _⟩ => show win0_2.index t (1 : Fin 2) * 32 + 1 * b.val = b.val; omega

theorem idx3 : ∀ t : Fin cfg0.N, win0_3.index t (0 : Fin 2) = 0 ∧ win0_3.index t (1 : Fin 2) = 0 :=
  (by decide +kernel : ∀ t : Fin grid0.N, _)
/-- Window 3 is its whole array at every point. -/
theorem iblk3_at (c : Dev nD) (t : Fin cfg0.N) (a : Fin 1) (b : Fin 32) :
    iblk m c 3 t (ix2 a b) = V m c main_v40 (ix2 a b) := by
  show V m c main_v40 (((cfg0.win 3).blk t).view.emb (ix2 a b)) = _
  refine congrArg (V m c main_v40) (funext fun ax => Fin.ext ?_)
  obtain ⟨e0, e1⟩ := idx3 t
  match ax with
  | ⟨0, _⟩ => show win0_3.index t (0 : Fin 2) * 1 + 1 * a.val = a.val; omega
  | ⟨1, _⟩ => show win0_3.index t (1 : Fin 2) * 32 + 1 * b.val = b.val; omega

theorem idx4 : ∀ t : Fin cfg0.N, win0_4.index t (0 : Fin 2) = 0 ∧ win0_4.index t (1 : Fin 2) = 0 :=
  (by decide +kernel : ∀ t : Fin grid0.N, _)
/-- Window 4 is its whole array at every point. -/
theorem iblk4_at (c : Dev nD) (t : Fin cfg0.N) (a : Fin 32) (b : Fin 32) :
    iblk m c 4 t (ix2 a b) = V m c main_arg5 (ix2 a b) := by
  show V m c main_arg5 (((cfg0.win 4).blk t).view.emb (ix2 a b)) = _
  refine congrArg (V m c main_arg5) (funext fun ax => Fin.ext ?_)
  obtain ⟨e0, e1⟩ := idx4 t
  match ax with
  | ⟨0, _⟩ => show win0_4.index t (0 : Fin 2) * 32 + 1 * a.val = a.val; omega
  | ⟨1, _⟩ => show win0_4.index t (1 : Fin 2) * 32 + 1 * b.val = b.val; omega

theorem idx5 : ∀ t : Fin cfg0.N, win0_5.index t (0 : Fin 2) = 0 ∧ win0_5.index t (1 : Fin 2) = 0 :=
  (by decide +kernel : ∀ t : Fin grid0.N, _)
/-- Window 5 is its whole array at every point. -/
theorem iblk5_at (c : Dev nD) (t : Fin cfg0.N) (a : Fin 1) (b : Fin 32) :
    iblk m c 5 t (ix2 a b) = V m c main_v41 (ix2 a b) := by
  show V m c main_v41 (((cfg0.win 5).blk t).view.emb (ix2 a b)) = _
  refine congrArg (V m c main_v41) (funext fun ax => Fin.ext ?_)
  obtain ⟨e0, e1⟩ := idx5 t
  match ax with
  | ⟨0, _⟩ => show win0_5.index t (0 : Fin 2) * 1 + 1 * a.val = a.val; omega
  | ⟨1, _⟩ => show win0_5.index t (1 : Fin 2) * 32 + 1 * b.val = b.val; omega

theorem idx6 : ∀ t : Fin cfg0.N, win0_6.index t (0 : Fin 2) = 0 ∧ win0_6.index t (1 : Fin 2) = 0 :=
  (by decide +kernel : ∀ t : Fin grid0.N, _)
/-- Window 6 is its whole array at every point. -/
theorem iblk6_at (c : Dev nD) (t : Fin cfg0.N) (a : Fin 128) (b : Fin 128) :
    iblk m c 6 t (ix2 a b) = V m c main_v36 (ix2 a b) := by
  show V m c main_v36 (((cfg0.win 6).blk t).view.emb (ix2 a b)) = _
  refine congrArg (V m c main_v36) (funext fun ax => Fin.ext ?_)
  obtain ⟨e0, e1⟩ := idx6 t
  match ax with
  | ⟨0, _⟩ => show win0_6.index t (0 : Fin 2) * 128 + 1 * a.val = a.val; omega
  | ⟨1, _⟩ => show win0_6.index t (1 : Fin 2) * 128 + 1 * b.val = b.val; omega

theorem idx7 : ∀ t : Fin cfg0.N, win0_7.index t (0 : Fin 2) = 0 ∧ win0_7.index t (1 : Fin 2) = 0 :=
  (by decide +kernel : ∀ t : Fin grid0.N, _)
/-- Window 7 is its whole array at every point. -/
theorem iblk7_at (c : Dev nD) (t : Fin cfg0.N) (a : Fin 32) (b : Fin 128) :
    iblk m c 7 t (ix2 a b) = V m c main_v37 (ix2 a b) := by
  show V m c main_v37 (((cfg0.win 7).blk t).view.emb (ix2 a b)) = _
  refine congrArg (V m c main_v37) (funext fun ax => Fin.ext ?_)
  obtain ⟨e0, e1⟩ := idx7 t
  match ax with
  | ⟨0, _⟩ => show win0_7.index t (0 : Fin 2) * 32 + 1 * a.val = a.val; omega
  | ⟨1, _⟩ => show win0_7.index t (1 : Fin 2) * 128 + 1 * b.val = b.val; omega

theorem idx8 : ∀ t : Fin cfg0.N, win0_8.index t (0 : Fin 2) = 0 ∧ win0_8.index t (1 : Fin 2) = 0 :=
  (by decide +kernel : ∀ t : Fin grid0.N, _)
/-- Window 8 is its whole array at every point. -/
theorem iblk8_at (c : Dev nD) (t : Fin cfg0.N) (a : Fin 1) (b : Fin 128) :
    iblk m c 8 t (ix2 a b) = V m c main_v42 (ix2 a b) := by
  show V m c main_v42 (((cfg0.win 8).blk t).view.emb (ix2 a b)) = _
  refine congrArg (V m c main_v42) (funext fun ax => Fin.ext ?_)
  obtain ⟨e0, e1⟩ := idx8 t
  match ax with
  | ⟨0, _⟩ => show win0_8.index t (0 : Fin 2) * 1 + 1 * a.val = a.val; omega
  | ⟨1, _⟩ => show win0_8.index t (1 : Fin 2) * 128 + 1 * b.val = b.val; omega

theorem idx9 : ∀ t : Fin cfg0.N, win0_9.index t (0 : Fin 2) = 0 ∧ win0_9.index t (1 : Fin 2) = 0 :=
  (by decide +kernel : ∀ t : Fin grid0.N, _)
/-- Window 9 is its whole array at every point. -/
theorem iblk9_at (c : Dev nD) (t : Fin cfg0.N) (a : Fin 128) (b : Fin 64) :
    iblk m c 9 t (ix2 a b) = V m c main_arg9 (ix2 a b) := by
  show V m c main_arg9 (((cfg0.win 9).blk t).view.emb (ix2 a b)) = _
  refine congrArg (V m c main_arg9) (funext fun ax => Fin.ext ?_)
  obtain ⟨e0, e1⟩ := idx9 t
  match ax with
  | ⟨0, _⟩ => show win0_9.index t (0 : Fin 2) * 128 + 1 * a.val = a.val; omega
  | ⟨1, _⟩ => show win0_9.index t (1 : Fin 2) * 64 + 1 * b.val = b.val; omega

theorem idx10 : ∀ t : Fin cfg0.N, win0_10.index t (0 : Fin 2) = 0 ∧ win0_10.index t (1 : Fin 2) = 0 :=
  (by decide +kernel : ∀ t : Fin grid0.N, _)
/-- Window 10 is its whole array at every point. -/
theorem iblk10_at (c : Dev nD) (t : Fin cfg0.N) (a : Fin 1) (b : Fin 64) :
    iblk m c 10 t (ix2 a b) = V m c main_v43 (ix2 a b) := by
  show V m c main_v43 (((cfg0.win 10).blk t).view.emb (ix2 a b)) = _
  refine congrArg (V m c main_v43) (funext fun ax => Fin.ext ?_)
  obtain ⟨e0, e1⟩ := idx10 t
  match ax with
  | ⟨0, _⟩ => show win0_10.index t (0 : Fin 2) * 1 + 1 * a.val = a.val; omega
  | ⟨1, _⟩ => show win0_10.index t (1 : Fin 2) * 64 + 1 * b.val = b.val; omega

theorem idx11 : ∀ t : Fin cfg0.N, win0_11.index t (0 : Fin 2) = 0 ∧ win0_11.index t (1 : Fin 2) = 0 :=
  (by decide +kernel : ∀ t : Fin grid0.N, _)
/-- Window 11 is its whole array at every point. -/
theorem iblk11_at (c : Dev nD) (t : Fin cfg0.N) (a : Fin 128) (b : Fin 128) :
    iblk m c 11 t (ix2 a b) = V m c main_v38 (ix2 a b) := by
  show V m c main_v38 (((cfg0.win 11).blk t).view.emb (ix2 a b)) = _
  refine congrArg (V m c main_v38) (funext fun ax => Fin.ext ?_)
  obtain ⟨e0, e1⟩ := idx11 t
  match ax with
  | ⟨0, _⟩ => show win0_11.index t (0 : Fin 2) * 128 + 1 * a.val = a.val; omega
  | ⟨1, _⟩ => show win0_11.index t (1 : Fin 2) * 128 + 1 * b.val = b.val; omega

theorem idx12 : ∀ t : Fin cfg0.N, win0_12.index t (0 : Fin 2) = 0 ∧ win0_12.index t (1 : Fin 2) = 0 :=
  (by decide +kernel : ∀ t : Fin grid0.N, _)
/-- Window 12 is its whole array at every point. -/
theorem iblk12_at (c : Dev nD) (t : Fin cfg0.N) (a : Fin 32) (b : Fin 128) :
    iblk m c 12 t (ix2 a b) = V m c main_v39 (ix2 a b) := by
  show V m c main_v39 (((cfg0.win 12).blk t).view.emb (ix2 a b)) = _
  refine congrArg (V m c main_v39) (funext fun ax => Fin.ext ?_)
  obtain ⟨e0, e1⟩ := idx12 t
  match ax with
  | ⟨0, _⟩ => show win0_12.index t (0 : Fin 2) * 32 + 1 * a.val = a.val; omega
  | ⟨1, _⟩ => show win0_12.index t (1 : Fin 2) * 128 + 1 * b.val = b.val; omega

theorem idx13 : ∀ t : Fin cfg0.N, win0_13.index t (0 : Fin 2) = 0 ∧ win0_13.index t (1 : Fin 2) = 0 :=
  (by decide +kernel : ∀ t : Fin grid0.N, _)
/-- Window 13 is its whole array at every point. -/
theorem iblk13_at (c : Dev nD) (t : Fin cfg0.N) (a : Fin 1) (b : Fin 128) :
    iblk m c 13 t (ix2 a b) = V m c main_v44 (ix2 a b) := by
  show V m c main_v44 (((cfg0.win 13).blk t).view.emb (ix2 a b)) = _
  refine congrArg (V m c main_v44) (funext fun ax => Fin.ext ?_)
  obtain ⟨e0, e1⟩ := idx13 t
  match ax with
  | ⟨0, _⟩ => show win0_13.index t (0 : Fin 2) * 1 + 1 * a.val = a.val; omega
  | ⟨1, _⟩ => show win0_13.index t (1 : Fin 2) * 128 + 1 * b.val = b.val; omega

theorem idx14 : ∀ t : Fin cfg0.N, win0_14.index t (0 : Fin 2) = 0 ∧ win0_14.index t (1 : Fin 2) = 0 :=
  (by decide +kernel : ∀ t : Fin grid0.N, _)
/-- Window 14 is its whole array at every point. -/
theorem iblk14_at (c : Dev nD) (t : Fin cfg0.N) (a : Fin 128) (b : Fin 1) :
    iblk m c 14 t (ix2 a b) = V m c main_arg13 (ix2 a b) := by
  show V m c main_arg13 (((cfg0.win 14).blk t).view.emb (ix2 a b)) = _
  refine congrArg (V m c main_arg13) (funext fun ax => Fin.ext ?_)
  obtain ⟨e0, e1⟩ := idx14 t
  match ax with
  | ⟨0, _⟩ => show win0_14.index t (0 : Fin 2) * 128 + 1 * a.val = a.val; omega
  | ⟨1, _⟩ => show win0_14.index t (1 : Fin 2) * 1 + 1 * b.val = b.val; omega

/-! ## The arguments as arrays, and the result array's specification -/

section Result
variable (c : Dev nD)

open Cert.KernelIdeal.HostValue

/-- Edge `e`, column `q` of the result: the node message for `q < 64`, the coordinate message after. -/
def gOutAt (e : Fin 800000) (q : Fin 67) : EReal :=
  if h : q.val < 64 then
    mFull (GA m c) (GB m c) (aEd m c) (aWe1 m c) (aBe1 m c) (aWe2 m c) (aBe2 m c) (aWn1 m c) (aBn1 m c) (aWn2 m c) (aBn2 m c)
      (ix2 e ⟨q.val, h⟩)
  else
    cFull (GA m c) (GB m c) (GX1 m c) (GX2 m c) (aEd m c) (aWe1 m c) (aBe1 m c) (aWe2 m c) (aBe2 m c) (aWc1 m c) (aBc1 m c)
      (aWc2 m c) (ix2 e ⟨q.val - 64, by have := q.isLt; omega⟩)

/-- The whole result array. -/
def gOut : S800000x67.Idx → EReal := fun i => gOutAt m c (i 0) (i 1)

/-! ## One row of one point -/

variable (t : Fin cfg0.N) (p : Fin 3200)

/-- Row `p`'s features at point `t` are edge `3200·t + p`'s `[A e, B e]`. -/
theorem feat_row : row (iblk m c 0 t) p = rFeat (row (GA m c) (edgeOf t p)) (row (GB m c) (edgeOf t p)) :=
  funext fun k => (iblk0_at m c t p k).trans (hcat_at m c (edgeOf t p) k)

/-- Row `p`'s edge attribute at point `t` is edge `3200·t + p`'s. -/
theorem attr_row : eaRow (iblk m c 1 t) (iblk m c 2 t) (iblk m c 3 t) (iblk m c 4 t) (iblk m c 5 t) p
    = attr (aEd m c) (aWe1 m c) (aBe1 m c) (aWe2 m c) (aBe2 m c) (edgeOf t p) := by
  unfold attr
  have h1 : iblk m c 1 t (ix2 p (0 : Fin 7)) = aEd m c (ix1 (edgeOf t p)) :=
    (iblk1_at m c t p 0).trans (aux_ed m c (edgeOf t p))
  have h2 : row (iblk m c 2 t) 0 = row (aWe1 m c) 0 := funext fun k => (iblk2_at m c t 0 k).trans (w_e1 m c 0 k)
  have h3 : row (iblk m c 3 t) 0 = vec (aBe1 m c) := funext fun k => (iblk3_at m c t 0 k).trans (b_e1 m c k)
  have h4 : mat (iblk m c 4 t) = mat (aWe2 m c) := funext fun a => funext fun b => (iblk4_at m c t a b).trans (w_e2 m c a b)
  have h5 : row (iblk m c 5 t) 0 = vec (aBe2 m c) := funext fun k => (iblk5_at m c t 0 k).trans (b_e2 m c k)
  show rAttr (iblk m c 1 t (ix2 p (0 : Fin 7))) (row (iblk m c 2 t) 0) (row (iblk m c 3 t) 0) (mat (iblk m c 4 t)) (row (iblk m c 5 t) 0) = _
  rw [h1, h2, h3, h4, h5]

/-- A first hidden layer at row `p` of point `t`, its product in two pieces, is the specification's over the 160-wide
    message input of edge `3200·t + p`. -/
theorem hid_row (Wh : Vec Ideal S128x128 .f32) (Wa : Vec Ideal S32x128 .f32) (bb : Vec Ideal S1x128 .f32)
    (W : Arr2 160 128) (bias : Arr1 128)
    (hWh : ∀ (k : Fin 128) (n : Fin 128), Wh (ix2 k n) = W (ix2 ⟨k.val, by omega⟩ n))
    (hWa : ∀ (k : Fin 32) (n : Fin 128), Wa (ix2 k n) = W (ix2 ⟨128 + k.val, by omega⟩ n))
    (hbb : ∀ n : Fin 128, bb (ix2 (0 : Fin 1) n) = bias (ix1 n)) :
    rHidS (row (iblk m c 0 t) p) (eaRow (iblk m c 1 t) (iblk m c 2 t) (iblk m c 3 t) (iblk m c 4 t) (iblk m c 5 t) p) (mat Wh) (mat Wa) (row bb 0)
      = rHid (rMsg (row (GA m c) (edgeOf t p)) (row (GB m c) (edgeOf t p))
          (attr (aEd m c) (aWe1 m c) (aBe1 m c) (aWe2 m c) (aBe2 m c) (edgeOf t p))) (mat W) (vec bias) := by
  rw [feat_row m c t p, attr_row m c t p]
  have e1 : mat Wh = fun (k : Fin 128) (n : Fin 128) => mat W ⟨k.val, by omega⟩ n := funext fun k => funext fun n => hWh k n
  have e2 : mat Wa = fun (k : Fin 32) (n : Fin 128) => mat W ⟨128 + k.val, by omega⟩ n := funext fun k => funext fun n => hWa k n
  have e3 : row bb 0 = vec bias := funext hbb
  rw [e1, e2, e3]
  exact (funext fun n => rHid_split _ _ _ (mat W) (vec bias) n).symm

/-- Row `p` of what point `t` stores, columns `j < 64`: edge `3200·t + p`'s node message. -/
theorem row_left (j : Fin 64) :
    bodyVal (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p (⟨j.val, by omega⟩ : Fin 67))
      = mFull (GA m c) (GB m c) (aEd m c) (aWe1 m c) (aBe1 m c) (aWe2 m c) (aBe2 m c) (aWn1 m c) (aBn1 m c) (aWn2 m c) (aBn2 m c)
          (ix2 (edgeOf t p) j) := by
  rw [body_left]
  unfold mFull
  rw [hid_row m c t p (iblk m c 6 t) (iblk m c 7 t) (iblk m c 8 t) (aWn1 m c) (aBn1 m c)
    (fun k n => (iblk6_at m c t k n).trans (w_n1h m c k n)) (fun k n => (iblk7_at m c t k n).trans (w_n1e m c k n))
    (fun n => (iblk8_at m c t 0 n).trans (b_n1 m c n))]
  have h9 : mat (iblk m c 9 t) = mat (aWn2 m c) := funext fun a => funext fun b => (iblk9_at m c t a b).trans (w_n2 m c a b)
  have h10 : row (iblk m c 10 t) 0 = vec (aBn2 m c) := funext fun k => (iblk10_at m c t 0 k).trans (b_n2 m c k)
  rw [h9, h10]

/-- … and columns `64 + d`: its coordinate message. -/
theorem row_right (d : Fin 3) :
    bodyVal (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p (⟨64 + d.val, by omega⟩ : Fin 67))
      = cFull (GA m c) (GB m c) (GX1 m c) (GX2 m c) (aEd m c) (aWe1 m c) (aBe1 m c) (aWe2 m c) (aBe2 m c) (aWc1 m c) (aBc1 m c)
          (aWc2 m c) (ix2 (edgeOf t p) d) := by
  rw [body_right]
  unfold cFull
  rw [hid_row m c t p (iblk m c 11 t) (iblk m c 12 t) (iblk m c 13 t) (aWc1 m c) (aBc1 m c)
    (fun k n => (iblk11_at m c t k n).trans (w_c1h m c k n)) (fun k n => (iblk12_at m c t k n).trans (w_c1e m c k n))
    (fun n => (iblk13_at m c t 0 n).trans (b_c1 m c n))]
  have h14 : (fun n : Fin 128 => iblk m c 14 t (ix2 n (0 : Fin 1))) = fun n : Fin 128 => aWc2 m c (ix2 n (0 : Fin 1)) :=
    funext fun n => (iblk14_at m c t n 0).trans (w_c2 m c n 0)
  have hx1 : (fun d : Fin 3 => iblk m c 1 t (ix2 p (⟨1 + d.val, by omega⟩ : Fin 7))) = row (GX1 m c) (edgeOf t p) :=
    funext fun d => (iblk1_at m c t p _).trans (aux_x1 m c (edgeOf t p) d)
  have hx2 : (fun d : Fin 3 => iblk m c 1 t (ix2 p (⟨4 + d.val, by omega⟩ : Fin 7))) = row (GX2 m c) (edgeOf t p) :=
    funext fun d => (iblk1_at m c t p _).trans (aux_x2 m c (edgeOf t p) d)
  rw [h14, hx1, hx2]

/-! ## What a point writes back, and the whole array -/

/-- Point `t` writes back rows `3200·t … 3200·t + 3199` of the specification's result. -/
theorem flushed_eq : (dats m 0 c).flushed 15 t = ((cfg0.win 15).blk t).view.read (Elt Ideal) (gOut m c) := by
  show (cfg0.win 15).cut (grid0.coords t) ((dats m 0 c).after 15 t) = _
  rw [after0_15, out_eq_body]
  funext y
  obtain ⟨p, q, rfl⟩ : ∃ (p : Fin 3200) (q : Fin 67), y = ix2 p q := ⟨y 0, y 1, eq_ix2 y⟩
  show bodyVal (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q) = gOut m c (((cfg0.win 15).blk t).view.emb (ix2 p q))
  have hemb : ((cfg0.win 15).blk t).view.emb (ix2 p q) = ix2 (edgeOf t p) q := funext fun ax => Fin.ext (by
    obtain ⟨e0, e1⟩ := idx15 t
    match ax with
    | ⟨0, _⟩ => show win0_15.index t (0 : Fin 2) * 3200 + 1 * p.val = 3200 * t.val + p.val; omega
    | ⟨1, _⟩ => show win0_15.index t (1 : Fin 2) * 67 + 1 * q.val = q.val; omega)
  rw [hemb]
  show _ = gOutAt m c (edgeOf t p) q
  unfold gOutAt
  by_cases hq : q.val < 64
  · rw [dif_pos hq]
    exact row_left m c t p ⟨q.val, hq⟩
  · rw [dif_neg hq]
    have hq67 := q.isLt
    have hr := row_right m c t p ⟨q.val - 64, by omega⟩
    have e : (⟨64 + (⟨q.val - 64, by omega⟩ : Fin 3).val, by omega⟩ : Fin 67) = q :=
      Fin.ext (by show 64 + (q.val - 64) = q.val; omega)
    rw [e] at hr
    exact hr

/-- Every entry of the result array lies in some point's block: row `r` in point `r / 3200`'s. -/
theorem cover15 (i : S800000x67.Idx) :
    ∃ t : Fin cfg0.N, (cfg0.win 15).flush t = true ∧ i ∈ ((cfg0.win 15).blk t).view.set := by
  have h0 : (i 0).val < 800000 := (i 0).isLt
  have h1 : (i 1).val < 67 := (i 1).isLt
  have hlt : (i 0).val / 3200 < cfg0.N := by rw [hN]; omega
  obtain ⟨t, ht⟩ : ∃ t : Fin cfg0.N, t.val = (i 0).val / 3200 := ⟨⟨(i 0).val / 3200, hlt⟩, rfl⟩
  refine ⟨t, flush0_15 t, ?_⟩
  show i ∈ ((View.whole main_v45).slice (win0_15.rect t)).set
  rw [View.set_slice_whole, Rect.mem_set_unit]
  intro a
  obtain ⟨e0, e1⟩ := idx15 t
  match a with
  | ⟨0, _⟩ =>
    show win0_15.index t (0 : Fin 2) * 3200 ≤ (i 0).val ∧ (i 0).val < win0_15.index t (0 : Fin 2) * 3200 + 3200
    omega
  | ⟨1, _⟩ =>
    show win0_15.index t (1 : Fin 2) * 67 ≤ (i 1).val ∧ (i 1).val < win0_15.index t (1 : Fin 2) * 67 + 67
    omega

/-- THE RESULT ARRAY of the kernel call: the specification's, entry by entry. -/
theorem final15 : (dats m 0 c).arrAt 15 cfg0.N = gOut m c :=
  (dats m 0 c).arrAt_eq_of_cover 15 (gOut m c) (fun t _ => flushed_eq m c t) cover15

end Result

end Cert.KernelIdeal.Blocks

end
-- ==== Proof.PreDst.lean ====
/-
  What the added domain conjunct gives: every destination index of the edge list is non-negative, so the
  wrap-around that indexing applies to a negative index (`d < 0 ? d + 50000 : d`) leaves the destination vector
  as it is.
-/
import proofs.«138976_j2319282340047_2_alg».proof.Defs
import Idealize.ShloMosaic.Lib.ReduceAll
import Idealize.ShloMosaic.Lib.ValueIdx
import Idealize.ShloMosaic.Lib.Affine

noncomputable section

namespace Cert.DstDomain

open Idealize.ShloMosaic Idealize.ShloMosaic.ValueIdx Cert.Pre_finite_inputs Cert.Pre_finite_inputs.Facts

/-- On one word: a signed `x ≥ y` that holds makes the signed `x < y` fail. -/
theorem slt_eq_zero_of_sge (x y : BitVec 32) (h : IntOp.cmpi .sge x y = 1#1) : IntOp.cmpi .slt x y = 0#1 := by
  have h1 : BitVec.ofBool (y.sle x) = 1#1 := h
  have h2 : y.sle x = true := by
    cases hb : y.sle x
    · rw [hb] at h1; exact absurd h1 (by decide)
    · rfl
  have h3 : x.slt y = false := by
    rw [BitVec.sle_eq_not_slt] at h2
    simpa using h2
  show BitVec.ofBool (x.slt y) = 0#1
  rw [h3]; rfl

/-- A vector of words every one of which is `≥` the matching word of `Z` is unchanged by "where it is `< Z`, take the
    other value". -/
theorem select_slt_eq_self {s : Shape} (D Z A : IVec s 32) (h : ∀ i, cmpi .sge D Z i = 1#1) :
    select (cmpi .slt D Z) A D = D := by
  funext i
  show Scalar.select (IntOp.cmpi .slt (D i) (Z i)) (A i) (D i) = D i
  rw [slt_eq_zero_of_sge (D i) (Z i) (h i)]
  exact select_zero _ _

instance : Subsingleton Cert.Pre_finite_inputs.S_.Idx := ⟨fun a b => funext fun d => d.elim0⟩

/-- The precondition's last conjunct, read off the printed predicate: every destination index (row 1 of the edge
    list, as the predicate slices it) is `≥ 0`. -/
theorem dst_nonneg [hP : Cert.Pre_finite_inputs.Facts] {F : FTy → Type} [FloatOps F]
    (a0 : FVec F Cert.Pre_finite_inputs.S50000x64 .f32) (a1 : FVec F Cert.Pre_finite_inputs.S50000x3 .f32)
    (a2 : FVec F Cert.Pre_finite_inputs.S800000 .f32) (a3 : FVec F Cert.Pre_finite_inputs.S1x32 .f32)
    (a4 : FVec F Cert.Pre_finite_inputs.S32 .f32) (a5 : FVec F Cert.Pre_finite_inputs.S32x32 .f32)
    (a6 : FVec F Cert.Pre_finite_inputs.S32 .f32) (a7 : FVec F Cert.Pre_finite_inputs.S160x128 .f32)
    (a8 : FVec F Cert.Pre_finite_inputs.S128 .f32) (a9 : FVec F Cert.Pre_finite_inputs.S128x64 .f32)
    (a10 : FVec F Cert.Pre_finite_inputs.S64 .f32) (a11 : FVec F Cert.Pre_finite_inputs.S160x128 .f32)
    (a12 : FVec F Cert.Pre_finite_inputs.S128 .f32) (a13 : FVec F Cert.Pre_finite_inputs.S128x1 .f32)
    (a14 : IVec Cert.Pre_finite_inputs.S2x800000 32)
    (h : Cert.Pre_finite_inputs.fn (F := F) a0 a1 a2 a3 a4 a5 a6 a7 a8 a9 a10 a11 a12 a13 a14 = fun _ => 1#1)
    (i : Cert.Pre_finite_inputs.S800000.Idx) :
    cmpi .sge (shapeCast Cert.Pre_finite_inputs.S800000
        (extractStridedSlice Cert.Pre_finite_inputs.S1x800000 ![1, 0] a14 slices_S2x800000_S1x800000_1_0)
        shapeCasts_S1x800000_S800000)
      (broadcastInDim Cert.Pre_finite_inputs.S800000 ![] bcast_S_S800000
        (constantI Cert.Pre_finite_inputs.S_ 32 0#32)) i = 1#1 := by
  have h0 := congrFun h ix0
  unfold Cert.Pre_finite_inputs.fn Cert.Pre_finite_inputs.fn_part1 Cert.Pre_finite_inputs.fn_part2
    Cert.Pre_finite_inputs.fn_part3 Cert.Pre_finite_inputs.fn_part4 at h0
  have h1 := (IntOp.andi_eq_one.mp h0).2
  exact Host.reduce_andi_all _ _ _ _ ix0 h1 i

end Cert.DstDomain

end
-- ==== Proof.FinalK.lean ====
/-
  The kernel program's two results. The kernel call's result array holds, for edge `e`, the node message (columns
  0–63) and the coordinate message (columns 64–66) of the specification; the lines after the call cut the two column
  ranges out and add each edge's messages onto its destination node, starting from the node features and the
  coordinates themselves. On the domain where the destination indices are non-negative the wrap-around applied to
  them is the identity, so the messages land at the destinations as given.
-/
import proofs.«138976_j2319282340047_2_alg».proof.Defs
import proofs.«138976_j2319282340047_2_alg».proof.Proof.KBlocks
import proofs.«138976_j2319282340047_2_alg».proof.Proof.PreDst
import proofs.«138976_j2319282340047_2_alg».proof.Proof.Gen.Pre_finite_inputs

set_option maxRecDepth 16384

noncomputable section

namespace Cert.Final

open Idealize.ShloMosaic Idealize.ShloMosaic.TcCoe Idealize.ShloMosaic.ValueIdx Idealize.SL.Sem Cert.Spec
open Cert.KernelIdeal Cert.KernelIdeal.Gen Cert.KernelIdeal.Hand Cert.KernelIdeal.Blocks Cert.KernelIdeal.HostValue

variable (m : (ℓ : Loc nD τ sig) → Buf (Elt Ideal) ℓ) (c : Dev nD)
/-! ## The two column ranges of the kernel call's result -/

/-- Columns 0–63 of the result array are the node messages. -/
theorem slice_m (hs : S800000x67.Slices ![0, 0] S800000x64) :
    extractStridedSlice S800000x64 ![0, 0] (gOut m c) hs = mFull (GA m c) (GB m c) (aEd m c) (aWe1 m c) (aBe1 m c) (aWe2 m c) (aBe2 m c) (aWn1 m c) (aBn1 m c) (aWn2 m c) (aBn2 m c) := by
  funext i
  obtain ⟨e, j, rfl⟩ : ∃ (e : Fin 800000) (j : Fin 64), i = ix2 e j := ⟨i 0, i 1, eq_ix2 i⟩
  refine (slice2_axis1_eq 0 (gOut m c) hs e j).trans ?_
  show gOutAt m c e _ = _
  unfold gOutAt
  have hj : 0 + j.val < 64 := by have := j.isLt; omega
  rw [dif_pos hj]
  exact congrArg (fun q : Fin 64 => mFull (GA m c) (GB m c) (aEd m c) (aWe1 m c) (aBe1 m c) (aWe2 m c) (aBe2 m c) (aWn1 m c) (aBn1 m c) (aWn2 m c) (aBn2 m c) (ix2 e q)) (Fin.ext (Nat.zero_add _))

/-- Columns 64–66 are the coordinate messages. -/
theorem slice_c (hs : S800000x67.Slices ![0, 64] S800000x3) :
    extractStridedSlice S800000x3 ![0, 64] (gOut m c) hs = cFull (GA m c) (GB m c) (GX1 m c) (GX2 m c) (aEd m c) (aWe1 m c) (aBe1 m c) (aWe2 m c) (aBe2 m c) (aWc1 m c) (aBc1 m c) (aWc2 m c) := by
  funext i
  obtain ⟨e, d, rfl⟩ : ∃ (e : Fin 800000) (d : Fin 3), i = ix2 e d := ⟨i 0, i 1, eq_ix2 i⟩
  refine (slice2_axis1_eq 64 (gOut m c) hs e d).trans ?_
  show gOutAt m c e _ = _
  unfold gOutAt
  have hd : ¬ (64 + d.val < 64) := by omega
  rw [dif_neg hd]
  exact congrArg (fun q : Fin 3 => cFull (GA m c) (GB m c) (GX1 m c) (GX2 m c) (aEd m c) (aWe1 m c) (aBe1 m c) (aWe2 m c) (aBe2 m c) (aWc1 m c) (aBc1 m c) (aWc2 m c) (ix2 e q)) (Fin.ext (by show 64 + d.val - 64 = d.val; omega))

/-! ## The kernel program's two results -/

/-- The new node features: each edge's node message added onto its destination node's features. -/
def hNew : CF S50000x64 :=
  Host.scatterAdd (F := Ideal) (φ := .f32) scatter_S50000x64_S800000x1_S800000x64_1_0_0_1 (aH m c : CF S50000x64)
    (colI (dstOf (aIdx m c))) (mFull (GA m c) (GB m c) (aEd m c) (aWe1 m c) (aBe1 m c) (aWe2 m c) (aBe2 m c) (aWn1 m c) (aBn1 m c) (aWn2 m c) (aBn2 m c))

/-- The new coordinates: each edge's coordinate message added onto its destination node's coordinates. -/
def xNew : CF S50000x3 :=
  Host.scatterAdd (F := Ideal) (φ := .f32) scatter_S50000x3_S800000x1_S800000x3_1_0_0_1 (aX m c : CF S50000x3)
    (colI (dstOf (aIdx m c))) (cFull (GA m c) (GB m c) (GX1 m c) (GX2 m c) (aEd m c) (aWe1 m c) (aBe1 m c) (aWe2 m c) (aBe2 m c) (aWc1 m c) (aBc1 m c) (aWc2 m c))

/-- Non-negative destination indices are their own wrap-around. -/
theorem norm_dst (hd : ∀ i, cmpi .sge (dstOf (aIdx m c)) (broadcastInDim S800000 ![] bcast_S_S800000 (constantI S_ 32 0#32)) i = 1#1) :
    normI (dstOf (aIdx m c)) = dstOf (aIdx m c) := by
  unfold normI
  exact Cert.DstDomain.select_slt_eq_self _ _ _ hd

theorem kernel_h (hd : ∀ i, cmpi .sge (dstOf (aIdx m c)) (broadcastInDim S800000 ![] bcast_S_S800000 (constantI S_ 32 0#32)) i = 1#1) :
    (Pipeline.afterTail₀ cfgs (dats m) 0 (V0 m) [hostOps1] c main_v54 : CF S50000x64) = hNew m c := by
  rw [res_h m c, final15 m c, slice_m m c, norm_dst m c hd]
  rfl

theorem kernel_x (hd : ∀ i, cmpi .sge (dstOf (aIdx m c)) (broadcastInDim S800000 ![] bcast_S_S800000 (constantI S_ 32 0#32)) i = 1#1) :
    (Pipeline.afterTail₀ cfgs (dats m) 0 (V0 m) [hostOps1] c main_v61 : CF S50000x3) = xNew m c := by
  rw [res_x m c, final15 m c, slice_c m c, norm_dst m c hd]
  rfl

/-- The precondition's domain conjunct at this memory: every destination index is non-negative. -/
theorem dst_ok (hpre : Cert.Pre_KernelIdeal (hPre_finite_inputs := Cert.Pre_finite_inputs.Gen.facts) m) :
    ∀ i, cmpi .sge (dstOf (aIdx m c)) (broadcastInDim S800000 ![] bcast_S_S800000 (constantI S_ 32 0#32)) i = 1#1 :=
  fun i => Cert.DstDomain.dst_nonneg (hP := Cert.Pre_finite_inputs.Gen.facts) _ _ _ _ _ _ _ _ _ _ _ _ _ _ _ (hpre c) i

end Cert.Final

end
-- ==== Proof.RefValue.lean ====
/-
  The reference program's edge stages, read entry by entry on the extended reals.

  Every stage of the reference is a composition of pointwise operations, products with a matrix (finite sums) and
  re-layouts. Read at one entry, the node-message stage is the row function `rM` of the edge's row of data and the
  coordinate-message stage is `rC`: the two perceptrons' hidden layers are `silu` of a finite sum plus a bias, where
  the reference spells `silu x` as `x · (1 / (1 + exp (−x)))`, which is `x · logistic x`; the 160-wide message input is
  the joined row of the two gathered feature rows and the edge attribute; the row norm is the square root of the sum
  of three squares. The four gathered arrays are kept as they are: only their entries are read.
-/
import proofs.«138976_j2319282340047_2_alg».proof.Proof.Gen.ReferenceIdeal.Read
import proofs.«138976_j2319282340047_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
open Cert.Spec

/-- A float array and an integer array of a literal shape, on the extended reals. -/
abbrev CF (S : Shape) : Type := (⟨S, .f32⟩ : BufTy).Contents (Elt Ideal)
abbrev CI (S : Shape) : Type := (⟨S, .i32⟩ : BufTy).Contents (Elt Ideal)

/-! ## Constants and `silu` -/

/-- The single-precision word of `1.0` denotes `1`. -/
theorem one_eq : Ideal.ofBits .f32 0x3F800000#32 = 1 := by
  simp [Ideal.ofBits, Ideal.ieee, -EReal.coe_mul]; norm_num

/-- `x · (1 / (1 + exp (−x)))` is `silu x`. -/
theorem silu_eq (x : EReal) :
    x * Ideal.div (Ideal.ofBits .f32 0x3F800000#32) (Ideal.ofBits .f32 0x3F800000#32 + Ideal.exp (-x)) = silu x := by
  rw [one_eq]; rfl

/-! ## The edge perceptron -/

theorem idx_v4_v5 (e : Fin 800000) (k : Fin 32) (q : Fin 1) : idx_main_v4 (lidx_main_v5 (ix2 e k) q) = ix1 e :=
  funext fun a => Fin.ext (by match a with | ⟨0, _⟩ => rfl)
theorem ridx_v5 (e : Fin 800000) (k : Fin 32) (q : Fin 1) : ridx_main_v5 (ix2 e k) q = ix2 0 k :=
  funext fun a => Fin.ext (by match a with
    | ⟨0, _⟩ => exact Nat.lt_one_iff.mp q.isLt
    | ⟨1, _⟩ => rfl)
theorem idx_v6_v7 (e : Fin 800000) (k : Fin 32) : idx_main_v6 (idx_main_v7 (ix2 e k)) = ix1 k :=
  funext fun a => Fin.ext (by match a with | ⟨0, _⟩ => rfl)

/-- The first layer before its activation: `ed e · We1 k + be1 k` (a product over one contracted entry). -/
theorem v8_at (x2 : CF S800000) (x3 : CF S1x32) (x4 : CF S32) (e : Fin 800000) (k : Fin 32) :
    val_main_v8 (F := Ideal) x2 x3 x4 (ix2 e k) = x2 (ix1 e) * x3 (ix2 0 k) + x4 (ix1 k) := by
  rw [val_main_v8_apply, val_main_v5_apply, val_main_v7_apply, val_main_v6_apply, Fin.sum_univ_one, val_main_v4_apply,
    idx_v4_v5, ridx_v5, idx_v6_v7]
  rfl

/-- The first layer: `silu (ed e · We1 k + be1 k)`. -/
theorem v9_at (x2 : CF S800000) (x3 : CF S1x32) (x4 : CF S32) (e : Fin 800000) (k : Fin 32) :
    val_main_v9 (F := Ideal) x2 x3 x4 (ix2 e k) = rHidE (x2 (ix1 e)) (row x3 0) (vec x4) k := by
  rw [val_main_v9_apply, val_main_call0_v5_apply, val_main_call0_v4_apply, val_main_call0_cst_0_apply,
    val_main_call0_v3_apply, val_main_call0_v2_apply, val_main_call0_cst_apply, val_main_call0_v1_apply,
    val_main_call0_v0_apply, v8_at]
  simp only [Ideal.mulf_def, Ideal.hostDivf_def, Ideal.ofBits_def, Ideal.addf_def, Ideal.hostUnary_exp_def,
    Ideal.hostNegf_def, Ideal.negf_def]
  exact silu_eq _

theorem lidx_v10 (e : Fin 800000) (k k' : Fin 32) : lidx_main_v10 (ix2 e k) k' = ix2 e k' :=
  funext fun a => Fin.ext (by match a with | ⟨0, _⟩ => rfl | ⟨1, _⟩ => rfl)
theorem ridx_v10 (e : Fin 800000) (k k' : Fin 32) : ridx_main_v10 (ix2 e k) k' = ix2 k' k :=
  funext fun a => Fin.ext (by match a with | ⟨0, _⟩ => rfl | ⟨1, _⟩ => rfl)
theorem idx_v11_v12 (e : Fin 800000) (k : Fin 32) : idx_main_v11 (idx_main_v12 (ix2 e k)) = ix1 k :=
  funext fun a => Fin.ext (by match a with | ⟨0, _⟩ => rfl)

/-- The edge attribute: the second layer of the edge perceptron. -/
theorem v13_at (x2 : CF S800000) (x3 : CF S1x32) (x4 : CF S32) (x5 : CF S32x32) (x6 : CF S32) (e : Fin 800000)
    (k : Fin 32) :
    val_main_v13 (F := Ideal) x2 x3 x4 x5 x6 (ix2 e k) = attr x2 x3 x4 x5 x6 e k := by
  rw [val_main_v13_apply, val_main_v10_apply, val_main_v12_apply, val_main_v11_apply]
  simp only [lidx_v10, ridx_v10, idx_v11_v12, v9_at, Ideal.addf_def]
  rfl

/-! ## The message input: the joined row -/

/-- The joined 160-wide array at an entry: the first gathered row, then the second, then the edge attribute. -/
theorem v28_at (x0 : CF S50000x64) (x2 : CF S800000) (x3 : CF S1x32) (x4 : CF S32) (x5 : CF S32x32) (x6 : CF S32)
    (x14 : CI S2x800000) (e : Fin 800000) (k : Fin 160) :
    val_main_v28 (F := Ideal) x0 x2 x3 x4 x5 x6 x14 (ix2 e k)
      = rMsg (row (val_main_v20 (F := Ideal) x0 x14) e) (row (val_main_v27 (F := Ideal) x0 x14) e)
          (attr x2 x3 x4 x5 x6 e) k := by
  unfold val_main_v28 rMsg
  by_cases h : k.val < 64
  · rw [dif_pos h]
    exact concatenate_apply_piece (t := S800000x160) 1
        [⟨S800000x64, val_main_v20 (F := Ideal) x0 x14⟩, ⟨S800000x64, val_main_v27 (F := Ideal) x0 x14⟩, ⟨S800000x32, val_main_v13 (F := Ideal) x2 x3 x4 x5 x6⟩]
        concatenates_S800000x64_S800000x64_S800000x32_S800000x160_d1 (ix2 e k)
      0 (by show (0 : Nat) < 3; omega) S800000x64 (val_main_v20 (F := Ideal) x0 x14) rfl rfl 0 rfl (ix2 e ⟨k.val, h⟩)
      (fun b hb => by match b with
        | ⟨0, _⟩ => rfl
        | ⟨1, _⟩ => exact absurd rfl hb)
      (by show 0 + k.val = k.val; omega)
  · rw [dif_neg h]
    by_cases h' : k.val < 128
    · rw [dif_pos h']
      exact concatenate_apply_piece (t := S800000x160) 1
        [⟨S800000x64, val_main_v20 (F := Ideal) x0 x14⟩, ⟨S800000x64, val_main_v27 (F := Ideal) x0 x14⟩, ⟨S800000x32, val_main_v13 (F := Ideal) x2 x3 x4 x5 x6⟩]
        concatenates_S800000x64_S800000x64_S800000x32_S800000x160_d1 (ix2 e k)
        1 (by show (1 : Nat) < 3; omega) S800000x64 (val_main_v27 (F := Ideal) x0 x14) rfl rfl 64 rfl (ix2 e ⟨k.val - 64, by omega⟩)
        (fun b hb => by match b with
          | ⟨0, _⟩ => rfl
          | ⟨1, _⟩ => exact absurd rfl hb)
        (by show 64 + (k.val - 64) = k.val; omega)
    · rw [dif_neg h', ← v13_at]
      exact concatenate_apply_piece (t := S800000x160) 1
        [⟨S800000x64, val_main_v20 (F := Ideal) x0 x14⟩, ⟨S800000x64, val_main_v27 (F := Ideal) x0 x14⟩, ⟨S800000x32, val_main_v13 (F := Ideal) x2 x3 x4 x5 x6⟩]
        concatenates_S800000x64_S800000x64_S800000x32_S800000x160_d1 (ix2 e k)
        2 (by show (2 : Nat) < 3; omega) S800000x32 (val_main_v13 (F := Ideal) x2 x3 x4 x5 x6) rfl rfl 128 rfl (ix2 e ⟨k.val - 128, by omega⟩)
        (fun b hb => by match b with
          | ⟨0, _⟩ => rfl
          | ⟨1, _⟩ => exact absurd rfl hb)
        (by show 128 + (k.val - 128) = k.val; have := k.isLt; omega)

/-! ## The node perceptron -/

theorem lidx_v29 (e : Fin 800000) (n : Fin 128) (k : Fin 160) : lidx_main_v29 (ix2 e n) k = ix2 e k :=
  funext fun a => Fin.ext (by match a with | ⟨0, _⟩ => rfl | ⟨1, _⟩ => rfl)
theorem ridx_v29 (e : Fin 800000) (n : Fin 128) (k : Fin 160) : ridx_main_v29 (ix2 e n) k = ix2 k n :=
  funext fun a => Fin.ext (by match a with | ⟨0, _⟩ => rfl | ⟨1, _⟩ => rfl)
theorem idx_v30_v31 (e : Fin 800000) (n : Fin 128) : idx_main_v30 (idx_main_v31 (ix2 e n)) = ix1 n :=
  funext fun a => Fin.ext (by match a with | ⟨0, _⟩ => rfl)

/-- The node perceptron's hidden layer: `silu` of the message input times the first matrix, plus the bias. -/
theorem v33_at (x0 : CF S50000x64) (x2 : CF S800000) (x3 : CF S1x32) (x4 : CF S32) (x5 : CF S32x32) (x6 : CF S32)
    (x7 : CF S160x128) (x8 : CF S128) (x14 : CI S2x800000) (e : Fin 800000) (n : Fin 128) :
    val_main_v33 (F := Ideal) x0 x2 x3 x4 x5 x6 x7 x8 x14 (ix2 e n)
      = rHid (rMsg (row (val_main_v20 (F := Ideal) x0 x14) e) (row (val_main_v27 (F := Ideal) x0 x14) e)
          (attr x2 x3 x4 x5 x6 e)) (mat x7) (vec x8) n := by
  rw [val_main_v33_apply, val_main_call1_v5_apply, val_main_call1_v4_apply, val_main_call1_cst_0_apply,
    val_main_call1_v3_apply, val_main_call1_v2_apply, val_main_call1_cst_apply, val_main_call1_v1_apply,
    val_main_call1_v0_apply, val_main_v32_apply, val_main_v29_apply, val_main_v31_apply, val_main_v30_apply]
  simp only [lidx_v29, ridx_v29, idx_v30_v31, v28_at, Ideal.mulf_def, Ideal.hostDivf_def, Ideal.ofBits_def,
    Ideal.addf_def, Ideal.hostUnary_exp_def, Ideal.hostNegf_def, Ideal.negf_def]
  exact silu_eq _

theorem lidx_v34 (e : Fin 800000) (j : Fin 64) (n : Fin 128) : lidx_main_v34 (ix2 e j) n = ix2 e n :=
  funext fun a => Fin.ext (by match a with | ⟨0, _⟩ => rfl | ⟨1, _⟩ => rfl)
theorem ridx_v34 (e : Fin 800000) (j : Fin 64) (n : Fin 128) : ridx_main_v34 (ix2 e j) n = ix2 n j :=
  funext fun a => Fin.ext (by match a with | ⟨0, _⟩ => rfl | ⟨1, _⟩ => rfl)
theorem idx_v35_v36 (e : Fin 800000) (j : Fin 64) : idx_main_v35 (idx_main_v36 (ix2 e j)) = ix1 j :=
  funext fun a => Fin.ext (by match a with | ⟨0, _⟩ => rfl)

/-- **The node messages**: the reference's node-message stage is `mFull` of the two gathered feature arrays, the
    distances and the weights. -/
theorem mOut_eq (x0 : CF S50000x64) (x2 : CF S800000) (x3 : CF S1x32) (x4 : CF S32) (x5 : CF S32x32) (x6 : CF S32)
    (x7 : CF S160x128) (x8 : CF S128) (x9 : CF S128x64) (x10 : CF S64) (x14 : CI S2x800000) :
    val_main_v37 (F := Ideal) x0 x2 x3 x4 x5 x6 x7 x8 x9 x10 x14
      = mFull (val_main_v20 (F := Ideal) x0 x14) (val_main_v27 (F := Ideal) x0 x14) x2 x3 x4 x5 x6 x7 x8 x9 x10 := by
  funext i
  obtain ⟨e, j, rfl⟩ : ∃ (e : Fin 800000) (j : Fin 64), i = ix2 e j := ⟨i 0, i 1, eq_ix2 i⟩
  rw [val_main_v37_apply, val_main_v34_apply, val_main_v36_apply, val_main_v35_apply]
  simp only [lidx_v34, ridx_v34, idx_v35_v36, v33_at, Ideal.addf_def]
  rfl

/-! ## The coordinate perceptron -/

theorem lidx_v41 (e : Fin 800000) (n : Fin 128) (k : Fin 160) : lidx_main_v41 (ix2 e n) k = ix2 e k :=
  funext fun a => Fin.ext (by match a with | ⟨0, _⟩ => rfl | ⟨1, _⟩ => rfl)
theorem ridx_v41 (e : Fin 800000) (n : Fin 128) (k : Fin 160) : ridx_main_v41 (ix2 e n) k = ix2 k n :=
  funext fun a => Fin.ext (by match a with | ⟨0, _⟩ => rfl | ⟨1, _⟩ => rfl)
theorem idx_v42_v43 (e : Fin 800000) (n : Fin 128) : idx_main_v42 (idx_main_v43 (ix2 e n)) = ix1 n :=
  funext fun a => Fin.ext (by match a with | ⟨0, _⟩ => rfl)

/-- The coordinate perceptron's hidden layer. -/
theorem v45_at (x0 : CF S50000x64) (x2 : CF S800000) (x3 : CF S1x32) (x4 : CF S32) (x5 : CF S32x32) (x6 : CF S32)
    (x11 : CF S160x128) (x12 : CF S128) (x14 : CI S2x800000) (e : Fin 800000) (n : Fin 128) :
    val_main_v45 (F := Ideal) x0 x2 x3 x4 x5 x6 x11 x12 x14 (ix2 e n)
      = rHid (rMsg (row (val_main_v20 (F := Ideal) x0 x14) e) (row (val_main_v27 (F := Ideal) x0 x14) e)
          (attr x2 x3 x4 x5 x6 e)) (mat x11) (vec x12) n := by
  rw [val_main_v45_apply, val_main_call2_v5_apply, val_main_call2_v4_apply, val_main_call2_cst_0_apply,
    val_main_call2_v3_apply, val_main_call2_v2_apply, val_main_call2_cst_apply, val_main_call2_v1_apply,
    val_main_call2_v0_apply, val_main_v44_apply, val_main_v41_apply, val_main_v43_apply, val_main_v42_apply]
  simp only [lidx_v41, ridx_v41, idx_v42_v43, v28_at, Ideal.mulf_def, Ideal.hostDivf_def, Ideal.ofBits_def,
    Ideal.addf_def, Ideal.hostUnary_exp_def, Ideal.hostNegf_def, Ideal.negf_def]
  exact silu_eq _

theorem lidx_v46 (e : Fin 800000) (n : Fin 128) : lidx_main_v46 (ix2 e 0) n = ix2 e n :=
  funext fun a => Fin.ext (by match a with | ⟨0, _⟩ => rfl | ⟨1, _⟩ => rfl)
theorem ridx_v46 (e : Fin 800000) (n : Fin 128) : ridx_main_v46 (ix2 e 0) n = ix2 n 0 :=
  funext fun a => Fin.ext (by match a with | ⟨0, _⟩ => rfl | ⟨1, _⟩ => rfl)

/-- The coordinate weight of an edge. -/
theorem v46_at (x0 : CF S50000x64) (x2 : CF S800000) (x3 : CF S1x32) (x4 : CF S32) (x5 : CF S32x32) (x6 : CF S32)
    (x11 : CF S160x128) (x12 : CF S128) (x13 : CF S128x1) (x14 : CI S2x800000) (e : Fin 800000) :
    val_main_v46 (F := Ideal) x0 x2 x3 x4 x5 x6 x11 x12 x13 x14 (ix2 e 0)
      = rCw (rHid (rMsg (row (val_main_v20 (F := Ideal) x0 x14) e) (row (val_main_v27 (F := Ideal) x0 x14) e)
          (attr x2 x3 x4 x5 x6 e)) (mat x11) (vec x12)) (fun n => x13 (ix2 n 0)) := by
  rw [val_main_v46_apply]
  simp only [lidx_v46, ridx_v46, v45_at]
  rfl

/-! ## The direction and its length -/

/-- The difference of the gathered endpoint coordinates. -/
theorem v61_at (x1 : CF S50000x3) (x14 : CI S2x800000) (e : Fin 800000) (d : Fin 3) :
    val_main_v61 (F := Ideal) x1 x14 (ix2 e d)
      = rDvec (row (val_main_v53 (F := Ideal) x1 x14) e) (row (val_main_v60 (F := Ideal) x1 x14) e) d := rfl

theorem idx_c3v2 (e : Fin 800000) : idx_main_call3_v2 (ix2 e 0) = ix1 e :=
  funext fun a => Fin.ext (by match a with | ⟨0, _⟩ => rfl)
theorem idx_c3v1 (e : Fin 800000) (d : Fin 3) : idx_main_call3_v1 (ix1 e) d = ix2 e d :=
  funext fun a => Fin.ext (by match a with | ⟨0, _⟩ => rfl | ⟨1, _⟩ => rfl)

/-- The length of the difference, kept away from zero. -/
theorem v64_at (x1 : CF S50000x3) (x14 : CI S2x800000) (e : Fin 800000) :
    val_main_v64 (F := Ideal) x1 x14 (ix2 e 0)
      = rDlen (row (val_main_v53 (F := Ideal) x1 x14) e) (row (val_main_v60 (F := Ideal) x1 x14) e) := by
  rw [val_main_v64_apply, val_main_v62_apply, val_main_call3_v2_apply, idx_c3v2, val_main_call3_v1_apply,
    val_main_call3_cst_apply, val_main_v63_apply, val_main_cst_7_apply]
  simp only [idx_c3v1, val_main_call3_v0_apply, v61_at, Ideal.mulf_def, Ideal.ofBits_def, Ideal.ofBits_zero_f32, zero_add,
    Ideal.hostUnary_sqrt_def, Ideal.maximumf_def]
  rfl

theorem idx_v65 (e : Fin 800000) (d : Fin 3) : idx_main_v65 (ix2 e d) = ix2 e 0 :=
  funext fun a => Fin.ext (by match a with | ⟨0, _⟩ => rfl | ⟨1, _⟩ => rfl)
theorem idx_v67 (e : Fin 800000) (d : Fin 3) : idx_main_v67 (ix2 e d) = ix2 e 0 :=
  funext fun a => Fin.ext (by match a with | ⟨0, _⟩ => rfl | ⟨1, _⟩ => rfl)

/-- **The coordinate messages**: the reference's coordinate-message stage is `cFull` of the gathered feature and
    coordinate arrays, the distances and the weights. -/
theorem cOut_eq (x0 : CF S50000x64) (x1 : CF S50000x3) (x2 : CF S800000) (x3 : CF S1x32) (x4 : CF S32) (x5 : CF S32x32)
    (x6 : CF S32) (x11 : CF S160x128) (x12 : CF S128) (x13 : CF S128x1) (x14 : CI S2x800000) :
    val_main_v68 (F := Ideal) x0 x1 x2 x3 x4 x5 x6 x11 x12 x13 x14
      = cFull (val_main_v20 (F := Ideal) x0 x14) (val_main_v27 (F := Ideal) x0 x14) (val_main_v53 (F := Ideal) x1 x14)
          (val_main_v60 (F := Ideal) x1 x14) x2 x3 x4 x5 x6 x11 x12 x13 := by
  funext i
  obtain ⟨e, d, rfl⟩ : ∃ (e : Fin 800000) (d : Fin 3), i = ix2 e d := ⟨i 0, i 1, eq_ix2 i⟩
  rw [val_main_v68_apply, val_main_v67_apply, idx_v67, v46_at, val_main_v66_apply, val_main_v65_apply, idx_v65, v64_at,
    v61_at]
  rfl

/-! ## The two results, as the last stages spell them -/

/-- The array the node messages are accumulated onto is zero everywhere. -/
theorem v38_zero : val_main_v38 (F := Ideal) = fun _ => 0 := by
  funext i
  rw [val_main_v38_apply, val_main_cst_apply, Ideal.ofBits_def, Ideal.ofBits_zero_f32]

/-- So is the one the coordinate messages are accumulated onto. -/
theorem v69_zero : val_main_v69 (F := Ideal) = fun _ => 0 := by
  funext i
  rw [val_main_v69_apply, val_main_cst_8_apply, Ideal.ofBits_def, Ideal.ofBits_zero_f32]

theorem idx_v3_v39 (e : Fin 800000) : idx_main_v2 (idx_main_v3 (idx_main_v39 (ix2 e 0))) = ix2 1 e :=
  funext fun a => Fin.ext (by match a with
    | ⟨0, _⟩ => rfl
    | ⟨1, _⟩ => exact Nat.mod_eq_of_lt e.isLt)

/-- The destination of edge `e`'s message: the second row of the edge list, as given. -/
theorem v39_at (x14 : CI S2x800000) (e : Fin 800000) : val_main_v39 (F := Ideal) x14 (ix2 e 0) = x14 (ix2 1 e) := by
  rw [val_main_v39_apply, val_main_v3_apply, val_main_v2_apply, idx_v3_v39]

/-- The two destination arrays are one. -/
theorem v70_eq (x14 : CI S2x800000) : val_main_v70 (F := Ideal) x14 = val_main_v39 (F := Ideal) x14 := rfl

/-- The first result: the node features plus the node messages added up at their destinations. -/
theorem res_h (x0 : CF S50000x64) (x2 : CF S800000) (x3 : CF S1x32) (x4 : CF S32) (x5 : CF S32x32) (x6 : CF S32)
    (x7 : CF S160x128) (x8 : CF S128) (x9 : CF S128x64) (x10 : CF S64) (x14 : CI S2x800000) :
    val_main_v72 (F := Ideal) x0 x2 x3 x4 x5 x6 x7 x8 x9 x10 x14
      = addf (φ := .f32) x0 (Host.scatterAdd (F := Ideal) (φ := .f32) scatter_S50000x64_S800000x1_S800000x64_1_0_0_1 (val_main_v38 (F := Ideal))
          (val_main_v39 (F := Ideal) x14) (val_main_v37 (F := Ideal) x0 x2 x3 x4 x5 x6 x7 x8 x9 x10 x14)) := rfl

/-- The second result: the coordinates plus the coordinate messages added up at their destinations. -/
theorem res_x (x0 : CF S50000x64) (x1 : CF S50000x3) (x2 : CF S800000) (x3 : CF S1x32) (x4 : CF S32) (x5 : CF S32x32)
    (x6 : CF S32) (x11 : CF S160x128) (x12 : CF S128) (x13 : CF S128x1) (x14 : CI S2x800000) :
    val_main_v73 (F := Ideal) x0 x1 x2 x3 x4 x5 x6 x11 x12 x13 x14
      = addf (φ := .f32) x1 (Host.scatterAdd (F := Ideal) (φ := .f32) scatter_S50000x3_S800000x1_S800000x3_1_0_0_1 (val_main_v69 (F := Ideal))
          (val_main_v70 (F := Ideal) x14) (val_main_v68 (F := Ideal) x0 x1 x2 x3 x4 x5 x6 x11 x12 x13 x14)) := rfl

end Cert.ReferenceIdeal.RefValue

end
-- ==== Proof.Bridge.lean ====
/-
  The two programs spell the same index vectors and the same gathered arrays.

  Both main functions slice the edge list into its two rows, bring negative indices into range in the same way and
  gather the node features and the coordinates at them; the kernel's program first narrows the node features to half
  width, which is the identity on extended reals. So the gathered arrays of the one program are those of the other,
  the destination column is the same array, and the two scatter-adds have the same dimension numbers.
-/
import proofs.«138976_j2319282340047_2_alg».proof.Proof.KHost
import proofs.«138976_j2319282340047_2_alg».proof.Proof.RefValue

noncomputable section

namespace Cert.Bridge

open Idealize.ShloMosaic Idealize.ShloMosaic.TcCoe Idealize.SL.Sem
open Cert.KernelIdeal.HostValue

variable (m : (ℓ : Loc Cert.KernelIdeal.nD Cert.KernelIdeal.τ Cert.KernelIdeal.sig) → Buf (Elt Ideal) ℓ)
  (c : Dev Cert.KernelIdeal.nD)

/-- The gathered source features are the reference's. -/
theorem ga_eq : GA m c = Cert.ReferenceIdeal.Read.val_main_v20 (F := Ideal) (aH m c) (aIdx m c) := rfl
/-- The gathered destination features are the reference's. -/
theorem gb_eq : GB m c = Cert.ReferenceIdeal.Read.val_main_v27 (F := Ideal) (aH m c) (aIdx m c) := rfl
/-- The gathered source coordinates are the reference's. -/
theorem gx1_eq : GX1 m c = Cert.ReferenceIdeal.Read.val_main_v53 (F := Ideal) (aX m c) (aIdx m c) := rfl
/-- The gathered destination coordinates are the reference's. -/
theorem gx2_eq : GX2 m c = Cert.ReferenceIdeal.Read.val_main_v60 (F := Ideal) (aX m c) (aIdx m c) := rfl

/-- The destination column, before negative indices are brought into range, is the reference's. -/
theorem idx_eq (x14 : CI Cert.KernelIdeal.S2x800000) :
    colI (dstOf x14) = Cert.ReferenceIdeal.Read.val_main_v39 (F := Ideal) x14 := rfl

/-- The two scatter-adds onto the node features have the same dimension numbers, -/
theorem sc64_eq : Cert.KernelIdeal.scatter_S50000x64_S800000x1_S800000x64_1_0_0_1
    = Cert.ReferenceIdeal.scatter_S50000x64_S800000x1_S800000x64_1_0_0_1 := rfl
/-- and so have the two onto the coordinates. -/
theorem sc3_eq : Cert.KernelIdeal.scatter_S50000x3_S800000x1_S800000x3_1_0_0_1
    = Cert.ReferenceIdeal.scatter_S50000x3_S800000x1_S800000x3_1_0_0_1 := rfl

end Cert.Bridge

end
-- ==== Proof.FinalR.lean ====
/-
  The reference's two results are the kernel program's. The reference computes the same messages from the same
  gathered rows, adds them up at the destinations as given starting from zero, and adds the node features and the
  coordinates afterwards: `x + (0 + Σ)` against the kernel program's `x + Σ`.
-/
import proofs.«138976_j2319282340047_2_alg».proof.Proof.FinalK
import proofs.«138976_j2319282340047_2_alg».proof.Proof.Bridge

set_option maxRecDepth 16384

noncomputable section

namespace Cert.Final

open Idealize.ShloMosaic Idealize.ShloMosaic.TcCoe Idealize.ShloMosaic.ValueIdx Idealize.SL.Sem Cert.Spec
open Cert.KernelIdeal Cert.KernelIdeal.Gen Cert.KernelIdeal.Hand Cert.KernelIdeal.Blocks Cert.KernelIdeal.HostValue

variable (m : (ℓ : Loc nD τ sig) → Buf (Elt Ideal) ℓ) (c : Dev nD)

/-- Adding updates up from zero and then adding `x` is adding them up onto `x`. -/
theorem scatter_from_zero {s si su : Shape} (d : ScatterDims s si su) {w : Nat} (x : FVec Ideal s .f32) (idx : IVec si w)
    (upd : FVec Ideal su .f32) :
    addf (F := Ideal) (φ := .f32) x (Host.scatterAdd (F := Ideal) (φ := .f32) d (fun _ => (0 : EReal)) idx upd)
      = Host.scatterAdd (F := Ideal) (φ := .f32) d x idx upd := by
  funext i
  show x i + ((0 : EReal) + _) = x i + _
  rw [zero_add]

/-- The reference's first result is `hNew`. -/
theorem ref_h :
    Cert.ReferenceIdeal.Read.val_main_v72 (F := Ideal) (aH m c) (aEd m c) (aWe1 m c) (aBe1 m c) (aWe2 m c) (aBe2 m c) (aWn1 m c) (aBn1 m c)
        (aWn2 m c) (aBn2 m c) (aIdx m c) = hNew m c := by
  rw [Cert.ReferenceIdeal.RefValue.res_h, Cert.ReferenceIdeal.RefValue.mOut_eq, Cert.ReferenceIdeal.RefValue.v38_zero,
    ← Cert.Bridge.ga_eq m c, ← Cert.Bridge.gb_eq m c, ← Cert.Bridge.idx_eq, ← Cert.Bridge.sc64_eq]
  exact scatter_from_zero _ _ _ _

/-- The reference's second result is `xNew`. -/
theorem ref_x :
    Cert.ReferenceIdeal.Read.val_main_v73 (F := Ideal) (aH m c) (aX m c) (aEd m c) (aWe1 m c) (aBe1 m c) (aWe2 m c) (aBe2 m c) (aWc1 m c)
        (aBc1 m c) (aWc2 m c) (aIdx m c) = xNew m c := by
  rw [Cert.ReferenceIdeal.RefValue.res_x, Cert.ReferenceIdeal.RefValue.cOut_eq, Cert.ReferenceIdeal.RefValue.v69_zero,
    Cert.ReferenceIdeal.RefValue.v70_eq,
    ← Cert.Bridge.ga_eq m c, ← Cert.Bridge.gb_eq m c, ← Cert.Bridge.gx1_eq m c, ← Cert.Bridge.gx2_eq m c, ← Cert.Bridge.idx_eq,
    ← Cert.Bridge.sc3_eq]
  exact scatter_from_zero _ _ _ _

end Cert.Final

end
-- ==== Proof.Final.lean ====
/-
  The value claim: the blocked kernel program and the whole-array reference, run from memories that agree on the
  arguments, both end, with the same new node features and the same new coordinates — on the domain where every
  destination index is non-negative.
-/
import proofs.«138976_j2319282340047_2_alg».proof.Proof.FinalR
import proofs.«138976_j2319282340047_2_alg».proof.Proof.Gen.KernelIdeal
import proofs.«138976_j2319282340047_2_alg».proof.Proof.Gen.ReferenceIdeal

set_option maxRecDepth 16384

noncomputable section

namespace Cert.Final

open Idealize.ShloMosaic Idealize.ShloMosaic.TcCoe Idealize.ShloMosaic.ValueIdx Idealize.SL.Sem Cert.Spec
open Cert.KernelIdeal Cert.KernelIdeal.Gen Cert.KernelIdeal.Hand Cert.KernelIdeal.Blocks Cert.KernelIdeal.HostValue

/-- Both programs run to the end; the kernel program's results are `hNew` and `xNew` of its memory, and so are the
    reference's of a memory that agrees with it on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => hNew m c, fun c => xNew m c, ?_, ?_⟩
  · exact (θ_run Cert.KernelIdeal.defs _ _).mono (fun r h c =>
      ⟨((h c).2 main_v54 (Pipeline.mem_restRefs_of main_v54 (by decide) (by decide))).trans (kernel_h m c (dst_ok m c hpre)),
        ((h c).2 main_v61 (Pipeline.mem_restRefs_of main_v61 (by decide) (by decide))).trans (kernel_x m c (dst_ok m c hpre)),
        args_of_post m (dats m) (A_eq m) r h c⟩) (run_main (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨g0, g1, g2, g3, g4, g5, g6, g7, g8, g9, g10, g11, g12, g13, g14⟩ := hagree c
      rw [Cert.ReferenceIdeal.Read.val_main_v72_eq, g0, g2, g3, g4, g5, g6, g7, g8, g9, g10, g14]
      exact ref_h m c
    · obtain ⟨g0, g1, g2, g3, g4, g5, g6, g7, g8, g9, g10, g11, g12, g13, g14⟩ := hagree c
      rw [Cert.ReferenceIdeal.Read.val_main_v73_eq, g0, g1, g2, g3, g4, g5, g6, g11, g12, g13, g14]
      exact ref_x m c

end Cert.Final

end
-- ==== Proof.lean ====
import proofs.«138976_j2319282340047_2_alg».proof.Defs
import proofs.«138976_j2319282340047_2_alg».proof.Proof.Gen.Kernel
import proofs.«138976_j2319282340047_2_alg».proof.Proof.Gen.KernelIdeal
import proofs.«138976_j2319282340047_2_alg».proof.Proof.Gen.ReferenceIdeal
import proofs.«138976_j2319282340047_2_alg».proof.Proof.Gen.Pre_finite_inputs
import proofs.«138976_j2319282340047_2_alg».proof.Proof.Frames
import proofs.«138976_j2319282340047_2_alg».proof.Proof.Final

/-! # An edge layer of an equivariant graph network: the pipelined program equals its whole-array reference

The program takes node features (50000 x 64), node coordinates (50000 x 3), one distance per edge (800000
edges), the weights of three small perceptrons, and the edges' endpoint indices (2 x 800000). Host lines gather,
for every edge, the features and coordinates of its two endpoints and lay them beside the edge's distance; one
pipelined region then walks the edges in 250 blocks of 3200 and computes, for every edge of a block, the edge's
message to its destination node (64 numbers) and its coordinate update (3 numbers): an edge attribute from the
distance, a hidden layer over endpoint features and attribute, the message, a scalar weight, and the weight
times the normalised difference of the endpoint coordinates; host lines after the region add every edge's
message and update onto its destination node's features and coordinates. The reference computes the same two
sums from whole arrays, with no blocks.

The claim holds on the domain where every float input is finite and the destination indices are non-negative;
that is the precondition. What is proved:

* the three frame claims: each program, from any launch, always terminates without a fault and leaves its
  fifteen argument arrays as launched. For the pipelined program, read at the word level and read over the
  extended reals, by the frame run written out window by window: no host line writes an argument, and the
  region writes only its output array. For the reference, by its straight-line run;
* the idealization rewrote no operation, so it has nothing to preserve;
* over the extended reals, from memories agreeing on the arguments, both programs run and their results are
  equal entry by entry, the arguments unchanged: the value claim, proved in Cert.Final. -/

noncomputable section

namespace Cert.Proof

/-- Everything the certificate claims, from its parts. -/
theorem claim : Cert.Claim :=
  ⟨Cert.Kernel.Gen.facts, Cert.KernelIdeal.Gen.facts, Cert.ReferenceIdeal.Gen.facts, Cert.Pre_finite_inputs.Gen.facts,
    Parts.frame_p, Parts.frame_pi, Parts.frame_ri, Parts.preserves, Cert.Final.algebraic⟩

end Cert.Proof

end
